-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v203) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3x128x17 : Shape := ⟨4, ![4096, 3, 128, 17]⟩
abbrev S_ : Shape := ⟨0, ![]⟩

class Facts : Prop where
  bcast_S_S4096x3x128x17 : S_.BroadcastsInDim S4096x3x128x17 (![] : Fin 0 → Fin S4096x3x128x17.rank)
  reducesTo_S4096x3x128x17_S_d0_1_2_3 : S4096x3x128x17.ReducesTo [0, 1, 2, 3] S_
  h_S_ : 0 < S_.numel

variable [Facts]

def fn {F : FTy → Type} [FloatOps F] (main_arg0 : FVec F S4096x3x128x17 .f32) : IVec S_ 1 :=
  let main_v0 : FVec F S4096x3x128x17 .f32 := Host.absf main_arg0
  let main_cst : FVec F S_ .f32 := constant S_ .f32 0x7F800000#32
  let main_v1 : FVec F S4096x3x128x17 .f32 := broadcastInDim S4096x3x128x17 ![] bcast_S_S4096x3x128x17 main_cst
  let main_v2 : IVec S4096x3x128x17 1 := cmpf .olt main_v0 main_v1
  let main_c : IVec S_ 1 := constantI S_ 1 1#1
  let main_v3 : IVec S_ 1 := (fun x v => Host.reduce IntOp.andi x v reducesTo_S4096x3x128x17_S_d0_1_2_3 h_S_) main_v2 main_c
  main_v3
-- ==== Kernel.lean ====
abbrev S4096x3x128x17 : Shape := ⟨4, ![4096, 3, 128, 17]⟩
abbrev S4096x7 : Shape := ⟨2, ![4096, 7]⟩
abbrev S64x1x128x17 : Shape := ⟨4, ![64, 1, 128, 17]⟩
abbrev S64x7 : Shape := ⟨2, ![64, 7]⟩
abbrev S64x128x17 : Shape := ⟨3, ![64, 128, 17]⟩
abbrev S64x128x1 : Shape := ⟨3, ![64, 128, 1]⟩
abbrev S64x128x2 : Shape := ⟨3, ![64, 128, 2]⟩
abbrev S64x128 : Shape := ⟨2, ![64, 128]⟩
abbrev S64x128x5 : Shape := ⟨3, ![64, 128, 5]⟩
abbrev S64 : Shape := ⟨1, ![64]⟩
abbrev S64x1 : Shape := ⟨2, ![64, 1]⟩
abbrev S7x4096 : Shape := ⟨2, ![7, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4096x3x128x17, .f32⟩
  | .hbm, ⟨1, _⟩ => ⟨S4096x7, .i32⟩
  | .hbm, ⟨2, _⟩ => ⟨S4096x7, .i32⟩
  | .hbm, ⟨3, _⟩ => ⟨S7x4096, .i32⟩
  | .hbm, ⟨4, _⟩ => ⟨S7x4096, .i32⟩
  | .local _ .vmem, ⟨0, _⟩ => ⟨S64x1x128x17, .f32⟩
  | .local _ .vmem, ⟨1, _⟩ => ⟨S64x1x128x17, .f32⟩
  | .local _ .vmem, ⟨2, _⟩ => ⟨S64x7, .i32⟩
  | .local _ .vmem, ⟨3, _⟩ => ⟨S64x7, .i32⟩
  | .local _ .vmem, ⟨4, _⟩ => ⟨S64x7, .i32⟩
  | .local _ .vmem, ⟨5, _⟩ => ⟨S64x7, .i32⟩
  | _, _ => ⟨S4096x3x128x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1x128x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x1x128x17_S64x1x128x17_0_0_0_0 : ∀ a, (![0, 0, 0, 0] : Fin 4 → Nat) a + S64x1x128x17.size a ≤ S64x1x128x17.size a
  h_S64x1x128x17 : 0 < S64x1x128x17.numel
  shapeCasts_S64x1x128x17_S64x128x17 : S64x1x128x17.ShapeCasts S64x128x17
  slices_S64x128x17_o0_0_0_S64x128x1 : S64x128x17.Slices ![0, 0, 0] S64x128x1
  broadcasts_S64x128x1_S64x128x17 : S64x128x1.Broadcasts S64x128x17
  slices_S64x128x17_o0_0_5_S64x128x2 : S64x128x17.Slices ![0, 0, 5] S64x128x2
  reduces_S64x128x2_S64x128 : S64x128x2.Reduces [2] S64x128
  shapeCasts_S64x128_S64x128x1 : S64x128.ShapeCasts S64x128x1
  reduces_S64x128x17_S64x128 : S64x128x17.Reduces [2] S64x128
  slices_S64x128x17_o0_0_0_S64x128x5 : S64x128x17.Slices ![0, 0, 0] S64x128x5
  reduces_S64x128x5_S64x128 : S64x128x5.Reduces [2] S64x128
  reduces_S64x128_S64 : S64x128.Reduces [1] S64
  shapeCasts_S64_S64x1 : S64.ShapeCasts S64x1
  slices_S64x128x17_o0_0_7_S64x128x2 : S64x128x17.Slices ![0, 0, 7] S64x128x2
  slices_S64x128x17_o0_0_9_S64x128x2 : S64x128x17.Slices ![0, 0, 9] S64x128x2
  slices_S64x128x17_o0_0_11_S64x128x2 : S64x128x17.Slices ![0, 0, 11] S64x128x2
  slices_S64x128x17_o0_0_13_S64x128x2 : S64x128x17.Slices ![0, 0, 13] S64x128x2
  slices_S64x128x17_o0_0_15_S64x128x2 : S64x128x17.Slices ![0, 0, 15] S64x128x2
  concatenates_S64x1_S64x1_S64x1_S64x1_S64x1_S64x1_S64x1_S64x7_d1 : Shape.Concatenates [S64x1, S64x1, S64x1, S64x1, S64x1, S64x1, S64x1] S64x7 1
  reduces_S64x7_S64 : S64x7.Reduces [1] S64
  iota_S64x7_d1_w32 : S64x7.Iotas .tc 32 [1]
  inb_S64x7_S64x7_0_0 : ∀ a, (![0, 0] : Fin 2 → Nat) a + S64x7.size a ≤ S64x7.size a
  h_S64x7 : 0 < S64x7.numel
  transposes_S4096x7_S7x4096_1_0 : S4096x7.Transposes [1, 0] S7x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1x128x17.size a ≤ S4096x3x128x17.size a
  hwx0_0 : ∀ i : grid0.Coords, EltTy.bits .f32 = 32 ∨ (Rect.block (s := S4096x3x128x17) S64x1x128x17.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x7.size a ≤ S4096x7.size a
  hwx0_1 : ∀ i : grid0.Coords, EltTy.bits .i32 = 32 ∨ (Rect.block (s := S4096x7) S64x7.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x7.size a ≤ S4096x7.size a
  hwx0_2 : ∀ i : grid0.Coords, EltTy.bits .i32 = 32 ∨ (Rect.block (s := S4096x7) S64x7.size (cc0_transform_2 i) (hinb0_2 i)).WholeWords (EltTy.packing .i32)

variable [Facts₀]

abbrev win0_0 : Pipeline.Window sig grid0 :=
  Pipeline.Window.ofSpec (Memref.whole main_arg0) S64x1x128x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64x7.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S64x7.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x3x128x17 : Shape := ⟨4, ![4096, 3, 128, 17]⟩
abbrev S2 : Shape := ⟨1, ![2]⟩
abbrev S5 : Shape := ⟨1, ![5]⟩
abbrev S4096x1x128x17 : Shape := ⟨4, ![4096, 1, 128, 17]⟩
abbrev S4096x128x17 : Shape := ⟨3, ![4096, 128, 17]⟩
abbrev S4096x128x1 : Shape := ⟨3, ![4096, 128, 1]⟩
abbrev S_ : Shape := ⟨0, ![]⟩
abbrev S2x1 : Shape := ⟨2, ![2, 1]⟩
abbrev S4096x128x2 : Shape := ⟨3, ![4096, 128, 2]⟩
abbrev S4096x128 : Shape := ⟨2, ![4096, 128]⟩
abbrev S4096 : Shape := ⟨1, ![4096]⟩
abbrev S5x1 : Shape := ⟨2, ![5, 1]⟩
abbrev S4096x128x5 : Shape := ⟨3, ![4096, 128, 5]⟩
abbrev S1x4096 : Shape := ⟨2, ![1, 4096]⟩
abbrev S7x4096 : Shape := ⟨2, ![7, 4096]⟩
abbrev S7 : Shape := ⟨1, ![7]⟩
abbrev S7x1 : Shape := ⟨2, ![7, 1]⟩

abbrev nBuf : Space → Nat
  | .hbm => 270
  | .vmem => 0
  | .smem => 0
  | _ => 0

abbrev hbmTy0_0 (i : Nat) : BufTy := match i % 128 with
  | 0 => ⟨S4096x3x128x17, .f32⟩
  | 1 => ⟨S2, .i32⟩
  | 2 => ⟨S5, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S4096x1x128x17, .f32⟩
  | 10 => ⟨S4096x128x17, .f32⟩
  | 11 => ⟨S4096x128x1, .f32⟩
  | 12 => ⟨S4096x128x17, .f32⟩
  | 13 => ⟨S4096x128x17, .f32⟩
  | 14 => ⟨S_, .i32⟩
  | 15 => ⟨S2, .i32⟩
  | 16 => ⟨S2, .i1⟩
  | 17 => ⟨S_, .i32⟩
  | 18 => ⟨S2, .i32⟩
  | 19 => ⟨S2, .i32⟩
  | 20 => ⟨S2, .i32⟩
  | 21 => ⟨S2x1, .i32⟩
  | 22 => ⟨S4096x128x2, .f32⟩
  | 23 => ⟨S_, .f32⟩
  | 24 => ⟨S4096x128, .f32⟩
  | 25 => ⟨S4096x128x1, .f32⟩
  | 26 => ⟨S_, .f32⟩
  | 27 => ⟨S4096x128x1, .f32⟩
  | 28 => ⟨S4096x128x1, .f32⟩
  | 29 => ⟨S4096x128x17, .f32⟩
  | 30 => ⟨S4096x128x17, .f32⟩
  | 31 => ⟨S_, .f32⟩
  | 32 => ⟨S4096x128, .f32⟩
  | 33 => ⟨S4096x128x1, .f32⟩
  | 34 => ⟨S4096x128x17, .f32⟩
  | 35 => ⟨S4096x128x17, .f32⟩
  | 36 => ⟨S_, .f32⟩
  | 37 => ⟨S4096, .f32⟩
  | 38 => ⟨S_, .f32⟩
  | 39 => ⟨S4096, .f32⟩
  | 40 => ⟨S4096, .f32⟩
  | 41 => ⟨S_, .i32⟩
  | 42 => ⟨S5, .i32⟩
  | 43 => ⟨S5, .i1⟩
  | 44 => ⟨S_, .i32⟩
  | 45 => ⟨S5, .i32⟩
  | 46 => ⟨S5, .i32⟩
  | 47 => ⟨S5, .i32⟩
  | 48 => ⟨S5x1, .i32⟩
  | 49 => ⟨S4096x128x5, .f32⟩
  | 50 => ⟨S_, .f32⟩
  | 51 => ⟨S4096, .f32⟩
  | 52 => ⟨S_, .f32⟩
  | 53 => ⟨S4096, .f32⟩
  | 54 => ⟨S4096, .f32⟩
  | 55 => ⟨S4096, .f32⟩
  | 56 => ⟨S_, .f32⟩
  | 57 => ⟨S4096, .f32⟩
  | 58 => ⟨S4096, .f32⟩
  | 59 => ⟨S4096, .f32⟩
  | 60 => ⟨S4096, .i32⟩
  | 61 => ⟨S4096, .f32⟩
  | 62 => ⟨S4096, .f32⟩
  | 63 => ⟨S_, .f32⟩
  | 64 => ⟨S4096, .f32⟩
  | 65 => ⟨S4096, .f32⟩
  | 66 => ⟨S4096, .f32⟩
  | 67 => ⟨S4096, .i32⟩
  | 68 => ⟨S_, .i32⟩
  | 69 => ⟨S2, .i32⟩
  | 70 => ⟨S2, .i1⟩
  | 71 => ⟨S_, .i32⟩
  | 72 => ⟨S2, .i32⟩
  | 73 => ⟨S2, .i32⟩
  | 74 => ⟨S2, .i32⟩
  | 75 => ⟨S2x1, .i32⟩
  | 76 => ⟨S4096x128x2, .f32⟩
  | 77 => ⟨S_, .f32⟩
  | 78 => ⟨S4096, .f32⟩
  | 79 => ⟨S_, .f32⟩
  | 80 => ⟨S4096, .f32⟩
  | 81 => ⟨S4096, .f32⟩
  | 82 => ⟨S4096, .f32⟩
  | 83 => ⟨S_, .f32⟩
  | 84 => ⟨S4096, .f32⟩
  | 85 => ⟨S4096, .f32⟩
  | 86 => ⟨S4096, .f32⟩
  | 87 => ⟨S4096, .i32⟩
  | 88 => ⟨S4096, .f32⟩
  | 89 => ⟨S4096, .f32⟩
  | 90 => ⟨S_, .f32⟩
  | 91 => ⟨S4096, .f32⟩
  | 92 => ⟨S4096, .f32⟩
  | 93 => ⟨S4096, .f32⟩
  | 94 => ⟨S4096, .i32⟩
  | 95 => ⟨S_, .i32⟩
  | 96 => ⟨S2, .i32⟩
  | 97 => ⟨S2, .i1⟩
  | 98 => ⟨S_, .i32⟩
  | 99 => ⟨S2, .i32⟩
  | 100 => ⟨S2, .i32⟩
  | 101 => ⟨S2, .i32⟩
  | 102 => ⟨S2x1, .i32⟩
  | 103 => ⟨S4096x128x2, .f32⟩
  | 104 => ⟨S_, .f32⟩
  | 105 => ⟨S4096, .f32⟩
  | 106 => ⟨S_, .f32⟩
  | 107 => ⟨S4096, .f32⟩
  | 108 => ⟨S4096, .f32⟩
  | 109 => ⟨S4096, .f32⟩
  | 110 => ⟨S_, .f32⟩
  | 111 => ⟨S4096, .f32⟩
  | 112 => ⟨S4096, .f32⟩
  | 113 => ⟨S4096, .f32⟩
  | 114 => ⟨S4096, .i32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S4096, .i32⟩
  | 122 => ⟨S_, .i32⟩
  | 123 => ⟨S2, .i32⟩
  | 124 => ⟨S2, .i1⟩
  | 125 => ⟨S_, .i32⟩
  | 126 => ⟨S2, .i32⟩
  | 127 => ⟨S2, .i32⟩
  | _ => ⟨S4096x3x128x17, .f32⟩

abbrev hbmTy0_1 (i : Nat) : BufTy := match i % 128 with
  | 0 => ⟨S2, .i32⟩
  | 1 => ⟨S2x1, .i32⟩
  | 2 => ⟨S4096x128x2, .f32⟩
  | 3 => ⟨S_, .f32⟩
  | 4 => ⟨S4096, .f32⟩
  | 5 => ⟨S_, .f32⟩
  | 6 => ⟨S4096, .f32⟩
  | 7 => ⟨S4096, .f32⟩
  | 8 => ⟨S4096, .f32⟩
  | 9 => ⟨S_, .f32⟩
  | 10 => ⟨S4096, .f32⟩
  | 11 => ⟨S4096, .f32⟩
  | 12 => ⟨S4096, .f32⟩
  | 13 => ⟨S4096, .i32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S4096, .i32⟩
  | 21 => ⟨S_, .i32⟩
  | 22 => ⟨S2, .i32⟩
  | 23 => ⟨S2, .i1⟩
  | 24 => ⟨S_, .i32⟩
  | 25 => ⟨S2, .i32⟩
  | 26 => ⟨S2, .i32⟩
  | 27 => ⟨S2, .i32⟩
  | 28 => ⟨S2x1, .i32⟩
  | 29 => ⟨S4096x128x2, .f32⟩
  | 30 => ⟨S_, .f32⟩
  | 31 => ⟨S4096, .f32⟩
  | 32 => ⟨S_, .f32⟩
  | 33 => ⟨S4096, .f32⟩
  | 34 => ⟨S4096, .f32⟩
  | 35 => ⟨S4096, .f32⟩
  | 36 => ⟨S_, .f32⟩
  | 37 => ⟨S4096, .f32⟩
  | 38 => ⟨S4096, .f32⟩
  | 39 => ⟨S4096, .f32⟩
  | 40 => ⟨S4096, .i32⟩
  | 41 => ⟨S4096, .f32⟩
  | 42 => ⟨S4096, .f32⟩
  | 43 => ⟨S_, .f32⟩
  | 44 => ⟨S4096, .f32⟩
  | 45 => ⟨S4096, .f32⟩
  | 46 => ⟨S4096, .f32⟩
  | 47 => ⟨S4096, .i32⟩
  | 48 => ⟨S_, .i32⟩
  | 49 => ⟨S2, .i32⟩
  | 50 => ⟨S2, .i1⟩
  | 51 => ⟨S_, .i32⟩
  | 52 => ⟨S2, .i32⟩
  | 53 => ⟨S2, .i32⟩
  | 54 => ⟨S2, .i32⟩
  | 55 => ⟨S2x1, .i32⟩
  | 56 => ⟨S4096x128x2, .f32⟩
  | 57 => ⟨S_, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .f32⟩
  | 64 => ⟨S4096, .f32⟩
  | 65 => ⟨S4096, .f32⟩
  | 66 => ⟨S4096, .f32⟩
  | 67 => ⟨S4096, .i32⟩
  | 68 => ⟨S4096, .f32⟩
  | 69 => ⟨S4096, .f32⟩
  | 70 => ⟨S_, .f32⟩
  | 71 => ⟨S4096, .f32⟩
  | 72 => ⟨S4096, .f32⟩
  | 73 => ⟨S4096, .f32⟩
  | 74 => ⟨S4096, .i32⟩
  | 75 => ⟨S_, .i32⟩
  | 76 => ⟨S2, .i32⟩
  | 77 => ⟨S2, .i1⟩
  | 78 => ⟨S_, .i32⟩
  | 79 => ⟨S2, .i32⟩
  | 80 => ⟨S2, .i32⟩
  | 81 => ⟨S2, .i32⟩
  | 82 => ⟨S2x1, .i32⟩
  | 83 => ⟨S4096x128x2, .f32⟩
  | 84 => ⟨S_, .f32⟩
  | 85 => ⟨S4096, .f32⟩
  | 86 => ⟨S_, .f32⟩
  | 87 => ⟨S4096, .f32⟩
  | 88 => ⟨S4096, .f32⟩
  | 89 => ⟨S4096, .f32⟩
  | 90 => ⟨S_, .f32⟩
  | 91 => ⟨S4096, .f32⟩
  | 92 => ⟨S4096, .f32⟩
  | 93 => ⟨S4096, .f32⟩
  | 94 => ⟨S4096, .i32⟩
  | 95 => ⟨S4096, .f32⟩
  | 96 => ⟨S4096, .f32⟩
  | 97 => ⟨S_, .f32⟩
  | 98 => ⟨S4096, .f32⟩
  | 99 => ⟨S4096, .f32⟩
  | 100 => ⟨S4096, .f32⟩
  | 101 => ⟨S4096, .i32⟩
  | 102 => ⟨S1x4096, .i32⟩
  | 103 => ⟨S1x4096, .i32⟩
  | 104 => ⟨S1x4096, .i32⟩
  | 105 => ⟨S1x4096, .i32⟩
  | 106 => ⟨S1x4096, .i32⟩
  | 107 => ⟨S1x4096, .i32⟩
  | 108 => ⟨S1x4096, .i32⟩
  | 109 => ⟨S7x4096, .i32⟩
  | 110 => ⟨S1x4096, .i32⟩
  | 111 => ⟨S1x4096, .i32⟩
  | 112 => ⟨S1x4096, .i32⟩
  | 113 => ⟨S1x4096, .i32⟩
  | 114 => ⟨S1x4096, .i32⟩
  | 115 => ⟨S1x4096, .i32⟩
  | 116 => ⟨S1x4096, .i32⟩
  | 117 => ⟨S7x4096, .i32⟩
  | 118 => ⟨S7, .i32⟩
  | 119 => ⟨S7x1, .i32⟩
  | 120 => ⟨S_, .i32⟩
  | 121 => ⟨S7x1, .i32⟩
  | 122 => ⟨S7x1, .i32⟩
  | 123 => ⟨S_, .i32⟩
  | 124 => ⟨S7x1, .i32⟩
  | 125 => ⟨S7x1, .i32⟩
  | 126 => ⟨S_, .i32⟩
  | 127 => ⟨S7x1, .i32⟩
  | _ => ⟨S4096x3x128x17, .f32⟩

abbrev hbmTy0_2 (i : Nat) : BufTy := match i % 128 with
  | 0 => ⟨S7x1, .i32⟩
  | 1 => ⟨S7x4096, .i1⟩
  | 2 => ⟨S7x4096, .i32⟩
  | 3 => ⟨S7x4096, .i32⟩
  | 4 => ⟨S7x4096, .i32⟩
  | 5 => ⟨S7x4096, .i32⟩
  | 6 => ⟨S7x4096, .i32⟩
  | 7 => ⟨S_, .i32⟩
  | 8 => ⟨S7x4096, .i32⟩
  | 9 => ⟨S7x4096, .i1⟩
  | 10 => ⟨S7x4096, .i32⟩
  | 11 => ⟨S7x4096, .i32⟩
  | 12 => ⟨S7x4096, .i32⟩
  | 13 => ⟨S7x4096, .i32⟩
  | _ => ⟨S4096x3x128x17, .f32⟩

abbrev hbmTy (i : Nat) : BufTy := match i / 128 with
  | 0 => hbmTy0_0 i
  | 1 => hbmTy0_1 i
  | 2 => hbmTy0_2 i
  | _ => ⟨S4096x3x128x17, .f32⟩

abbrev bufTy : (tb : Table) → Fin (tcTables nBuf tb) → BufTy
  | .hbm, ⟨i, _⟩ => hbmTy i
  | _, _ => ⟨S4096x3x128x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_7 : Ref sig .tc := ⟨.hbm, 14, rfl⟩
abbrev main_v5 : Ref sig .tc := ⟨.hbm, 15, rfl⟩
abbrev main_v6 : Ref sig .tc := ⟨.hbm, 16, rfl⟩
abbrev main_c_8 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_9 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_10 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_11 : Ref sig .tc := ⟨.hbm, 36, rfl⟩
abbrev main_v22 : Ref sig .tc := ⟨.hbm, 37, rfl⟩
abbrev main_cst_12 : Ref sig .tc := ⟨.hbm, 38, rfl⟩
abbrev main_v23 : Ref sig .tc := ⟨.hbm, 39, rfl⟩
abbrev main_v24 : Ref sig .tc := ⟨.hbm, 40, rfl⟩
abbrev main_c_13 : Ref sig .tc := ⟨.hbm, 41, rfl⟩
abbrev main_v25 : Ref sig .tc := ⟨.hbm, 42, rfl⟩
abbrev main_v26 : Ref sig .tc := ⟨.hbm, 43, rfl⟩
abbrev main_c_14 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_15 : Ref sig .tc := ⟨.hbm, 50, rfl⟩
abbrev main_v32 : Ref sig .tc := ⟨.hbm, 51, rfl⟩
abbrev main_cst_16 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_17 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_18 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_19 : Ref sig .tc := ⟨.hbm, 68, rfl⟩
abbrev main_v46 : Ref sig .tc := ⟨.hbm, 69, rfl⟩
abbrev main_v47 : Ref sig .tc := ⟨.hbm, 70, rfl⟩
abbrev main_c_20 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_21 : Ref sig .tc := ⟨.hbm, 77, rfl⟩
abbrev main_v53 : Ref sig .tc := ⟨.hbm, 78, rfl⟩
abbrev main_cst_22 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_23 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_24 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_25 : Ref sig .tc := ⟨.hbm, 95, rfl⟩
abbrev main_v67 : Ref sig .tc := ⟨.hbm, 96, rfl⟩
abbrev main_v68 : Ref sig .tc := ⟨.hbm, 97, rfl⟩
abbrev main_c_26 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_27 : Ref sig .tc := ⟨.hbm, 104, rfl⟩
abbrev main_v74 : Ref sig .tc := ⟨.hbm, 105, rfl⟩
abbrev main_cst_28 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_29 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_30 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_31 : Ref sig .tc := ⟨.hbm, 122, rfl⟩
abbrev main_v88 : Ref sig .tc := ⟨.hbm, 123, rfl⟩
abbrev main_v89 : Ref sig .tc := ⟨.hbm, 124, rfl⟩
abbrev main_c_32 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_33 : Ref sig .tc := ⟨.hbm, 131, rfl⟩
abbrev main_v95 : Ref sig .tc := ⟨.hbm, 132, rfl⟩
abbrev main_cst_34 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_35 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_36 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_37 : Ref sig .tc := ⟨.hbm, 149, rfl⟩
abbrev main_v109 : Ref sig .tc := ⟨.hbm, 150, rfl⟩
abbrev main_v110 : Ref sig .tc := ⟨.hbm, 151, rfl⟩
abbrev main_c_38 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_39 : Ref sig .tc := ⟨.hbm, 158, rfl⟩
abbrev main_v116 : Ref sig .tc := ⟨.hbm, 159, rfl⟩
abbrev main_cst_40 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_41 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_42 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_43 : Ref sig .tc := ⟨.hbm, 176, rfl⟩
abbrev main_v130 : Ref sig .tc := ⟨.hbm, 177, rfl⟩
abbrev main_v131 : Ref sig .tc := ⟨.hbm, 178, rfl⟩
abbrev main_c_44 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_45 : Ref sig .tc := ⟨.hbm, 185, rfl⟩
abbrev main_v137 : Ref sig .tc := ⟨.hbm, 186, rfl⟩
abbrev main_cst_46 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_47 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_48 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_49 : Ref sig .tc := ⟨.hbm, 203, rfl⟩
abbrev main_v151 : Ref sig .tc := ⟨.hbm, 204, rfl⟩
abbrev main_v152 : Ref sig .tc := ⟨.hbm, 205, rfl⟩
abbrev main_c_50 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_51 : Ref sig .tc := ⟨.hbm, 212, rfl⟩
abbrev main_v158 : Ref sig .tc := ⟨.hbm, 213, rfl⟩
abbrev main_cst_52 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_53 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_54 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_c_55 : Ref sig .tc := ⟨.hbm, 248, rfl⟩
abbrev main_v190 : Ref sig .tc := ⟨.hbm, 249, rfl⟩
abbrev main_v191 : Ref sig .tc := ⟨.hbm, 250, rfl⟩
abbrev main_c_56 : Ref sig .tc := ⟨.hbm, 251, rfl⟩
abbrev main_v192 : Ref sig .tc := ⟨.hbm, 252, rfl⟩
abbrev main_v193 : Ref sig .tc := ⟨.hbm, 253, rfl⟩
abbrev main_c_57 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_call0_v0 : Ref sig .tc := ⟨.hbm, 258, rfl⟩
abbrev main_v197 : Ref sig .tc := ⟨.hbm, 259, rfl⟩
abbrev main_call1_v0 : Ref sig .tc := ⟨.hbm, 260, rfl⟩
abbrev main_v198 : Ref sig .tc := ⟨.hbm, 261, rfl⟩
abbrev main_v199 : Ref sig .tc := ⟨.hbm, 262, rfl⟩
abbrev main_c_58 : Ref sig .tc := ⟨.hbm, 263, rfl⟩
abbrev main_v200 : Ref sig .tc := ⟨.hbm, 264, rfl⟩
abbrev main_v201 : Ref sig .tc := ⟨.hbm, 265, rfl⟩
abbrev main_call2_v0 : Ref sig .tc := ⟨.hbm, 266, rfl⟩
abbrev main_v202 : Ref sig .tc := ⟨.hbm, 267, rfl⟩
abbrev main_call3_v0 : Ref sig .tc := ⟨.hbm, 268, rfl⟩
abbrev main_v203 : Ref sig .tc := ⟨.hbm, 269, rfl⟩

abbrev nD : Nat := 1
abbrev τ : Topo := Topo.v7x

variable {F : FTy → Type} [FloatOps F]

class Facts₀ : Prop where
  slices_S4096x3x128x17_S4096x1x128x17_0_1_0_0 : S4096x3x128x17.Slices ![0, 1, 0, 0] S4096x1x128x17
  shapeCasts_S4096x1x128x17_S4096x128x17 : S4096x1x128x17.ShapeCasts S4096x128x17
  slices_S4096x128x17_S4096x128x1_0_0_0 : S4096x128x17.Slices ![0, 0, 0] S4096x128x1
  bcast_S4096x128x1_S4096x128x17_0_1_2 : S4096x128x1.BroadcastsInDim S4096x128x17 (![0, 1, 2] : Fin 3 → Fin S4096x128x17.rank)
  bcast_S_S2 : S_.BroadcastsInDim S2 (![] : Fin 0 → Fin S2.rank)
  bcast_S2_S2x1_0 : S2.BroadcastsInDim S2x1 (![0] : Fin 1 → Fin S2x1.rank)
  reducesTo_S4096x128x2_S4096x128_d2 : S4096x128x2.ReducesTo [2] S4096x128
  h_S_ : 0 < S_.numel
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  reducesTo_S4096x128x17_S4096x128_d2 : S4096x128x17.ReducesTo [2] S4096x128
  reducesTo_S4096x128x17_S4096_d1_2 : S4096x128x17.ReducesTo [1, 2] S4096
  bcast_S_S5 : S_.BroadcastsInDim S5 (![] : Fin 0 → Fin S5.rank)
  bcast_S5_S5x1_0 : S5.BroadcastsInDim S5x1 (![0] : Fin 1 → Fin S5x1.rank)
  reducesTo_S4096x128x5_S4096_d1_2 : S4096x128x5.ReducesTo [1, 2] S4096
  bcast_S_S4096 : S_.BroadcastsInDim S4096 (![] : Fin 0 → Fin S4096.rank)
  reducesTo_S4096x128x2_S4096_d1_2 : S4096x128x2.ReducesTo [1, 2] S4096
  bcast_S4096_S1x4096_1 : S4096.BroadcastsInDim S1x4096 (![1] : Fin 1 → Fin S1x4096.rank)
  concatenates_S1x4096_S1x4096_S1x4096_S1x4096_S1x4096_S1x4096_S1x4096_S7x4096_d0 : Shape.Concatenates [S1x4096, S1x4096, S1x4096, S1x4096, S1x4096, S1x4096, S1x4096] S7x4096 0
  bcast_S7_S7x1_0 : S7.BroadcastsInDim S7x1 (![0] : Fin 1 → Fin S7x1.rank)
  bcast_S_S7x1 : S_.BroadcastsInDim S7x1 (![] : Fin 0 → Fin S7x1.rank)
  bcast_S7x1_S7x4096_0_1 : S7x1.BroadcastsInDim S7x4096 (![0, 1] : Fin 2 → Fin S7x4096.rank)
  bcast_S_S7x4096 : S_.BroadcastsInDim S7x4096 (![] : Fin 0 → Fin S7x4096.rank)
  gather_S4096x128x17_S2x1_S4096x128x2_01_2_n_n_2_1_40961281_wf : GatherDims.WF S4096x128x17 S2x1 S4096x128x2 [0, 1] [2] [] [2] [] 1 ![4096, 128, 1]
  gather_S4096x128x17_S5x1_S4096x128x5_01_2_n_n_2_1_40961281_wf : GatherDims.WF S4096x128x17 S5x1 S4096x128x5 [0, 1] [2] [] [2] [] 1 ![4096, 128, 1]

variable [Facts₀]

def gather_S4096x128x17_S2x1_S4096x128x2_01_2_n_n_2_1_40961281 : GatherDims S4096x128x17 S2x1 S4096x128x2 where
  offsetDims := [0, 1]
  collapsedSliceDims := [2]
  operandBatchingDims := []
  startIndicesBatchingDims := []
  startIndexMap := [2]
  indexVectorDim := 1
  sliceSizes := ![4096, 128, 1]
  wf := gather_S4096x128x17_S2x1_S4096x128x2_01_2_n_n_2_1_40961281_wf
def gather_S4096x128x17_S5x1_S4096x128x5_01_2_n_n_2_1_40961281 : GatherDims S4096x128x17 S5x1 S4096x128x5 where
  offsetDims := [0, 1]
  collapsedSliceDims := [2]
  operandBatchingDims := []
  startIndicesBatchingDims := []
  startIndexMap := [2]
  indexVectorDim := 1
  sliceSizes := ![4096, 128, 1]
  wf := gather_S4096x128x17_S5x1_S4096x128x5_01_2_n_n_2_1_40961281_wf

class Facts : Prop extends Facts₀ where

variable [Facts]
-- ==== Proof.Spec.lean ====
/-
  The mathematics both programs compute, for ONE sample: its y-channel is an array q of 128 frames × 17 keypoints.
  Each frame is centred on keypoint 0, divided by the mean of the two shoulder keypoints (5 and 6) and shifted by the
  frame's minimum, giving the pose p. The seventeen keypoints split into seven contiguous parts (0–4, 5–6, 7–8, 9–10,
  11–12, 13–14, 15–16). For part k the largest and smallest value of p over all frames and the part's keypoints are
  scaled to [0, 64] between the sample's overall minimum (top) and maximum (bottom), rounded up respectively down and
  converted to an integer; then two integer corrections replace a degenerate or too wide pair by the fixed pair
  (9k + 9, 9k). Everything is an extended real and exact; no finiteness is used anywhere.
-/
import Idealize.ShloMosaic.PureOps.Ideal
import Idealize.ShloMosaic.Lib.ValueIdx

noncomputable section

namespace Cert.Pose

open Idealize.ShloMosaic

/-- One sample's y-channel: frame, keypoint. -/
abbrev Sample := Fin 128 → Fin 17 → EReal

/-- The float words 2.0, 64.0, -∞, +∞ as extended reals (kept as words: both programs hold the same ones). -/
abbrev two : EReal := Ideal.ofBits .f32 0x40000000#32
abbrev sixtyFour : EReal := Ideal.ofBits .f32 0x42800000#32

/-- A frame centred on keypoint 0. -/
def cen (q : Sample) (s : Fin 128) (v : Fin 17) : EReal := q s v - q s 0
/-- The mean of the two centred shoulder keypoints. -/
def ratio (q : Sample) (s : Fin 128) : EReal := Ideal.div (cen q s 5 + cen q s 6) two
/-- The frame divided by it. -/
def aligned (q : Sample) (s : Fin 128) (v : Fin 17) : EReal := Ideal.div (cen q s v) (ratio q s)
/-- The frame's least value. -/
def rowMin (q : Sample) (s : Fin 128) : EReal := ⨅ v : Fin 17, aligned q s v
/-- The pose. -/
def pose (q : Sample) (s : Fin 128) (v : Fin 17) : EReal := aligned q s v - rowMin q s

/-- Keypoint j of the part that starts at lo and has w keypoints. -/
def kp (lo w : Nat) (h : lo + w ≤ 17) (j : Fin w) : Fin 17 := ⟨lo + j.val, by have := j.isLt; omega⟩

/-- The largest / smallest value over all frames and a part's keypoints. -/
def partMax (p : Sample) (lo w : Nat) (h : lo + w ≤ 17) : EReal := ⨆ s : Fin 128, ⨆ j : Fin w, p s (kp lo w h j)
def partMin (p : Sample) (lo w : Nat) (h : lo + w ≤ 17) : EReal := ⨅ s : Fin 128, ⨅ j : Fin w, p s (kp lo w h j)
/-- The largest / smallest value over everything. -/
def bottom (p : Sample) : EReal := ⨆ s : Fin 128, ⨆ v : Fin 17, p s v
def top (p : Sample) : EReal := ⨅ s : Fin 128, ⨅ v : Fin 17, p s v

/-- Where the seven parts start, and how many keypoints each has. -/
def lo : Fin 7 → Nat := ![0, 5, 7, 9, 11, 13, 15]
def wd : Fin 7 → Nat := ![5, 2, 2, 2, 2, 2, 2]
theorem lo_wd (k : Fin 7) : lo k + wd k ≤ 17 := by fin_cases k <;> decide

/-- A value placed between top and bottom on the scale 0 … 64. -/
def scaled (a t d : EReal) : EReal := Ideal.div (a - t) d * sixtyFour

/-- The rounded integers before the corrections. -/
def maRaw (p : Sample) (k : Fin 7) : BitVec 32 :=
  Ideal.fptosi 32 (Ideal.liftRound Int.ceil (scaled (partMax p (lo k) (wd k) (lo_wd k)) (top p) (bottom p - top p)))
def miRaw (p : Sample) (k : Fin 7) : BitVec 32 :=
  Ideal.fptosi 32 (Ideal.liftRound Int.floor (scaled (partMin p (lo k) (wd k) (lo_wd k)) (top p) (bottom p - top p)))

/-- The fixed pair of part number κ (as a 32-bit word): 9(κ + 1) and 9κ. -/
def hiW (κ : BitVec 32) : BitVec 32 := IntOp.muli (IntOp.addi κ 1#32) 9#32
def loW (κ : BitVec 32) : BitVec 32 := IntOp.muli κ 9#32

/-- The two corrections on a pair (a, b) = (ma, mi): if a ≤ b take the fixed pair; then if a − b > 30 take the fixed pair. -/
def fixMa (κ a b : BitVec 32) : BitVec 32 :=
  Scalar.select (IntOp.cmpi .sgt (IntOp.subi (Scalar.select (IntOp.cmpi .sle a b) (hiW κ) a) (Scalar.select (IntOp.cmpi .sle a b) (loW κ) b)) 30#32)
    (hiW κ) (Scalar.select (IntOp.cmpi .sle a b) (hiW κ) a)
def fixMi (κ a b : BitVec 32) : BitVec 32 :=
  Scalar.select (IntOp.cmpi .sgt (IntOp.subi (Scalar.select (IntOp.cmpi .sle a b) (hiW κ) a) (Scalar.select (IntOp.cmpi .sle a b) (loW κ) b)) 30#32)
    (loW κ) (Scalar.select (IntOp.cmpi .sle a b) (loW κ) b)

/-- The two results for a sample and a part. -/
def outMa (q : Sample) (k : Fin 7) : BitVec 32 := fixMa (BitVec.ofNat 32 k.val) (maRaw (pose q) k) (miRaw (pose q) k)
def outMi (q : Sample) (k : Fin 7) : BitVec 32 := fixMi (BitVec.ofNat 32 k.val) (maRaw (pose q) k) (miRaw (pose q) k)

/-- Sample n of the argument array: its channel 1. -/
def sampleOf (x : (⟨4, ![4096, 3, 128, 17]⟩ : Shape).Idx → EReal) (n : Fin 4096) : Sample :=
  fun s v => x (ValueIdx.ix4 n 1 s v)

end Cert.Pose

end
-- ==== Proof.LibMinMax.lean ====
/-
  Maxima and minima as folds and as suprema, on the extended reals.
  A reduction by max (min) from −∞ (+∞) over a finite set of indices is the supremum (infimum) of the values; read
  through the coordinates of a rank-3 or rank-2 array this gives: the reduction along the last axis of [R, S, w] at
  (r, s) is the sup over the last coordinate; along axis 1 of [R, S] at r the sup over s; and the reduction of
  [N, S, w] over its two trailing axes at n the sup over both. The same for min and inf.
-/
import Idealize.ShloMosaic.PureOps.Ideal
import Idealize.ShloMosaic.PureOps.Ideal.Laws
import Idealize.ShloMosaic.PureOps.Reduce
import Idealize.ShloMosaic.Lib.ValueIdx

noncomputable section

namespace Cert.Pose.MinMax

open Idealize.ShloMosaic Idealize.ShloMosaic.ValueIdx

/-- The words of −∞ and +∞. -/
theorem negInf : Ideal.ofBits .f32 0xFF800000#32 = (⊥ : EReal) := by simp [Ideal.ofBits, Ideal.ieee]
theorem posInf : Ideal.ofBits .f32 0x7F800000#32 = (⊤ : EReal) := by simp [Ideal.ofBits, Ideal.ieee]

/-- A fold by max from −∞ is the supremum. -/
theorem fold_max_eq_sup {ι : Type} [DecidableEq ι] (S : Finset ι) (f : ι → EReal) :
    S.fold (FloatOps.maximumf (F := Ideal) (φ := .f32)) (⊥ : EReal) f = S.sup f := by
  induction S using Finset.induction_on with
  | empty => rfl
  | insert a s ha ih => rw [Finset.fold_insert ha, Finset.sup_insert, ih]; rfl

/-- A fold by min from +∞ is the infimum. -/
theorem fold_min_eq_inf {ι : Type} [DecidableEq ι] (S : Finset ι) (f : ι → EReal) :
    S.fold (FloatOps.minimumf (F := Ideal) (φ := .f32)) (⊤ : EReal) f = S.inf f := by
  induction S using Finset.induction_on with
  | empty => rfl
  | insert a s ha ih => rw [Finset.fold_insert ha, Finset.inf_insert, ih]; rfl

/-! ## Read through coordinates -/

/-- A fold by max over a whole finite type, from a value that is −∞, is the supremum of the family. -/
theorem fold_max_univ {ι : Type} [Fintype ι] [DecidableEq ι] (f : ι → EReal) (b : EReal) (hb : b = ⊥) :
    (Finset.univ : Finset ι).fold (FloatOps.maximumf (F := Ideal) (φ := .f32)) b f = ⨆ i, f i := by
  rw [hb, fold_max_eq_sup, Finset.sup_univ_eq_iSup]

theorem fold_min_univ {ι : Type} [Fintype ι] [DecidableEq ι] (f : ι → EReal) (b : EReal) (hb : b = ⊤) :
    (Finset.univ : Finset ι).fold (FloatOps.minimumf (F := Ideal) (φ := .f32)) b f = ⨅ i, f i := by
  rw [hb, fold_min_eq_inf, Finset.inf_univ_eq_iInf]

section Coordinates

variable {R S w : Nat}

/-- The index a last-axis reduction of [R, S, w] reads at (r, s) and coordinate j. -/
theorem lift_last (h : Shape.Reduces ⟨3, ![R, S, w]⟩ [2] ⟨2, ![R, S]⟩) (r : Fin R) (s : Fin S) (j : Fin w) :
    h.lift (ix2 r s) j = ix3 r s j := by
  funext d; refine Fin.ext ?_
  match d with
  | ⟨0, _⟩ => rfl
  | ⟨1, _⟩ => rfl
  | ⟨2, _⟩ => rfl

/-- The index an axis-1 reduction of [R, S] reads at r and coordinate s. -/
theorem lift_row (h : Shape.Reduces ⟨2, ![R, S]⟩ [1] ⟨1, ![R]⟩) (r : Fin R) (s : Fin S) :
    h.lift (ix1 r) s = ix2 r s := by
  funext d; refine Fin.ext ?_
  match d with
  | ⟨0, _⟩ => rfl
  | ⟨1, _⟩ => rfl

/-- A max-reduction along the last axis of [R, S, w], from −∞, at (r, s): the sup over the last coordinate. -/
theorem max_last (src : FVec Ideal ⟨3, ![R, S, w]⟩ .f32) (acc : BitVec 32)
    (h : Shape.Reduces ⟨3, ![R, S, w]⟩ [2] ⟨2, ![R, S]⟩) (hφ : FKind.Formats .f32)
    (hacc : acc = FKind.maximumf.neutral .f32 hφ) (hb : Ideal.ofBits .f32 acc = (⊥ : EReal)) (r : Fin R) (s : Fin S) :
    multiReduction .maximumf [2] ⟨2, ![R, S]⟩ src acc h hφ hacc (ix2 r s) = ⨆ j : Fin w, src (ix3 r s j) := by
  rw [multiReduction_maximumf_eq_fold, h.fold_filter_drop_single]
  exact (fold_max_univ _ _ hb).trans (iSup_congr fun j => congrArg src (lift_last h r s j))

theorem min_last (src : FVec Ideal ⟨3, ![R, S, w]⟩ .f32) (acc : BitVec 32)
    (h : Shape.Reduces ⟨3, ![R, S, w]⟩ [2] ⟨2, ![R, S]⟩) (hφ : FKind.Formats .f32)
    (hacc : acc = FKind.minimumf.neutral .f32 hφ) (hb : Ideal.ofBits .f32 acc = (⊤ : EReal)) (r : Fin R) (s : Fin S) :
    multiReduction .minimumf [2] ⟨2, ![R, S]⟩ src acc h hφ hacc (ix2 r s) = ⨅ j : Fin w, src (ix3 r s j) := by
  rw [multiReduction_minimumf_eq_fold, h.fold_filter_drop_single]
  exact (fold_min_univ _ _ hb).trans (iInf_congr fun j => congrArg src (lift_last h r s j))

/-- A max-reduction along axis 1 of [R, S], from −∞, at r: the sup over the second coordinate. -/
theorem max_row (src : FVec Ideal ⟨2, ![R, S]⟩ .f32) (acc : BitVec 32)
    (h : Shape.Reduces ⟨2, ![R, S]⟩ [1] ⟨1, ![R]⟩) (hφ : FKind.Formats .f32)
    (hacc : acc = FKind.maximumf.neutral .f32 hφ) (hb : Ideal.ofBits .f32 acc = (⊥ : EReal)) (r : Fin R) :
    multiReduction .maximumf [1] ⟨1, ![R]⟩ src acc h hφ hacc (ix1 r) = ⨆ s : Fin S, src (ix2 r s) := by
  rw [multiReduction_maximumf_eq_fold, h.fold_filter_drop_single]
  exact (fold_max_univ _ _ hb).trans (iSup_congr fun s => congrArg src (lift_row h r s))

theorem min_row (src : FVec Ideal ⟨2, ![R, S]⟩ .f32) (acc : BitVec 32)
    (h : Shape.Reduces ⟨2, ![R, S]⟩ [1] ⟨1, ![R]⟩) (hφ : FKind.Formats .f32)
    (hacc : acc = FKind.minimumf.neutral .f32 hφ) (hb : Ideal.ofBits .f32 acc = (⊤ : EReal)) (r : Fin R) :
    multiReduction .minimumf [1] ⟨1, ![R]⟩ src acc h hφ hacc (ix1 r) = ⨅ s : Fin S, src (ix2 r s) := by
  rw [multiReduction_minimumf_eq_fold, h.fold_filter_drop_single]
  exact (fold_min_univ _ _ hb).trans (iInf_congr fun s => congrArg src (lift_row h r s))

/-- Where an index of [N, S, w] lands when the two trailing axes are reduced away. -/
theorem drop_tail2 {N : Nat} (h : Shape.ReducesTo ⟨3, ![N, S, w]⟩ [1, 2] ⟨1, ![N]⟩) (n : Fin N) (s : Fin S) (j : Fin w) :
    h.drop (ix3 n s j) = ix1 n := by
  funext d; refine Fin.ext ?_
  match d with
  | ⟨0, _⟩ => rfl

/-- A host max-reduction of [N, S, w] over its two trailing axes, from −∞, at n: the sup over both. -/
theorem hostMax_tail2 {N : Nat} {u : Shape} (x : (⟨3, ![N, S, w]⟩ : Shape).Idx → EReal) (init : u.Idx → EReal)
    (h : Shape.ReducesTo ⟨3, ![N, S, w]⟩ [1, 2] ⟨1, ![N]⟩) (hu : 0 < u.numel)
    (hb : init (Shape.Idx.first hu) = (⊥ : EReal)) (n : Fin N) :
    Host.reduce (FloatOps.maximumf (F := Ideal) (φ := .f32)) x init h hu (ix1 n) = ⨆ s : Fin S, ⨆ j : Fin w, x (ix3 n s j) := by
  rw [Host.reduce_eq_fold, hb, fold_max_eq_sup, Finset.sup_eq_iSup]
  refine le_antisymm (iSup_le fun i => iSup_le fun hi => ?_) (iSup_le fun s => iSup_le fun j => ?_)
  · obtain ⟨a, b, c, rfl⟩ : ∃ (a : Fin N) (b : Fin S) (c : Fin w), i = ix3 a b c := ⟨i 0, i 1, i 2, eq_ix3 i⟩
    have e : a = n := by
      have := congrFun (Finset.mem_filter.mp hi).2 0
      rw [drop_tail2] at this; exact this
    subst e
    exact le_iSup_of_le b (le_iSup_of_le c le_rfl)
  · exact le_iSup_of_le (ix3 n s j) (le_iSup_of_le (Finset.mem_filter.mpr ⟨Finset.mem_univ _, drop_tail2 h n s j⟩) le_rfl)

theorem hostMin_tail2 {N : Nat} {u : Shape} (x : (⟨3, ![N, S, w]⟩ : Shape).Idx → EReal) (init : u.Idx → EReal)
    (h : Shape.ReducesTo ⟨3, ![N, S, w]⟩ [1, 2] ⟨1, ![N]⟩) (hu : 0 < u.numel)
    (hb : init (Shape.Idx.first hu) = (⊤ : EReal)) (n : Fin N) :
    Host.reduce (FloatOps.minimumf (F := Ideal) (φ := .f32)) x init h hu (ix1 n) = ⨅ s : Fin S, ⨅ j : Fin w, x (ix3 n s j) := by
  rw [Host.reduce_eq_fold, hb, fold_min_eq_inf, Finset.inf_eq_iInf]
  refine le_antisymm (le_iInf fun s => le_iInf fun j => ?_) (le_iInf fun i => le_iInf fun hi => ?_)
  · exact iInf_le_of_le (ix3 n s j) (iInf_le_of_le (Finset.mem_filter.mpr ⟨Finset.mem_univ _, drop_tail2 h n s j⟩) le_rfl)
  · obtain ⟨a, b, c, rfl⟩ : ∃ (a : Fin N) (b : Fin S) (c : Fin w), i = ix3 a b c := ⟨i 0, i 1, i 2, eq_ix3 i⟩
    have e : a = n := by
      have := congrFun (Finset.mem_filter.mp hi).2 0
      rw [drop_tail2] at this; exact this
    subst e
    exact iInf_le_of_le b (iInf_le_of_le c le_rfl)

/-- A host min-reduction along the last axis of [N, S, w], from +∞, at (n, s): the inf over the last coordinate. -/
theorem hostMin_last {N : Nat} {u : Shape} (x : (⟨3, ![N, S, w]⟩ : Shape).Idx → EReal) (init : u.Idx → EReal)
    (h' : Shape.ReducesTo ⟨3, ![N, S, w]⟩ [2] ⟨2, ![N, S]⟩) (h : Shape.Reduces ⟨3, ![N, S, w]⟩ [2] ⟨2, ![N, S]⟩) (hu : 0 < u.numel)
    (hb : init (Shape.Idx.first hu) = (⊤ : EReal)) (n : Fin N) (s : Fin S) :
    Host.reduce (FloatOps.minimumf (F := Ideal) (φ := .f32)) x init h' hu (ix2 n s) = ⨅ j : Fin w, x (ix3 n s j) := by
  rw [Host.reduce_eq_fold_single _ x init h' h hu]
  exact (fold_min_univ _ _ hb).trans (iInf_congr fun j => congrArg x (lift_last h n s j))

/-- A sum along the last axis of [R, S, 2], from 0, at (r, s): the two entries added. -/
theorem sum_last2 (src : FVec Ideal ⟨3, ![R, S, 2]⟩ .f32) (acc : BitVec 32)
    (h : Shape.Reduces ⟨3, ![R, S, 2]⟩ [2] ⟨2, ![R, S]⟩) (hφ : FKind.Formats .f32)
    (hacc : acc = FKind.add.neutral .f32 hφ) (r : Fin R) (s : Fin S) :
    multiReduction .add [2] ⟨2, ![R, S]⟩ src acc h hφ hacc (ix2 r s) = src (ix3 r s 0) + src (ix3 r s 1) := by
  refine (Ideal.multiReduction_add_single src acc h hφ hacc (ix2 r s)).trans ?_
  show ∑ k : Fin 2, src (h.lift (ix2 r s) k) = _
  rw [Fin.sum_univ_two, lift_last, lift_last]

/-- The host's sum along the last axis of [N, S, 2] at (n, s): the initial value and the two entries added. -/
theorem hostSum_last2 {N : Nat} (x : (⟨3, ![N, S, 2]⟩ : Shape).Idx → EReal) (init : EReal)
    (h' : Shape.ReducesTo ⟨3, ![N, S, 2]⟩ [2] ⟨2, ![N, S]⟩) (h : Shape.Reduces ⟨3, ![N, S, 2]⟩ [2] ⟨2, ![N, S]⟩)
    (n : Fin N) (s : Fin S) :
    Ideal.hostReduceAdd h' x init (ix2 n s) = init + (x (ix3 n s 0) + x (ix3 n s 1)) := by
  refine (Ideal.hostReduceAdd_single h' h x init (ix2 n s)).trans ?_
  show init + ∑ k : Fin 2, x (h.lift (ix2 n s) k) = _
  rw [Fin.sum_univ_two, lift_last, lift_last]

end Coordinates

end Cert.Pose.MinMax

end
-- ==== Proof.KLayout.lean ====
/-
  The layout operations of the kernel's body read at an index, for arrays of frames [R, S, V]:
  dropping the unit channel axis of a block, a slice of keypoints, a frame-wise scalar repeated over the keypoints,
  a [R, S] array seen as [R, S, 1], a column [R] seen as [R, 1], and seven columns laid side by side.
-/
import Idealize.ShloMosaic.PureOps.Ideal
import Idealize.ShloMosaic.Lib.ValueIdx
import Idealize.ShloMosaic.Lib.Pipeline.Value

noncomputable section

namespace Cert.Pose.Layout

open Idealize.ShloMosaic Idealize.ShloMosaic.ValueIdx

variable {α : Type} {R S V w : Nat}

/-- A block [R, 1, S, V] seen as [R, S, V]. -/
theorem dropChannel (x : (⟨4, ![R, 1, S, V]⟩ : Shape).Idx → α) (h : (⟨4, ![R, 1, S, V]⟩ : Shape).ShapeCasts ⟨3, ![R, S, V]⟩)
    (r : Fin R) (s : Fin S) (v : Fin V) :
    shapeCast ⟨3, ![R, S, V]⟩ x h (ix3 r s v) = x (ix4 r 0 s v) :=
  shapeCast_apply x h _ _ (by
    rw [Shape.rowMajor_val_four, Shape.rowMajor_val_three]
    show ((r.val * 1 + 0) * S + s.val) * V + v.val = (r.val * S + s.val) * V + v.val
    rw [Nat.mul_one, Nat.add_zero])

/-- Keypoints o … o + w − 1 of every frame. -/
theorem sliceKp (x : (⟨3, ![R, S, V]⟩ : Shape).Idx → α) (o : Nat) (h : (⟨3, ![R, S, V]⟩ : Shape).Slices ![0, 0, o] ⟨3, ![R, S, w]⟩)
    (r : Fin R) (s : Fin S) (j : Fin w) (hv : o + j.val < V) :
    extractStridedSlice ⟨3, ![R, S, w]⟩ ![0, 0, o] x h (ix3 r s j) = x (ix3 r s ⟨o + j.val, hv⟩) :=
  extractStridedSlice_apply _ x h _ _ (fun a => by
    match a with
    | ⟨0, _⟩ => show r.val = 0 + r.val; omega
    | ⟨1, _⟩ => show s.val = 0 + s.val; omega
    | ⟨2, _⟩ => rfl)

/-- A frame-wise scalar [R, S, 1] repeated over the keypoints. -/
theorem spreadKp (x : (⟨3, ![R, S, 1]⟩ : Shape).Idx → α) (h : (⟨3, ![R, S, 1]⟩ : Shape).Broadcasts ⟨3, ![R, S, V]⟩)
    (r : Fin R) (s : Fin S) (v : Fin V) (hR : R ≠ 1) (hS : S ≠ 1) :
    broadcastTo ⟨3, ![R, S, V]⟩ x h (ix3 r s v) = x (ix3 r s 0) :=
  broadcastTo_apply x h _ _ (fun a => by
    match a with
    | ⟨0, _⟩ => show r.val = if R = 1 then 0 else r.val; rw [if_neg hR]
    | ⟨1, _⟩ => show s.val = if S = 1 then 0 else s.val; rw [if_neg hS]
    | ⟨2, _⟩ => rfl)

/-- An array [R, S] seen as [R, S, 1]. -/
theorem addUnit (x : (⟨2, ![R, S]⟩ : Shape).Idx → α) (h : (⟨2, ![R, S]⟩ : Shape).ShapeCasts ⟨3, ![R, S, 1]⟩)
    (r : Fin R) (s : Fin S) :
    shapeCast ⟨3, ![R, S, 1]⟩ x h (ix3 r s 0) = x (ix2 r s) :=
  shapeCast_apply x h _ _ (by
    rw [Shape.rowMajor_val_two, Shape.rowMajor_val_three]
    show r.val * S + s.val = (r.val * S + s.val) * 1 + 0
    omega)

/-- A column [R] seen as [R, 1]. -/
theorem column (x : (⟨1, ![R]⟩ : Shape).Idx → α) (h : (⟨1, ![R]⟩ : Shape).ShapeCasts ⟨2, ![R, 1]⟩) (r : Fin R) :
    shapeCast ⟨2, ![R, 1]⟩ x h (ix2 r 0) = x (ix1 r) :=
  shapeCast_apply x h _ _ (by
    rw [Shape.rowMajor_val_one, Shape.rowMajor_val_two]
    show r.val = r.val * 1 + 0
    omega)

end Cert.Pose.Layout

end
-- ==== Proof.KPose.lean ====
/-
  The pose of one row of a block, read at an index. The body centres every frame on keypoint 0, divides it by the
  mean of the two shoulder keypoints and subtracts the frame's minimum; row r of the block [64, 1, 128, 17] is a sample
  q (frame, keypoint), and the result at (r, s, v) is the pose of q at (s, v).
-/
import proofs.«130793_j65274912965111_1_alg».proof.Proof.Gen.KernelIdeal.Skeleton
import proofs.«130793_j65274912965111_1_alg».proof.Proof.Spec
import proofs.«130793_j65274912965111_1_alg».proof.Proof.LibMinMax
import proofs.«130793_j65274912965111_1_alg».proof.Proof.KLayout

noncomputable section

namespace Cert.KernelIdeal.KPose

open Cert.KernelIdeal Cert.KernelIdeal.Gen Idealize.ShloMosaic Idealize.ShloMosaic.ValueIdx
open Cert.Pose Cert.Pose.MinMax Cert.Pose.Layout

/-- The frames centred on keypoint 0. -/
def cenB (X : Vec Ideal S64x1x128x17 .f32) : FVec Ideal S64x128x17 .f32 :=
  subf (shapeCast S64x128x17 X shapeCasts_S64x1x128x17_S64x128x17)
    (broadcastTo S64x128x17 (extractStridedSlice S64x128x1 ![0, 0, 0] (shapeCast S64x128x17 X shapeCasts_S64x1x128x17_S64x128x17)
      slices_S64x128x17_o0_0_0_S64x128x1) broadcasts_S64x128x1_S64x128x17)

/-- Divided by the mean of keypoints 5 and 6. -/
def alB (c : FVec Ideal S64x128x17 .f32) : FVec Ideal S64x128x17 .f32 :=
  divf c (broadcastTo S64x128x17
    (divf (shapeCast S64x128x1 (multiReduction .add [2] S64x128 (extractStridedSlice S64x128x2 ![0, 0, 5] c slices_S64x128x17_o0_0_5_S64x128x2)
        0x00000000#32 reduces_S64x128x2_S64x128 (.inl rfl) rfl) shapeCasts_S64x128_S64x128x1)
      (broadcast S64x128x1 (Scalar.ofBits .f32 0x40000000#32))) broadcasts_S64x128x1_S64x128x17)

/-- Shifted by each frame's minimum. -/
def poseB (a : FVec Ideal S64x128x17 .f32) : FVec Ideal S64x128x17 .f32 :=
  subf a (broadcastTo S64x128x17 (shapeCast S64x128x1 (multiReduction .minimumf [2] S64x128 a 0x7F800000#32
    reduces_S64x128x17_S64x128 (.inl rfl) rfl) shapeCasts_S64x128_S64x128x1) broadcasts_S64x128x1_S64x128x17)

theorem pay1_eq (X : Vec Ideal S64x1x128x17 .f32) : k0_pay1 X = poseB (alB (cenB X)) := rfl

theorem cenB_apply (X : Vec Ideal S64x1x128x17 .f32) (r : Fin 64) (s : Fin 128) (v : Fin 17) :
    cenB X (ix3 r s v) = cen (fun s v => X (ix4 r 0 s v)) s v := by
  show shapeCast S64x128x17 X _ (ix3 r s v) - broadcastTo S64x128x17 _ _ (ix3 r s v) = _
  rw [dropChannel, spreadKp _ _ r s v (by decide) (by decide), sliceKp _ 0 _ r s 0 (by decide), dropChannel]
  rfl

theorem alB_apply (c : FVec Ideal S64x128x17 .f32) (f : Fin 128 → Fin 17 → EReal) (r : Fin 64)
    (hc : ∀ s v, c (ix3 r s v) = f s v) (s : Fin 128) (v : Fin 17) :
    alB c (ix3 r s v) = Ideal.div (f s v) (Ideal.div (f s 5 + f s 6) two) := by
  show Ideal.div (c (ix3 r s v)) (broadcastTo S64x128x17 _ _ (ix3 r s v)) = _
  rw [hc, spreadKp _ _ r s v (by decide) (by decide)]
  show Ideal.div (f s v) (Ideal.div (shapeCast S64x128x1 _ _ (ix3 r s 0)) _) = _
  rw [addUnit]
  refine congrArg (fun z => Ideal.div (f s v) (Ideal.div z two)) ((sum_last2 _ _ _ _ _ r s).trans ?_)
  rw [sliceKp _ 5 _ r s 0 (by decide), sliceKp _ 5 _ r s 1 (by decide), hc, hc]
  rfl

theorem poseB_apply (a : FVec Ideal S64x128x17 .f32) (g : Fin 128 → Fin 17 → EReal) (r : Fin 64)
    (ha : ∀ s v, a (ix3 r s v) = g s v) (s : Fin 128) (v : Fin 17) :
    poseB a (ix3 r s v) = g s v - ⨅ v' : Fin 17, g s v' := by
  show a (ix3 r s v) - broadcastTo S64x128x17 _ _ (ix3 r s v) = _
  rw [ha, spreadKp _ _ r s v (by decide) (by decide), addUnit]
  exact congrArg (g s v - ·) ((min_last _ _ _ _ _ posInf r s).trans (iInf_congr fun v' => ha s v'))

/-- THE POSE of row r of a block at (s, v). -/
theorem pay1_apply (X : Vec Ideal S64x1x128x17 .f32) (r : Fin 64) (s : Fin 128) (v : Fin 17) :
    k0_pay1 X (ix3 r s v) = pose (fun s v => X (ix4 r 0 s v)) s v := by
  rw [pay1_eq, poseB_apply _ (aligned (fun s v => X (ix4 r 0 s v))) r (fun s v => ?_)]
  · rfl
  · rw [alB_apply _ (cen (fun s v => X (ix4 r 0 s v))) r (fun s v => cenB_apply X r s v)]
    rfl

end Cert.KernelIdeal.KPose

end
-- ==== Proof.KCols.lean ====
/-
  A part's column: the largest (smallest) value over all frames and the part's keypoints, as the kernel takes it —
  keypoints sliced out, reduced along the keypoint axis, then along the frame axis, and set as a column [R, 1].
  And seven columns laid side by side read at (r, k): column k at (r, 0).
-/
import proofs.«130793_j65274912965111_1_alg».proof.Proof.LibMinMax
import proofs.«130793_j65274912965111_1_alg».proof.Proof.KLayout

noncomputable section

namespace Cert.Pose.Layout

open Idealize.ShloMosaic Idealize.ShloMosaic.ValueIdx Cert.Pose.MinMax

variable {R S V w : Nat}

/-- The greatest value of rows' frames at keypoints o … o + w − 1, as a column. -/
theorem colMax (p : FVec Ideal ⟨3, ![R, S, V]⟩ .f32) (o : Nat) (acc : BitVec 32)
    (hs : (⟨3, ![R, S, V]⟩ : Shape).Slices ![0, 0, o] ⟨3, ![R, S, w]⟩)
    (h2 : Shape.Reduces ⟨3, ![R, S, w]⟩ [2] ⟨2, ![R, S]⟩) (hφ2 : FKind.Formats .f32) (hacc2 : acc = FKind.maximumf.neutral .f32 hφ2)
    (h1 : Shape.Reduces ⟨2, ![R, S]⟩ [1] ⟨1, ![R]⟩) (hφ1 : FKind.Formats .f32) (hacc1 : acc = FKind.maximumf.neutral .f32 hφ1)
    (hc : (⟨1, ![R]⟩ : Shape).ShapeCasts ⟨2, ![R, 1]⟩) (hb : Ideal.ofBits .f32 acc = (⊥ : EReal)) (hv : o + w ≤ V) (r : Fin R) :
    shapeCast ⟨2, ![R, 1]⟩ (multiReduction .maximumf [1] ⟨1, ![R]⟩ (multiReduction .maximumf [2] ⟨2, ![R, S]⟩
        (extractStridedSlice ⟨3, ![R, S, w]⟩ ![0, 0, o] p hs) acc h2 hφ2 hacc2) acc h1 hφ1 hacc1) hc (ix2 r 0)
      = ⨆ s : Fin S, ⨆ j : Fin w, p (ix3 r s ⟨o + j.val, by have := j.isLt; omega⟩) :=
  (column _ hc r).trans ((max_row _ acc h1 hφ1 hacc1 hb r).trans (iSup_congr fun s =>
    (max_last _ acc h2 hφ2 hacc2 hb r s).trans (iSup_congr fun j => sliceKp p o hs r s j _)))

/-- The least such value, as a column. -/
theorem colMin (p : FVec Ideal ⟨3, ![R, S, V]⟩ .f32) (o : Nat) (acc : BitVec 32)
    (hs : (⟨3, ![R, S, V]⟩ : Shape).Slices ![0, 0, o] ⟨3, ![R, S, w]⟩)
    (h2 : Shape.Reduces ⟨3, ![R, S, w]⟩ [2] ⟨2, ![R, S]⟩) (hφ2 : FKind.Formats .f32) (hacc2 : acc = FKind.minimumf.neutral .f32 hφ2)
    (h1 : Shape.Reduces ⟨2, ![R, S]⟩ [1] ⟨1, ![R]⟩) (hφ1 : FKind.Formats .f32) (hacc1 : acc = FKind.minimumf.neutral .f32 hφ1)
    (hc : (⟨1, ![R]⟩ : Shape).ShapeCasts ⟨2, ![R, 1]⟩) (hb : Ideal.ofBits .f32 acc = (⊤ : EReal)) (hv : o + w ≤ V) (r : Fin R) :
    shapeCast ⟨2, ![R, 1]⟩ (multiReduction .minimumf [1] ⟨1, ![R]⟩ (multiReduction .minimumf [2] ⟨2, ![R, S]⟩
        (extractStridedSlice ⟨3, ![R, S, w]⟩ ![0, 0, o] p hs) acc h2 hφ2 hacc2) acc h1 hφ1 hacc1) hc (ix2 r 0)
      = ⨅ s : Fin S, ⨅ j : Fin w, p (ix3 r s ⟨o + j.val, by have := j.isLt; omega⟩) :=
  (column _ hc r).trans ((min_row _ acc h1 hφ1 hacc1 hb r).trans (iInf_congr fun s =>
    (min_last _ acc h2 hφ2 hacc2 hb r s).trans (iInf_congr fun j => sliceKp p o hs r s j _)))

/-- Seven columns as a list of pieces. -/
abbrev cols7 {α : Type} (p0 p1 p2 p3 p4 p5 p6 : (⟨2, ![R, 1]⟩ : Shape).Idx → α) : List ((s : Shape) × (s.Idx → α)) :=
  [⟨⟨2, ![R, 1]⟩, p0⟩, ⟨⟨2, ![R, 1]⟩, p1⟩, ⟨⟨2, ![R, 1]⟩, p2⟩, ⟨⟨2, ![R, 1]⟩, p3⟩, ⟨⟨2, ![R, 1]⟩, p4⟩, ⟨⟨2, ![R, 1]⟩, p5⟩, ⟨⟨2, ![R, 1]⟩, p6⟩]

/-- Seven columns side by side, read at (r, k): column k at (r, 0). -/
theorem cat7 {α : Type} (p0 p1 p2 p3 p4 p5 p6 : (⟨2, ![R, 1]⟩ : Shape).Idx → α)
    (h : Shape.Concatenates ((cols7 p0 p1 p2 p3 p4 p5 p6).map (·.1)) ⟨2, ![R, 7]⟩ 1)
    (r : Fin R) (k : Fin 7) :
    concatenate ⟨2, ![R, 7]⟩ 1 (cols7 p0 p1 p2 p3 p4 p5 p6) h (ix2 r k) = (![p0, p1, p2, p3, p4, p5, p6] k) (ix2 r 0) := by
  have key : ∀ (n : Nat) (hn : n < 7) (q : (⟨2, ![R, 1]⟩ : Shape).Idx → α),
      (cols7 p0 p1 p2 p3 p4 p5 p6)[n]'(by simpa using hn) = ⟨⟨2, ![R, 1]⟩, q⟩ →
      concatenate ⟨2, ![R, 7]⟩ 1 (cols7 p0 p1 p2 p3 p4 p5 p6) h (ix2 r ⟨n, hn⟩) = q (ix2 r 0) := by
    intro n hn q hq
    refine concatenate_apply_piece 1 (cols7 p0 p1 p2 p3 p4 p5 p6) h _ n (by simpa using hn) _ q hq rfl n ?_ (ix2 r 0) (fun b hb => ?_) ?_
    · interval_cases n <;> rfl
    · match b with
      | ⟨0, _⟩ => rfl
      | ⟨1, _⟩ => exact absurd rfl hb
    · show n + 0 = n; rfl
  fin_cases k
  · exact key 0 (by decide) p0 rfl
  · exact key 1 (by decide) p1 rfl
  · exact key 2 (by decide) p2 rfl
  · exact key 3 (by decide) p3 rfl
  · exact key 4 (by decide) p4 rfl
  · exact key 5 (by decide) p5 rfl
  · exact key 6 (by decide) p6 rfl

end Cert.Pose.Layout

end
-- ==== Proof.SpecLaws.lean ====
/-
  The seven parts partition the seventeen keypoints, so the least (greatest) of the parts' minima (maxima) is the
  minimum (maximum) over all keypoints.
-/
import proofs.«130793_j65274912965111_1_alg».proof.Proof.Spec

noncomputable section

namespace Cert.Pose

/-- The least of the seven parts' minima is the minimum over every frame and keypoint. -/
theorem top_parts (p : Sample) : (⨅ k : Fin 7, partMin p (lo k) (wd k) (lo_wd k)) = top p := by
  refine le_antisymm (le_iInf fun s => le_iInf fun v => ?_) (le_iInf fun k => le_iInf fun s => le_iInf fun j => ?_)
  · fin_cases v
    · exact (iInf_le _ (0 : Fin 7)).trans ((iInf_le _ s).trans (iInf_le _ (⟨0, by decide⟩ : Fin (wd 0))))
    · exact (iInf_le _ (0 : Fin 7)).trans ((iInf_le _ s).trans (iInf_le _ (⟨1, by decide⟩ : Fin (wd 0))))
    · exact (iInf_le _ (0 : Fin 7)).trans ((iInf_le _ s).trans (iInf_le _ (⟨2, by decide⟩ : Fin (wd 0))))
    · exact (iInf_le _ (0 : Fin 7)).trans ((iInf_le _ s).trans (iInf_le _ (⟨3, by decide⟩ : Fin (wd 0))))
    · exact (iInf_le _ (0 : Fin 7)).trans ((iInf_le _ s).trans (iInf_le _ (⟨4, by decide⟩ : Fin (wd 0))))
    · exact (iInf_le _ (1 : Fin 7)).trans ((iInf_le _ s).trans (iInf_le _ (⟨0, by decide⟩ : Fin (wd 1))))
    · exact (iInf_le _ (1 : Fin 7)).trans ((iInf_le _ s).trans (iInf_le _ (⟨1, by decide⟩ : Fin (wd 1))))
    · exact (iInf_le _ (2 : Fin 7)).trans ((iInf_le _ s).trans (iInf_le _ (⟨0, by decide⟩ : Fin (wd 2))))
    · exact (iInf_le _ (2 : Fin 7)).trans ((iInf_le _ s).trans (iInf_le _ (⟨1, by decide⟩ : Fin (wd 2))))
    · exact (iInf_le _ (3 : Fin 7)).trans ((iInf_le _ s).trans (iInf_le _ (⟨0, by decide⟩ : Fin (wd 3))))
    · exact (iInf_le _ (3 : Fin 7)).trans ((iInf_le _ s).trans (iInf_le _ (⟨1, by decide⟩ : Fin (wd 3))))
    · exact (iInf_le _ (4 : Fin 7)).trans ((iInf_le _ s).trans (iInf_le _ (⟨0, by decide⟩ : Fin (wd 4))))
    · exact (iInf_le _ (4 : Fin 7)).trans ((iInf_le _ s).trans (iInf_le _ (⟨1, by decide⟩ : Fin (wd 4))))
    · exact (iInf_le _ (5 : Fin 7)).trans ((iInf_le _ s).trans (iInf_le _ (⟨0, by decide⟩ : Fin (wd 5))))
    · exact (iInf_le _ (5 : Fin 7)).trans ((iInf_le _ s).trans (iInf_le _ (⟨1, by decide⟩ : Fin (wd 5))))
    · exact (iInf_le _ (6 : Fin 7)).trans ((iInf_le _ s).trans (iInf_le _ (⟨0, by decide⟩ : Fin (wd 6))))
    · exact (iInf_le _ (6 : Fin 7)).trans ((iInf_le _ s).trans (iInf_le _ (⟨1, by decide⟩ : Fin (wd 6))))
  · exact (iInf_le _ s).trans (iInf_le _ (kp (lo k) (wd k) (lo_wd k) j))

/-- The greatest of the seven parts' maxima is the maximum over every frame and keypoint. -/
theorem bottom_parts (p : Sample) : (⨆ k : Fin 7, partMax p (lo k) (wd k) (lo_wd k)) = bottom p := by
  refine le_antisymm (iSup_le fun k => iSup_le fun s => iSup_le fun j => ?_) (iSup_le fun s => iSup_le fun v => ?_)
  · exact (le_iSup _ (kp (lo k) (wd k) (lo_wd k) j)).trans (le_iSup (fun s => ⨆ v, p s v) s)
  · fin_cases v
    · exact (le_iSup _ (⟨0, by decide⟩ : Fin (wd 0))).trans ((le_iSup _ s).trans (le_iSup (fun k : Fin 7 => partMax p (lo k) (wd k) (lo_wd k)) (0 : Fin 7)))
    · exact (le_iSup _ (⟨1, by decide⟩ : Fin (wd 0))).trans ((le_iSup _ s).trans (le_iSup (fun k : Fin 7 => partMax p (lo k) (wd k) (lo_wd k)) (0 : Fin 7)))
    · exact (le_iSup _ (⟨2, by decide⟩ : Fin (wd 0))).trans ((le_iSup _ s).trans (le_iSup (fun k : Fin 7 => partMax p (lo k) (wd k) (lo_wd k)) (0 : Fin 7)))
    · exact (le_iSup _ (⟨3, by decide⟩ : Fin (wd 0))).trans ((le_iSup _ s).trans (le_iSup (fun k : Fin 7 => partMax p (lo k) (wd k) (lo_wd k)) (0 : Fin 7)))
    · exact (le_iSup _ (⟨4, by decide⟩ : Fin (wd 0))).trans ((le_iSup _ s).trans (le_iSup (fun k : Fin 7 => partMax p (lo k) (wd k) (lo_wd k)) (0 : Fin 7)))
    · exact (le_iSup _ (⟨0, by decide⟩ : Fin (wd 1))).trans ((le_iSup _ s).trans (le_iSup (fun k : Fin 7 => partMax p (lo k) (wd k) (lo_wd k)) (1 : Fin 7)))
    · exact (le_iSup _ (⟨1, by decide⟩ : Fin (wd 1))).trans ((le_iSup _ s).trans (le_iSup (fun k : Fin 7 => partMax p (lo k) (wd k) (lo_wd k)) (1 : Fin 7)))
    · exact (le_iSup _ (⟨0, by decide⟩ : Fin (wd 2))).trans ((le_iSup _ s).trans (le_iSup (fun k : Fin 7 => partMax p (lo k) (wd k) (lo_wd k)) (2 : Fin 7)))
    · exact (le_iSup _ (⟨1, by decide⟩ : Fin (wd 2))).trans ((le_iSup _ s).trans (le_iSup (fun k : Fin 7 => partMax p (lo k) (wd k) (lo_wd k)) (2 : Fin 7)))
    · exact (le_iSup _ (⟨0, by decide⟩ : Fin (wd 3))).trans ((le_iSup _ s).trans (le_iSup (fun k : Fin 7 => partMax p (lo k) (wd k) (lo_wd k)) (3 : Fin 7)))
    · exact (le_iSup _ (⟨1, by decide⟩ : Fin (wd 3))).trans ((le_iSup _ s).trans (le_iSup (fun k : Fin 7 => partMax p (lo k) (wd k) (lo_wd k)) (3 : Fin 7)))
    · exact (le_iSup _ (⟨0, by decide⟩ : Fin (wd 4))).trans ((le_iSup _ s).trans (le_iSup (fun k : Fin 7 => partMax p (lo k) (wd k) (lo_wd k)) (4 : Fin 7)))
    · exact (le_iSup _ (⟨1, by decide⟩ : Fin (wd 4))).trans ((le_iSup _ s).trans (le_iSup (fun k : Fin 7 => partMax p (lo k) (wd k) (lo_wd k)) (4 : Fin 7)))
    · exact (le_iSup _ (⟨0, by decide⟩ : Fin (wd 5))).trans ((le_iSup _ s).trans (le_iSup (fun k : Fin 7 => partMax p (lo k) (wd k) (lo_wd k)) (5 : Fin 7)))
    · exact (le_iSup _ (⟨1, by decide⟩ : Fin (wd 5))).trans ((le_iSup _ s).trans (le_iSup (fun k : Fin 7 => partMax p (lo k) (wd k) (lo_wd k)) (5 : Fin 7)))
    · exact (le_iSup _ (⟨0, by decide⟩ : Fin (wd 6))).trans ((le_iSup _ s).trans (le_iSup (fun k : Fin 7 => partMax p (lo k) (wd k) (lo_wd k)) (6 : Fin 7)))
    · exact (le_iSup _ (⟨1, by decide⟩ : Fin (wd 6))).trans ((le_iSup _ s).trans (le_iSup (fun k : Fin 7 => partMax p (lo k) (wd k) (lo_wd k)) (6 : Fin 7)))

end Cert.Pose

end
-- ==== Proof.KParts.lean ====
/-
  The seven parts of one row of a block. For row r of the block, a sample q with pose p: each part's column holds
  the part's greatest and least value of p; the least of the seven minima is p's overall minimum (top), the greatest
  of the seven maxima its overall maximum (bottom), because the parts partition the keypoints; the scaled and rounded
  columns are the sample's integer bounds, and the corrected pair is the specification's.
-/
import proofs.«130793_j65274912965111_1_alg».proof.Proof.KPose
import proofs.«130793_j65274912965111_1_alg».proof.Proof.KCols
import proofs.«130793_j65274912965111_1_alg».proof.Proof.SpecLaws

noncomputable section

namespace Cert.KernelIdeal.KParts

open Cert.KernelIdeal Cert.KernelIdeal.Gen Idealize.ShloMosaic Idealize.ShloMosaic.ValueIdx
open Cert.Pose Cert.Pose.MinMax Cert.Pose.Layout Cert.KernelIdeal.KPose

/-- The sample in row r of a block. -/
abbrev rowOf (X : Vec Ideal S64x1x128x17 .f32) (r : Fin 64) : Sample := fun s v => X (ix4 r 0 s v)

section
variable (X : Vec Ideal S64x1x128x17 .f32) (r : Fin 64)

theorem partMax_of (o w : Nat) (h : o + w ≤ 17) :
    (⨆ s : Fin 128, ⨆ j : Fin w, k0_pay1 X (ix3 r s ⟨o + j.val, by have := j.isLt; omega⟩)) = partMax (pose (rowOf X r)) o w h :=
  iSup_congr fun s => iSup_congr fun _ => pay1_apply X r s _

theorem partMin_of (o w : Nat) (h : o + w ≤ 17) :
    (⨅ s : Fin 128, ⨅ j : Fin w, k0_pay1 X (ix3 r s ⟨o + j.val, by have := j.isLt; omega⟩)) = partMin (pose (rowOf X r)) o w h :=
  iInf_congr fun s => iInf_congr fun _ => pay1_apply X r s _

theorem pmax0 : (k0_pay3 X) (ix2 r 0) = partMax (pose (rowOf X r)) (lo 0) (wd 0) (lo_wd 0) := by
  unfold k0_pay3 k0_pay2
  exact (colMax (k0_pay1 X) 0 _ _ _ _ _ _ _ _ _ negInf (by decide) r).trans (partMax_of X r 0 5 (by decide))

theorem pmin0 : (k0_pay4 X) (ix2 r 0) = partMin (pose (rowOf X r)) (lo 0) (wd 0) (lo_wd 0) := by
  unfold k0_pay4 k0_pay2
  exact (colMin (k0_pay1 X) 0 _ _ _ _ _ _ _ _ _ posInf (by decide) r).trans (partMin_of X r 0 5 (by decide))

theorem pmax1 : (k0_pay6 X) (ix2 r 0) = partMax (pose (rowOf X r)) (lo 1) (wd 1) (lo_wd 1) := by
  unfold k0_pay6 k0_pay5
  exact (colMax (k0_pay1 X) 5 _ _ _ _ _ _ _ _ _ negInf (by decide) r).trans (partMax_of X r 5 2 (by decide))

theorem pmin1 : (k0_pay7 X) (ix2 r 0) = partMin (pose (rowOf X r)) (lo 1) (wd 1) (lo_wd 1) := by
  unfold k0_pay7 k0_pay5
  exact (colMin (k0_pay1 X) 5 _ _ _ _ _ _ _ _ _ posInf (by decide) r).trans (partMin_of X r 5 2 (by decide))

theorem pmax2 : (k0_pay9 X) (ix2 r 0) = partMax (pose (rowOf X r)) (lo 2) (wd 2) (lo_wd 2) := by
  unfold k0_pay9 k0_pay8
  exact (colMax (k0_pay1 X) 7 _ _ _ _ _ _ _ _ _ negInf (by decide) r).trans (partMax_of X r 7 2 (by decide))

theorem pmin2 : (k0_pay10 X) (ix2 r 0) = partMin (pose (rowOf X r)) (lo 2) (wd 2) (lo_wd 2) := by
  unfold k0_pay10 k0_pay8
  exact (colMin (k0_pay1 X) 7 _ _ _ _ _ _ _ _ _ posInf (by decide) r).trans (partMin_of X r 7 2 (by decide))

theorem pmax3 : (k0_pay13 (k0_pay12 X)) (ix2 r 0) = partMax (pose (rowOf X r)) (lo 3) (wd 3) (lo_wd 3) := by
  unfold k0_pay13 k0_pay12 k0_pay11
  exact (colMax (k0_pay1 X) 9 _ _ _ _ _ _ _ _ _ negInf (by decide) r).trans (partMax_of X r 9 2 (by decide))

theorem pmin3 : (k0_pay14 (k0_pay11 X)) (ix2 r 0) = partMin (pose (rowOf X r)) (lo 3) (wd 3) (lo_wd 3) := by
  unfold k0_pay14 k0_pay11
  exact (colMin (k0_pay1 X) 9 _ _ _ _ _ _ _ _ _ posInf (by decide) r).trans (partMin_of X r 9 2 (by decide))

theorem pmax4 : (k0_pay16 (k0_pay1 X)) (ix2 r 0) = partMax (pose (rowOf X r)) (lo 4) (wd 4) (lo_wd 4) := by
  unfold k0_pay16 k0_pay15
  exact (colMax (k0_pay1 X) 11 _ _ _ _ _ _ _ _ _ negInf (by decide) r).trans (partMax_of X r 11 2 (by decide))

theorem pmin4 : (k0_pay17 (k0_pay1 X)) (ix2 r 0) = partMin (pose (rowOf X r)) (lo 4) (wd 4) (lo_wd 4) := by
  unfold k0_pay17 k0_pay15
  exact (colMin (k0_pay1 X) 11 _ _ _ _ _ _ _ _ _ posInf (by decide) r).trans (partMin_of X r 11 2 (by decide))

theorem pmax5 : (k0_pay19 (k0_pay1 X)) (ix2 r 0) = partMax (pose (rowOf X r)) (lo 5) (wd 5) (lo_wd 5) := by
  unfold k0_pay19 k0_pay18
  exact (colMax (k0_pay1 X) 13 _ _ _ _ _ _ _ _ _ negInf (by decide) r).trans (partMax_of X r 13 2 (by decide))

theorem pmin5 : (k0_pay20 (k0_pay1 X)) (ix2 r 0) = partMin (pose (rowOf X r)) (lo 5) (wd 5) (lo_wd 5) := by
  unfold k0_pay20 k0_pay18
  exact (colMin (k0_pay1 X) 13 _ _ _ _ _ _ _ _ _ posInf (by decide) r).trans (partMin_of X r 13 2 (by decide))

theorem pmax6 : (k0_pay22 (k0_pay1 X)) (ix2 r 0) = partMax (pose (rowOf X r)) (lo 6) (wd 6) (lo_wd 6) := by
  unfold k0_pay22 k0_pay21
  exact (colMax (k0_pay1 X) 15 _ _ _ _ _ _ _ _ _ negInf (by decide) r).trans (partMax_of X r 15 2 (by decide))

theorem pmin6 : (k0_pay23 (k0_pay1 X)) (ix2 r 0) = partMin (pose (rowOf X r)) (lo 6) (wd 6) (lo_wd 6) := by
  unfold k0_pay23 k0_pay21
  exact (colMin (k0_pay1 X) 15 _ _ _ _ _ _ _ _ _ posInf (by decide) r).trans (partMin_of X r 15 2 (by decide))

/-- The column of the overall minimum, and the column of the spread. -/
abbrev topB : FVec Ideal S64x1 .f32 := k0_pay24 (k0_pay1 X) (k0_pay4 X) (k0_pay7 X) (k0_pay10 X) (k0_pay11 X)
abbrev denB : FVec Ideal S64x1 .f32 :=
  k0_pay25 (k0_pay1 X) (k0_pay3 X) (k0_pay4 X) (k0_pay6 X) (k0_pay7 X) (k0_pay9 X) (k0_pay10 X) (k0_pay11 X) (k0_pay12 X)

theorem topB_apply : topB X (ix2 r 0) = top (pose (rowOf X r)) := by
  unfold topB k0_pay24
  refine (column _ _ r).trans ((min_row _ _ _ _ _ posInf r).trans ?_)
  rw [← top_parts]
  refine iInf_congr fun k => (cat7 _ _ _ _ _ _ _ _ r k).trans ?_
  fin_cases k
  · exact pmin0 X r
  · exact pmin1 X r
  · exact pmin2 X r
  · exact pmin3 X r
  · exact pmin4 X r
  · exact pmin5 X r
  · exact pmin6 X r

theorem denB_apply : denB X (ix2 r 0) = bottom (pose (rowOf X r)) - top (pose (rowOf X r)) := by
  unfold denB k0_pay25
  show shapeCast S64x1 _ _ (ix2 r 0) - topB X (ix2 r 0) = _
  rw [topB_apply]
  refine congrArg (· - top (pose (rowOf X r))) ?_
  refine (column _ _ r).trans ((max_row _ _ _ _ _ negInf r).trans ?_)
  rw [← bottom_parts]
  refine iSup_congr fun k => (cat7 _ _ _ _ _ _ _ _ r k).trans ?_
  fin_cases k
  · exact pmax0 X r
  · exact pmax1 X r
  · exact pmax2 X r
  · exact pmax3 X r
  · exact pmax4 X r
  · exact pmax5 X r
  · exact pmax6 X r

end

end Cert.KernelIdeal.KParts

end
-- ==== Proof.KOut.lean ====
/-
  What the body leaves in the two output buffers, read at (r, k): the corrected pair of part k of the sample in row r
  of the input block.
-/
import proofs.«130793_j65274912965111_1_alg».proof.Proof.Gen.KernelIdeal.Frame
import proofs.«130793_j65274912965111_1_alg».proof.Proof.KParts

noncomputable section

namespace Cert.KernelIdeal.KOut

open Cert.KernelIdeal Cert.KernelIdeal.Gen Idealize.ShloMosaic Idealize.ShloMosaic.ValueIdx
open Cert.Pose Cert.Pose.MinMax Cert.Pose.Layout Cert.KernelIdeal.KPose Cert.KernelIdeal.KParts

section
variable (X : Vec Ideal S64x1x128x17 .f32) (r : Fin 64)

/-- The seven upper bounds side by side, and the seven lower bounds. -/
abbrev maCols : IVec S64x7 32 :=
  k0_pay37 (k0_pay19 (k0_pay1 X)) (k0_pay22 (k0_pay1 X)) (topB X) (denB X)
    (k0_pay26 (k0_pay1 X) (k0_pay3 X) (k0_pay4 X) (k0_pay6 X) (k0_pay7 X) (k0_pay9 X) (k0_pay10 X) (k0_pay11 X) (k0_pay12 X))
    (k0_pay29 (k0_pay6 X) (topB X) (denB X)) (k0_pay31 (k0_pay9 X) (topB X) (denB X))
    (k0_pay33 (k0_pay13 (k0_pay12 X)) (topB X) (denB X)) (k0_pay35 (k0_pay16 (k0_pay1 X)) (topB X) (denB X))
abbrev miCols : IVec S64x7 32 :=
  k0_pay38 (k0_pay20 (k0_pay1 X)) (k0_pay23 (k0_pay1 X)) (topB X) (denB X)
    (k0_pay28 (k0_pay27 (k0_pay1 X) (k0_pay3 X) (k0_pay4 X) (k0_pay6 X) (k0_pay7 X) (k0_pay9 X) (k0_pay10 X) (k0_pay11 X) (k0_pay12 X))
      (Scalar.ofBits .f32 0x42800000#32))
    (k0_pay30 (k0_pay7 X) (topB X) (denB X)) (k0_pay32 (k0_pay10 X) (topB X) (denB X))
    (k0_pay34 (k0_pay14 (k0_pay11 X)) (topB X) (denB X)) (k0_pay36 (k0_pay17 (k0_pay1 X)) (topB X) (denB X))

theorem maCols_apply (k : Fin 7) : maCols X (ix2 r k) = maRaw (pose (rowOf X r)) k := by
  unfold maCols k0_pay37
  refine (cat7 _ _ _ _ _ _ _ _ r k).trans ?_
  fin_cases k
  · show Ideal.fptosi 32 (Ideal.liftRound Int.ceil (scaled ((k0_pay3 X) (ix2 r 0)) (topB X (ix2 r 0)) (denB X (ix2 r 0)))) = _
    rw [pmax0 X r, topB_apply X r, denB_apply X r]; rfl
  · show Ideal.fptosi 32 (Ideal.liftRound Int.ceil (scaled ((k0_pay6 X) (ix2 r 0)) (topB X (ix2 r 0)) (denB X (ix2 r 0)))) = _
    rw [pmax1 X r, topB_apply X r, denB_apply X r]; rfl
  · show Ideal.fptosi 32 (Ideal.liftRound Int.ceil (scaled ((k0_pay9 X) (ix2 r 0)) (topB X (ix2 r 0)) (denB X (ix2 r 0)))) = _
    rw [pmax2 X r, topB_apply X r, denB_apply X r]; rfl
  · show Ideal.fptosi 32 (Ideal.liftRound Int.ceil (scaled ((k0_pay13 (k0_pay12 X)) (ix2 r 0)) (topB X (ix2 r 0)) (denB X (ix2 r 0)))) = _
    rw [pmax3 X r, topB_apply X r, denB_apply X r]; rfl
  · show Ideal.fptosi 32 (Ideal.liftRound Int.ceil (scaled ((k0_pay16 (k0_pay1 X)) (ix2 r 0)) (topB X (ix2 r 0)) (denB X (ix2 r 0)))) = _
    rw [pmax4 X r, topB_apply X r, denB_apply X r]; rfl
  · show Ideal.fptosi 32 (Ideal.liftRound Int.ceil (scaled ((k0_pay19 (k0_pay1 X)) (ix2 r 0)) (topB X (ix2 r 0)) (denB X (ix2 r 0)))) = _
    rw [pmax5 X r, topB_apply X r, denB_apply X r]; rfl
  · show Ideal.fptosi 32 (Ideal.liftRound Int.ceil (scaled ((k0_pay22 (k0_pay1 X)) (ix2 r 0)) (topB X (ix2 r 0)) (denB X (ix2 r 0)))) = _
    rw [pmax6 X r, topB_apply X r, denB_apply X r]; rfl

theorem miCols_apply (k : Fin 7) : miCols X (ix2 r k) = miRaw (pose (rowOf X r)) k := by
  unfold miCols k0_pay38
  refine (cat7 _ _ _ _ _ _ _ _ r k).trans ?_
  fin_cases k
  · show Ideal.fptosi 32 (Ideal.liftRound Int.floor (scaled ((k0_pay4 X) (ix2 r 0)) (topB X (ix2 r 0)) (denB X (ix2 r 0)))) = _
    rw [pmin0 X r, topB_apply X r, denB_apply X r]; rfl
  · show Ideal.fptosi 32 (Ideal.liftRound Int.floor (scaled ((k0_pay7 X) (ix2 r 0)) (topB X (ix2 r 0)) (denB X (ix2 r 0)))) = _
    rw [pmin1 X r, topB_apply X r, denB_apply X r]; rfl
  · show Ideal.fptosi 32 (Ideal.liftRound Int.floor (scaled ((k0_pay10 X) (ix2 r 0)) (topB X (ix2 r 0)) (denB X (ix2 r 0)))) = _
    rw [pmin2 X r, topB_apply X r, denB_apply X r]; rfl
  · show Ideal.fptosi 32 (Ideal.liftRound Int.floor (scaled ((k0_pay14 (k0_pay11 X)) (ix2 r 0)) (topB X (ix2 r 0)) (denB X (ix2 r 0)))) = _
    rw [pmin3 X r, topB_apply X r, denB_apply X r]; rfl
  · show Ideal.fptosi 32 (Ideal.liftRound Int.floor (scaled ((k0_pay17 (k0_pay1 X)) (ix2 r 0)) (topB X (ix2 r 0)) (denB X (ix2 r 0)))) = _
    rw [pmin4 X r, topB_apply X r, denB_apply X r]; rfl
  · show Ideal.fptosi 32 (Ideal.liftRound Int.floor (scaled ((k0_pay20 (k0_pay1 X)) (ix2 r 0)) (topB X (ix2 r 0)) (denB X (ix2 r 0)))) = _
    rw [pmin5 X r, topB_apply X r, denB_apply X r]; rfl
  · show Ideal.fptosi 32 (Ideal.liftRound Int.floor (scaled ((k0_pay23 (k0_pay1 X)) (ix2 r 0)) (topB X (ix2 r 0)) (denB X (ix2 r 0)))) = _
    rw [pmin6 X r, topB_apply X r, denB_apply X r]; rfl

end

/-- The fixed pair's upper and lower word at column k. -/
theorem hiCol_apply (r : Fin 64) (k : Fin 7) : k0_pay39 (ix2 r k) = hiW (BitVec.ofNat 32 k.val) := by
  show IntOp.muli (IntOp.addi (iota .tc S64x7 32 [1] _ (ix2 r k)) 1#32) 9#32 = _
  rw [iota_single_apply]; rfl

theorem loCol_apply (r : Fin 64) (k : Fin 7) : k0_pay40 (ix2 r k) = loW (BitVec.ofNat 32 k.val) := by
  show IntOp.muli (iota .tc S64x7 32 [1] _ (ix2 r k)) 9#32 = _
  rw [iota_single_apply]; rfl

/-- The two corrections, pointwise on the two tables of bounds. -/
theorem pay45_apply (v55 v57 v62 v64 v70 v71 : FVec Ideal S64x1 .f32) (v77 v83 v89 v95 v101 v107 v113 v119 v125 v131 : IVec S64x1 32)
    (r : Fin 64) (k : Fin 7) :
    k0_pay45 v55 v57 v62 v64 v70 v71 v77 v83 v89 v95 v101 v107 v113 v119 v125 v131 (ix2 r k)
      = fixMa (BitVec.ofNat 32 k.val) (k0_pay37 v55 v62 v70 v71 v77 v89 v101 v113 v125 (ix2 r k))
          (k0_pay38 v57 v64 v70 v71 v83 v95 v107 v119 v131 (ix2 r k)) := by
  unfold fixMa
  rw [← hiCol_apply r k, ← loCol_apply r k]
  rfl

theorem pay46_apply (v55 v57 v62 v64 v70 v71 : FVec Ideal S64x1 .f32) (v77 v83 v89 v95 v101 v107 v113 v119 v125 v131 : IVec S64x1 32)
    (r : Fin 64) (k : Fin 7) :
    k0_pay46 v55 v57 v62 v64 v70 v71 v77 v83 v89 v95 v101 v107 v113 v119 v125 v131 (ix2 r k)
      = fixMi (BitVec.ofNat 32 k.val) (k0_pay37 v55 v62 v70 v71 v77 v89 v101 v113 v125 (ix2 r k))
          (k0_pay38 v57 v64 v70 v71 v83 v95 v107 v119 v131 (ix2 r k)) := by
  unfold fixMi
  rw [← hiCol_apply r k, ← loCol_apply r k]
  rfl

theorem hz2 : (![0, 0] : Fin 2 → Nat) = fun _ => 0 := funext fun a => by fin_cases a <;> rfl
theorem hz4 : (![0, 0, 0, 0] : Fin 4 → Nat) = fun _ => 0 := funext fun a => by fin_cases a <;> rfl

/-- THE FIRST OUTPUT BUFFER after the body at (r, k). -/
theorem out1_apply (X : Vec Ideal S64x1x128x17 .f32) (r : Fin 64) (k : Fin 7) :
    out0_1 X (ix2 r k) = outMa (fun s v => X (ix4 r 0 s v)) k := by
  unfold out0_1
  rw [View.canon_unit_zero hz2]
  simp only [View.ld_unit_zero (S := S64x1x128x17) hz4]
  rw [pay45_apply]
  show fixMa _ (maCols X (ix2 r k)) (miCols X (ix2 r k)) = _
  rw [maCols_apply, miCols_apply]
  rfl

/-- THE SECOND OUTPUT BUFFER after the body at (r, k). -/
theorem out2_apply (X : Vec Ideal S64x1x128x17 .f32) (r : Fin 64) (k : Fin 7) :
    out0_2 X (ix2 r k) = outMi (fun s v => X (ix4 r 0 s v)) k := by
  unfold out0_2
  rw [View.canon_unit_zero hz2]
  simp only [View.ld_unit_zero (S := S64x1x128x17) hz4]
  rw [pay46_apply]
  show fixMi _ (maCols X (ix2 r k)) (miCols X (ix2 r k)) = _
  rw [maCols_apply, miCols_apply]
  rfl

end Cert.KernelIdeal.KOut

end
-- ==== Proof.KRun.lean ====
/-
  The kernel's run, read at its two results, from what the body leaves in each output block.

  The grid has 64 points. Point t stages rows 64t … 64t+63 of channel 1 of the argument (a block of 64 samples, each
  128 frames × 17 keypoints) and writes back rows 64t … 64t+63 of two [4096, 7] arrays. Under the two hypotheses that
  the body leaves, at row r and part k of each output block, the two results of the block's sample r, each [4096, 7]
  array ends holding at (n, k) the result of sample n of the argument for part k: row n lies in the block of point
  n / 64 at row n mod 64, and the blocks of the 64 points tile the array. The two transposes that follow swap the
  coordinates, so the program's results hold at (k, n) the result of sample n for part k. The argument is unchanged.
-/
import proofs.«130793_j65274912965111_1_alg».proof.Proof.Gen.KernelIdeal.Frame
import proofs.«130793_j65274912965111_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KRun

open Cert.KernelIdeal Cert.KernelIdeal.Gen Idealize.ShloMosaic Idealize.ShloMosaic.TcCoe Idealize.SL.Sem
open Idealize.ShloMosaic.Pipeline (Dat)
open Idealize.ShloMosaic.ValueIdx

section Steps

variable (m : (ℓ : Loc nD τ sig) → Buf (Elt Ideal) ℓ) (ρ : Dev nD → PrngReg)

/-! ## The two [4096, 7] arrays as functions of the argument -/

/-- At (n, k): the first result of sample n for part k. -/
abbrev GMa (x : S4096x3x128x17.Idx → EReal) : S4096x7.Idx → BitVec 32 :=
  fun i => Cert.Pose.outMa (Cert.Pose.sampleOf x (i 0)) (i 1)
/-- At (n, k): the second result of sample n for part k. -/
abbrev GMi (x : S4096x3x128x17.Idx → EReal) : S4096x7.Idx → BitVec 32 :=
  fun i => Cert.Pose.outMi (Cert.Pose.sampleOf x (i 0)) (i 1)

/-! ## The index maps -/

/-- Point t's input block is block (t, 1, 0, 0) of the argument and its output blocks are block (t, 0) of theirs. -/
theorem index_facts : ∀ t : Fin cfg0.N,
    win0_0.index t (0 : Fin 4) = t.val ∧ win0_0.index t (1 : Fin 4) = 1
    ∧ win0_0.index t (2 : Fin 4) = 0 ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row r of point t's input block is sample 64t + r of channel 1 of the argument. -/
theorem iblk_apply (c : Dev nD) (t : Fin cfg0.N) (r : Fin 64) (s : Fin 128) (v : Fin 17) (n : Fin 4096)
    (hn : n.val = 64 * t.val + r.val) :
    (iblk m c 0 t : Vec Ideal S64x1x128x17 .f32) (ix4 r 0 s v)
      = (V m c main_arg0 : S4096x3x128x17.Idx → EReal) (ix4 n 1 s v) := by
  obtain ⟨e0, e1, e2, e3, -⟩ := index_facts t
  unfold iblk
  rw [View.read_apply]
  show V m c main_arg0 _ = V m c main_arg0 _
  congr 1
  funext a
  apply Fin.ext
  match a with
  | ⟨0, _⟩ => show win0_0.index t (0 : Fin 4) * 64 + 1 * r.val = n.val; omega
  | ⟨1, _⟩ => show win0_0.index t (1 : Fin 4) * 1 + 1 * 0 = 1; omega
  | ⟨2, _⟩ => show win0_0.index t (2 : Fin 4) * 128 + 1 * s.val = s.val; omega
  | ⟨3, _⟩ => show win0_0.index t (3 : Fin 4) * 17 + 1 * v.val = v.val; omega

/-! ## What each point writes back -/

/-- Row r, part k of point t's first output block sits at row 64t + r, part k of the array. -/
theorem emb1 (t : Fin cfg0.N) (r : Fin 64) (k : Fin 7) (n : Fin 4096) (hn : n.val = 64 * t.val + r.val) :
    ((cfg0.win 1).blk t).view.emb (ix2 r k) = (ix2 n k : S4096x7.Idx) := by
  obtain ⟨-, -, -, -, e0, e1, -⟩ := index_facts t
  funext a
  apply Fin.ext
  match a with
  | ⟨0, _⟩ => show win0_1.index t (0 : Fin 2) * 64 + 1 * r.val = n.val; omega
  | ⟨1, _⟩ => show win0_1.index t (1 : Fin 2) * 7 + 1 * k.val = k.val; omega

/-- The same for the second output block. -/
theorem emb2 (t : Fin cfg0.N) (r : Fin 64) (k : Fin 7) (n : Fin 4096) (hn : n.val = 64 * t.val + r.val) :
    ((cfg0.win 2).blk t).view.emb (ix2 r k) = (ix2 n k : S4096x7.Idx) := by
  obtain ⟨-, -, -, -, -, -, e0, e1⟩ := index_facts t
  funext a
  apply Fin.ext
  match a with
  | ⟨0, _⟩ => show win0_2.index t (0 : Fin 2) * 64 + 1 * r.val = n.val; omega
  | ⟨1, _⟩ => show win0_2.index t (1 : Fin 2) * 7 + 1 * k.val = k.val; omega

/-- Row 64t + r is a row of the array. -/
theorem row_lt (t : Fin cfg0.N) (r : Fin 64) : 64 * t.val + r.val < 4096 := by
  have hN : cfg0.N = 64 := N_0
  have ht := t.isLt
  have hr := r.isLt
  omega

section
variable (hout1 : ∀ (x0 : Vec Ideal S64x1x128x17 .f32) (r : Fin 64) (k : Fin 7),
    Gen.out0_1 x0 (ix2 r k) = Cert.Pose.outMa (fun s v => x0 (ix4 r 0 s v)) k)
variable (hout2 : ∀ (x0 : Vec Ideal S64x1x128x17 .f32) (r : Fin 64) (k : Fin 7),
    Gen.out0_2 x0 (ix2 r k) = Cert.Pose.outMi (fun s v => x0 (ix4 r 0 s v)) k)

include hout1 in
/-- What point t writes back to the first array is block t of GMa of the argument. -/
theorem flushed1_eq (c : Dev nD) (t : Fin cfg0.N) :
    (dats m 0 c).flushed 1 t = ((cfg0.win 1).blk t).view.read (Elt Ideal) (GMa (V m c main_arg0)) := by
  show (cfg0.win 1).cut (grid0.coords t) ((dats m 0 c).after 1 t) = _
  rw [after0_1]
  funext j
  obtain ⟨r, k, rfl⟩ : ∃ (r : Fin 64) (k : Fin 7), j = ix2 r k := ⟨j 0, j 1, eq_ix2 j⟩
  rw [View.read_apply, emb1 t r k ⟨64 * t.val + r.val, row_lt t r⟩ rfl]
  refine (hout1 (iblk m c 0 t) r k).trans ?_
  show Cert.Pose.outMa _ k = Cert.Pose.outMa (Cert.Pose.sampleOf (V m c main_arg0) ⟨64 * t.val + r.val, row_lt t r⟩) k
  congr 1
  funext s v
  exact iblk_apply m c t r s v ⟨64 * t.val + r.val, row_lt t r⟩ rfl

include hout2 in
/-- What point t writes back to the second array is block t of GMi of the argument. -/
theorem flushed2_eq (c : Dev nD) (t : Fin cfg0.N) :
    (dats m 0 c).flushed 2 t = ((cfg0.win 2).blk t).view.read (Elt Ideal) (GMi (V m c main_arg0)) := by
  show (cfg0.win 2).cut (grid0.coords t) ((dats m 0 c).after 2 t) = _
  rw [after0_2]
  funext j
  obtain ⟨r, k, rfl⟩ : ∃ (r : Fin 64) (k : Fin 7), j = ix2 r k := ⟨j 0, j 1, eq_ix2 j⟩
  rw [View.read_apply, emb2 t r k ⟨64 * t.val + r.val, row_lt t r⟩ rfl]
  refine (hout2 (iblk m c 0 t) r k).trans ?_
  show Cert.Pose.outMi _ k = Cert.Pose.outMi (Cert.Pose.sampleOf (V m c main_arg0) ⟨64 * t.val + r.val, row_lt t r⟩) k
  congr 1
  funext s v
  exact iblk_apply m c t r s v ⟨64 * t.val + r.val, row_lt t r⟩ rfl

end

/-! ## The blocks tile the arrays -/

/-- An index of the first array is in point t's block iff each coordinate is in the block's range on its axis. -/
theorem mem_blk1 (t : Fin cfg0.N) (i : S4096x7.Idx) :
    i ∈ ((cfg0.win 1).blk t).view.set ↔ ∀ a : Fin 2, win0_1.index t a * S64x7.size a ≤ (i a).val ∧ (i a).val < win0_1.index t a * S64x7.size a + S64x7.size a := by
  show i ∈ ((View.whole main_v0_0).slice (win0_1.rect t)).set ↔ _
  rw [View.set_slice_whole, Rect.mem_set_unit]
  exact Iff.rfl

/-- The same for the second array. -/
theorem mem_blk2 (t : Fin cfg0.N) (i : S4096x7.Idx) :
    i ∈ ((cfg0.win 2).blk t).view.set ↔ ∀ a : Fin 2, win0_2.index t a * S64x7.size a ≤ (i a).val ∧ (i a).val < win0_2.index t a * S64x7.size a + S64x7.size a := by
  show i ∈ ((View.whole main_v0_1).slice (win0_2.rect t)).set ↔ _
  rw [View.set_slice_whole, Rect.mem_set_unit]
  exact Iff.rfl

/-- The point whose blocks hold row n: n / 64. -/
def pointOf (i : S4096x7.Idx) : Fin cfg0.N :=
  ⟨(i 0).val / 64, by
    have hN : cfg0.N = 64 := N_0
    have h0 : (i 0).val < 4096 := (i 0).isLt
    omega⟩

/-- Every index of the first array is in the block of the point n / 64. -/
theorem cover1 (i : S4096x7.Idx) : ∃ t : Fin cfg0.N, (cfg0.win 1).flush t = true ∧ i ∈ ((cfg0.win 1).blk t).view.set := by
  refine ⟨pointOf i, flush0_1 _, ?_⟩
  rw [mem_blk1]
  obtain ⟨-, -, -, -, e0, e1, -⟩ := index_facts (pointOf i)
  have ht : (pointOf i).val = (i 0).val / 64 := rfl
  have h0 : (i 0).val < 4096 := (i 0).isLt
  have h1 : (i 1).val < 7 := (i 1).isLt
  intro a
  match a with
  | ⟨0, _⟩ => show win0_1.index (pointOf i) (0 : Fin 2) * 64 ≤ (i 0).val ∧ (i 0).val < win0_1.index (pointOf i) (0 : Fin 2) * 64 + 64; omega
  | ⟨1, _⟩ => show win0_1.index (pointOf i) (1 : Fin 2) * 7 ≤ (i 1).val ∧ (i 1).val < win0_1.index (pointOf i) (1 : Fin 2) * 7 + 7; omega

/-- Every index of the second array is in the block of the point n / 64. -/
theorem cover2 (i : S4096x7.Idx) : ∃ t : Fin cfg0.N, (cfg0.win 2).flush t = true ∧ i ∈ ((cfg0.win 2).blk t).view.set := by
  refine ⟨pointOf i, flush0_2 _, ?_⟩
  rw [mem_blk2]
  obtain ⟨-, -, -, -, -, -, e0, e1⟩ := index_facts (pointOf i)
  have ht : (pointOf i).val = (i 0).val / 64 := rfl
  have h0 : (i 0).val < 4096 := (i 0).isLt
  have h1 : (i 1).val < 7 := (i 1).isLt
  intro a
  match a with
  | ⟨0, _⟩ => show win0_2.index (pointOf i) (0 : Fin 2) * 64 ≤ (i 0).val ∧ (i 0).val < win0_2.index (pointOf i) (0 : Fin 2) * 64 + 64; omega
  | ⟨1, _⟩ => show win0_2.index (pointOf i) (1 : Fin 2) * 7 ≤ (i 1).val ∧ (i 1).val < win0_2.index (pointOf i) (1 : Fin 2) * 7 + 7; omega

section
variable (hout1 : ∀ (x0 : Vec Ideal S64x1x128x17 .f32) (r : Fin 64) (k : Fin 7),
    Gen.out0_1 x0 (ix2 r k) = Cert.Pose.outMa (fun s v => x0 (ix4 r 0 s v)) k)
variable (hout2 : ∀ (x0 : Vec Ideal S64x1x128x17 .f32) (r : Fin 64) (k : Fin 7),
    Gen.out0_2 x0 (ix2 r k) = Cert.Pose.outMi (fun s v => x0 (ix4 r 0 s v)) k)

include hout1 in
/-- The first array after the region: GMa of the argument. -/
theorem final1 (c : Dev nD) : (dats m 0 c).arrAt 1 cfg0.N = GMa (V m c main_arg0) :=
  (dats m 0 c).arrAt_eq_of_cover 1 (GMa (V m c main_arg0)) (fun t _ => flushed1_eq m hout1 c t) cover1

include hout2 in
/-- The second array after the region: GMi of the argument. -/
theorem final2 (c : Dev nD) : (dats m 0 c).arrAt 2 cfg0.N = GMi (V m c main_arg0) :=
  (dats m 0 c).arrAt_eq_of_cover 2 (GMi (V m c main_arg0)) (fun t _ => flushed2_eq m hout2 c t) cover2

end

/-! ## The two transposes after the region -/

section
variable (hout1 : ∀ (x0 : Vec Ideal S64x1x128x17 .f32) (r : Fin 64) (k : Fin 7),
    Gen.out0_1 x0 (ix2 r k) = Cert.Pose.outMa (fun s v => x0 (ix4 r 0 s v)) k)
variable (hout2 : ∀ (x0 : Vec Ideal S64x1x128x17 .f32) (r : Fin 64) (k : Fin 7),
    Gen.out0_2 x0 (ix2 r k) = Cert.Pose.outMi (fun s v => x0 (ix4 r 0 s v)) k)

include hout1 in
/-- The first result: the first array transposed, at (k, n) the first result of sample n for part k. -/
theorem tail1 (c : Dev nD) :
    Pipeline.afterTail₀ cfgs (dats m) 0 (V0 m) [hostOps1] c main_v1
      = ((fun i => Cert.Pose.outMa (Cert.Pose.sampleOf (V m c main_arg0) (i 1)) (i 0)) : S7x4096.Idx → BitVec 32) := by
  unfold Pipeline.afterTail₀
  show StableHlo.after hostOps1 _ (Proc.devRef .tc main_v1) = _
  after_results
  refine (congrArg (fun y => transpose S7x4096 [1, 0] y transposes_S4096x7_S7x4096_1_0)
    ((Pipeline.withArrays_arr spec0 launch0.win.arr_inj c _ _ 1).trans (final1 m hout1 c))).trans ?_
  funext i
  obtain ⟨k, n, rfl⟩ : ∃ (k : Fin 7) (n : Fin 4096), i = ix2 k n := ⟨i 0, i 1, eq_ix2 i⟩
  exact transpose_ix2_apply (GMa (V m c main_arg0)) transposes_S4096x7_S7x4096_1_0 k n

include hout2 in
/-- The second result: the second array transposed. -/
theorem tail2 (c : Dev nD) :
    Pipeline.afterTail₀ cfgs (dats m) 0 (V0 m) [hostOps1] c main_v2
      = ((fun i => Cert.Pose.outMi (Cert.Pose.sampleOf (V m c main_arg0) (i 1)) (i 0)) : S7x4096.Idx → BitVec 32) := by
  unfold Pipeline.afterTail₀
  show StableHlo.after hostOps1 _ (Proc.devRef .tc main_v2) = _
  after_results
  refine (congrArg (fun y => transpose S7x4096 [1, 0] y transposes_S4096x7_S7x4096_1_0)
    ((Pipeline.withArrays_arr spec0 launch0.win.arr_inj c _ _ 2).trans (final2 m hout2 c))).trans ?_
  funext i
  obtain ⟨k, n, rfl⟩ : ∃ (k : Fin 7) (n : Fin 4096), i = ix2 k n := ⟨i 0, i 1, eq_ix2 i⟩
  exact transpose_ix2_apply (GMi (V m c main_arg0)) transposes_S4096x7_S7x4096_1_0 k n

end

end Steps

/-! ## The run, read -/

/-- Every execution of the program terminates with its two results at (k, n) holding the two results of sample n of
    the argument for part k, and the argument unchanged. -/
theorem run
    (hout1 : ∀ (x0 : Vec Ideal S64x1x128x17 .f32) (r : Fin 64) (k : Fin 7),
      Gen.out0_1 x0 (ix2 r k) = Cert.Pose.outMa (fun s v => x0 (ix4 r 0 s v)) k)
    (hout2 : ∀ (x0 : Vec Ideal S64x1x128x17 .f32) (r : Fin 64) (k : Fin 7),
      Gen.out0_2 x0 (ix2 r k) = Cert.Pose.outMi (fun s v => x0 (ix4 r 0 s v)) k)
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = (fun i => Cert.Pose.outMa (Cert.Pose.sampleOf (m ((c.tc : Thread nD τ).loc main_arg0)) (i 1)) (i 0))
      ∧ r.2.mem ((c.tc : Thread nD τ).loc main_v2) = (fun i => Cert.Pose.outMi (Cert.Pose.sampleOf (m ((c.tc : Thread nD τ).loc main_arg0)) (i 1)) (i 0))
      ∧ r.2.mem ((c.tc : Thread nD τ).loc main_arg0) = m ((c.tc : Thread nD τ).loc main_arg0) :=
  (θ_run defs _ _).mono (fun r h c =>
    ⟨((h c).2 main_v1 (Pipeline.mem_restRefs_of main_v1 (by decide) (by decide))).trans (tail1 m hout1 c),
     ((h c).2 main_v2 (Pipeline.mem_restRefs_of main_v2 (by decide) (by decide))).trans (tail2 m hout2 c),
     ((h c).1 0).trans (((dats m 0 c).arrAt_in 0 rfl _).trans ((A_eq m c 0).trans (V_main_arg0 m c)))⟩)
    (run_main m ρ)

end Cert.KernelIdeal.KRun

end
-- ==== Proof.RefOps.lean ====
/-
  The reference program's operations, in the program's order, as lists: one list for the pose and its two extremes,
  one list for each of the seven groups of columns (the normalised column indices, the gathered columns, their maximum
  and minimum over the last two axes, and the two chains difference / quotient / product / rounding / conversion), and
  one list for the closing tables and selections. Each of the four calls of the selection function is written as the
  two operations of its body over that call's buffers.
-/
import proofs.«130793_j65274912965111_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The eight index tables, then the pose: the middle channel of the input, taken relative to its first column, divided by half the sum of columns 5 and 6 of that difference and shifted by its minimum over the last axis (`%21`); the maximum (`%22`) and the minimum (`%23`) of the pose over the last two axes, and their difference (`%24`). -/
abbrev segPose : List (HloOp τ sig (Elt F)) :=
  [ StableHlo.nullary main_c (fun i => lit0 (S2.rowMajor i)),
    StableHlo.nullary main_c_0 (fun i => lit1 (S5.rowMajor i)),
    StableHlo.nullary main_c_1 (fun i => lit2 (S2.rowMajor i)),
    StableHlo.nullary main_c_2 (fun i => lit3 (S2.rowMajor i)),
    StableHlo.nullary main_c_3 (fun i => lit4 (S2.rowMajor i)),
    StableHlo.nullary main_c_4 (fun i => lit5 (S2.rowMajor i)),
    StableHlo.nullary main_c_5 (fun i => lit6 (S2.rowMajor i)),
    StableHlo.nullary main_c_6 (fun i => lit7 (S2.rowMajor i)),
    StableHlo.unary main_arg0 main_v0 ((extractStridedSlice S4096x1x128x17 ![0, 1, 0, 0] · slices_S4096x3x128x17_S4096x1x128x17_0_1_0_0) : (⟨S4096x3x128x17, .f32⟩ : BufTy).Contents (Elt F) → (⟨S4096x1x128x17, .f32⟩ : BufTy).Contents (Elt F)),
    StableHlo.reshape main_v0 main_v1 rfl shapeCasts_S4096x1x128x17_S4096x128x17,
    StableHlo.unary main_v1 main_v2 ((extractStridedSlice S4096x128x1 ![0, 0, 0] · slices_S4096x128x17_S4096x128x1_0_0_0) : (⟨S4096x128x17, .f32⟩ : BufTy).Contents (Elt F) → (⟨S4096x128x1, .f32⟩ : BufTy).Contents (Elt F)),
    StableHlo.unary main_v2 main_v3 (broadcastInDim S4096x128x17 ![0, 1, 2] bcast_S4096x128x1_S4096x128x17_0_1_2 : (⟨S4096x128x1, .f32⟩ : BufTy).Contents (Elt F) → (⟨S4096x128x17, .f32⟩ : BufTy).Contents (Elt F)),
    StableHlo.binary main_v1 main_v3 main_v4 (subf : (⟨S4096x128x17, .f32⟩ : BufTy).Contents (Elt F) → (⟨S4096x128x17, .f32⟩ : BufTy).Contents (Elt F) → (⟨S4096x128x17, .f32⟩ : BufTy).Contents (Elt F)),
    StableHlo.nullary main_c_7 (constantI S_ 32 0#32),
    StableHlo.unary main_c_7 main_v5 (broadcastInDim S2 ![] bcast_S_S2 : (⟨S_, .i32⟩ : BufTy).Contents (Elt F) → (⟨S2, .i32⟩ : BufTy).Contents (Elt F)),
    StableHlo.binary main_c main_v5 main_v6 (cmpi .slt : (⟨S2, .i32⟩ : BufTy).Contents (Elt F) → (⟨S2, .i32⟩ : BufTy).Contents (Elt F) → (⟨S2, .i1⟩ : BufTy).Contents (Elt F)),
    StableHlo.nullary main_c_8 (constantI S_ 32 17#32),
    StableHlo.unary main_c_8 main_v7 (broadcastInDim S2 ![] bcast_S_S2 : (⟨S_, .i32⟩ : BufTy).Contents (Elt F) → (⟨S2, .i32⟩ : BufTy).Contents (Elt F)),
    StableHlo.binary main_c main_v7 main_v8 (addi : (⟨S2, .i32⟩ : BufTy).Contents (Elt F) → (⟨S2, .i32⟩ : BufTy).Contents (Elt F) → (⟨S2, .i32⟩ : BufTy).Contents (Elt F)),
    StableHlo.ternary main_v6 main_v8 main_c main_v9 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v9 main_v10 (broadcastInDim S2x1 ![0] bcast_S2_S2x1_0 : (⟨S2, .i32⟩ : BufTy).Contents (Elt F) → (⟨S2x1, .i32⟩ : BufTy).Contents (Elt F)),
    StableHlo.binary main_v4 main_v10 main_v11 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst (constant S_ .f32 0x00000000#32),
    StableHlo.binary main_v11 main_cst main_v12 ((fun x v => Host.reduceAdd x v reducesTo_S4096x128x2_S4096x128_d2 h_S_) : (⟨S4096x128x2, .f32⟩ : BufTy).Contents (Elt F) → (⟨S_, .f32⟩ : BufTy).Contents (Elt F) → (⟨S4096x128, .f32⟩ : BufTy).Contents (Elt F)),
    StableHlo.unary main_v12 main_v13 (broadcastInDim S4096x128x1 ![0, 1] bcast_S4096x128_S4096x128x1_0_1 : (⟨S4096x128, .f32⟩ : BufTy).Contents (Elt F) → (⟨S4096x128x1, .f32⟩ : BufTy).Contents (Elt F)),
    StableHlo.nullary main_cst_9 (constant S_ .f32 0x40000000#32),
    StableHlo.unary main_cst_9 main_v14 (broadcastInDim S4096x128x1 ![] bcast_S_S4096x128x1 : (⟨S_, .f32⟩ : BufTy).Contents (Elt F) → (⟨S4096x128x1, .f32⟩ : BufTy).Contents (Elt F)),
    StableHlo.binary main_v13 main_v14 main_v15 (Host.divf : (⟨S4096x128x1, .f32⟩ : BufTy).Contents (Elt F) → (⟨S4096x128x1, .f32⟩ : BufTy).Contents (Elt F) → (⟨S4096x128x1, .f32⟩ : BufTy).Contents (Elt F)),
    StableHlo.unary main_v15 main_v16 (broadcastInDim S4096x128x17 ![0, 1, 2] bcast_S4096x128x1_S4096x128x17_0_1_2 : (⟨S4096x128x1, .f32⟩ : BufTy).Contents (Elt F) → (⟨S4096x128x17, .f32⟩ : BufTy).Contents (Elt F)),
    StableHlo.binary main_v4 main_v16 main_v17 (Host.divf : (⟨S4096x128x17, .f32⟩ : BufTy).Contents (Elt F) → (⟨S4096x128x17, .f32⟩ : BufTy).Contents (Elt F) → (⟨S4096x128x17, .f32⟩ : BufTy).Contents (Elt F)),
    StableHlo.nullary main_cst_10 (constant S_ .f32 0x7F800000#32),
    StableHlo.binary main_v17 main_cst_10 main_v18 ((fun x v => Host.reduce FloatOps.minimumf x v reducesTo_S4096x128x17_S4096x128_d2 h_S_) : (⟨S4096x128x17, .f32⟩ : BufTy).Contents (Elt F) → (⟨S_, .f32⟩ : BufTy).Contents (Elt F) → (⟨S4096x128, .f32⟩ : BufTy).Contents (Elt F)),
    StableHlo.unary main_v18 main_v19 (broadcastInDim S4096x128x1 ![0, 1] bcast_S4096x128_S4096x128x1_0_1 : (⟨S4096x128, .f32⟩ : BufTy).Contents (Elt F) → (⟨S4096x128x1, .f32⟩ : BufTy).Contents (Elt F)),
    StableHlo.unary main_v19 main_v20 (broadcastInDim S4096x128x17 ![0, 1, 2] bcast_S4096x128x1_S4096x128x17_0_1_2 : (⟨S4096x128x1, .f32⟩ : BufTy).Contents (Elt F) → (⟨S4096x128x17, .f32⟩ : BufTy).Contents (Elt F)),
    StableHlo.binary main_v17 main_v20 main_v21 (subf : (⟨S4096x128x17, .f32⟩ : BufTy).Contents (Elt F) → (⟨S4096x128x17, .f32⟩ : BufTy).Contents (Elt F) → (⟨S4096x128x17, .f32⟩ : BufTy).Contents (Elt F)),
    StableHlo.nullary main_cst_11 (constant S_ .f32 0xFF800000#32),
    StableHlo.binary main_v21 main_cst_11 main_v22 ((fun x v => Host.reduce FloatOps.maximumf x v reducesTo_S4096x128x17_S4096_d1_2 h_S_) : (⟨S4096x128x17, .f32⟩ : BufTy).Contents (Elt F) → (⟨S_, .f32⟩ : BufTy).Contents (Elt F) → (⟨S4096, .f32⟩ : BufTy).Contents (Elt F)),
    StableHlo.nullary main_cst_12 (constant S_ .f32 0x7F800000#32),
    StableHlo.binary main_v21 main_cst_12 main_v23 ((fun x v => Host.reduce FloatOps.minimumf x v reducesTo_S4096x128x17_S4096_d1_2 h_S_) : (⟨S4096x128x17, .f32⟩ : BufTy).Contents (Elt F) → (⟨S_, .f32⟩ : BufTy).Contents (Elt F) → (⟨S4096, .f32⟩ : BufTy).Contents (Elt F)),
    StableHlo.binary main_v22 main_v23 main_v24 (subf : (⟨S4096, .f32⟩ : BufTy).Contents (Elt F) → (⟨S4096, .f32⟩ : BufTy).Contents (Elt F) → (⟨S4096, .f32⟩ : BufTy).Contents (Elt F)) ]

/-- Group 0 of columns: its index table normalised into `[0, 17)`, the pose's columns at those indices, their maximum and minimum over the last two axes, and the two bounds `⌈64 · (max − top) / denom⌉` and `⌊64 · (min − top) / denom⌋` as integers. -/
abbrev segPart0 : List (HloOp τ sig (Elt F)) :=
  [ StableHlo.nullary main_c_13 (constantI S_ 32 0#32),
    StableHlo.unary main_c_13 main_v25 (broadcastInDim S5 ![] bcast_S_S5 : (⟨S_, .i32⟩ : BufTy).Contents (Elt F) → (⟨S5, .i32⟩ : BufTy).Contents (Elt F)),
    StableHlo.binary main_c_0 main_v25 main_v26 (cmpi .slt : (⟨S5, .i32⟩ : BufTy).Contents (Elt F) → (⟨S5, .i32⟩ : BufTy).Contents (Elt F) → (⟨S5, .i1⟩ : BufTy).Contents (Elt F)),
    StableHlo.nullary main_c_14 (constantI S_ 32 17#32),
    StableHlo.unary main_c_14 main_v27 (broadcastInDim S5 ![] bcast_S_S5 : (⟨S_, .i32⟩ : BufTy).Contents (Elt F) → (⟨S5, .i32⟩ : BufTy).Contents (Elt F)),
    StableHlo.binary main_c_0 main_v27 main_v28 (addi : (⟨S5, .i32⟩ : BufTy).Contents (Elt F) → (⟨S5, .i32⟩ : BufTy).Contents (Elt F) → (⟨S5, .i32⟩ : BufTy).Contents (Elt F)),
    StableHlo.ternary main_v26 main_v28 main_c_0 main_v29 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v29 main_v30 (broadcastInDim S5x1 ![0] bcast_S5_S5x1_0 : (⟨S5, .i32⟩ : BufTy).Contents (Elt F) → (⟨S5x1, .i32⟩ : BufTy).Contents (Elt F)),
    StableHlo.binary main_v21 main_v30 main_v31 ((fun x i => Host.gather gather_S4096x128x17_S5x1_S4096x128x5_01_2_n_n_2_1_40961281 x i) : (⟨S4096x128x17, .f32⟩ : BufTy).Contents (Elt F) → (⟨S5x1, .i32⟩ : BufTy).Contents (Elt F) → (⟨S4096x128x5, .f32⟩ : BufTy).Contents (Elt F)),
    StableHlo.nullary main_cst_15 (constant S_ .f32 0xFF800000#32),
    StableHlo.binary main_v31 main_cst_15 main_v32 ((fun x v => Host.reduce FloatOps.maximumf x v reducesTo_S4096x128x5_S4096_d1_2 h_S_) : (⟨S4096x128x5, .f32⟩ : BufTy).Contents (Elt F) → (⟨S_, .f32⟩ : BufTy).Contents (Elt F) → (⟨S4096, .f32⟩ : BufTy).Contents (Elt F)),
    StableHlo.nullary main_cst_16 (constant S_ .f32 0x7F800000#32),
    StableHlo.binary main_v31 main_cst_16 main_v33 ((fun x v => Host.reduce FloatOps.minimumf x v reducesTo_S4096x128x5_S4096_d1_2 h_S_) : (⟨S4096x128x5, .f32⟩ : BufTy).Contents (Elt F) → (⟨S_, .f32⟩ : BufTy).Contents (Elt F) → (⟨S4096, .f32⟩ : BufTy).Contents (Elt F)),
    StableHlo.binary main_v32 main_v23 main_v34 (subf : (⟨S4096, .f32⟩ : BufTy).Contents (Elt F) → (⟨S4096, .f32⟩ : BufTy).Contents (Elt F) → (⟨S4096, .f32⟩ : BufTy).Contents (Elt F)),
    StableHlo.binary main_v34 main_v24 main_v35 (Host.divf : (⟨S4096, .f32⟩ : BufTy).Contents (Elt F) → (⟨S4096, .f32⟩ : BufTy).Contents (Elt F) → (⟨S4096, .f32⟩ : BufTy).Contents (Elt F)),
    StableHlo.nullary main_cst_17 (constant S_ .f32 0x42800000#32),
    StableHlo.unary main_cst_17 main_v36 (broadcastInDim S4096 ![] bcast_S_S4096 : (⟨S_, .f32⟩ : BufTy).Contents (Elt F) → (⟨S4096, .f32⟩ : BufTy).Contents (Elt F)),
    StableHlo.binary main_v35 main_v36 main_v37 (mulf : (⟨S4096, .f32⟩ : BufTy).Contents (Elt F) → (⟨S4096, .f32⟩ : BufTy).Contents (Elt F) → (⟨S4096, .f32⟩ : BufTy).Contents (Elt F)),
    StableHlo.unary main_v37 main_v38 (Host.ceil : (⟨S4096, .f32⟩ : BufTy).Contents (Elt F) → (⟨S4096, .f32⟩ : BufTy).Contents (Elt F)),
    StableHlo.unary main_v38 main_v39 (fptosi 32 : (⟨S4096, .f32⟩ : BufTy).Contents (Elt F) → (⟨S4096, .i32⟩ : BufTy).Contents (Elt F)),
    StableHlo.binary main_v33 main_v23 main_v40 (subf : (⟨S4096, .f32⟩ : BufTy).Contents (Elt F) → (⟨S4096, .f32⟩ : BufTy).Contents (Elt F) → (⟨S4096, .f32⟩ : BufTy).Contents (Elt F)),
    StableHlo.binary main_v40 main_v24 main_v41 (Host.divf : (⟨S4096, .f32⟩ : BufTy).Contents (Elt F) → (⟨S4096, .f32⟩ : BufTy).Contents (Elt F) → (⟨S4096, .f32⟩ : BufTy).Contents (Elt F)),
    StableHlo.nullary main_cst_18 (constant S_ .f32 0x42800000#32),
    StableHlo.unary main_cst_18 main_v42 (broadcastInDim S4096 ![] bcast_S_S4096 : (⟨S_, .f32⟩ : BufTy).Contents (Elt F) → (⟨S4096, .f32⟩ : BufTy).Contents (Elt F)),
    StableHlo.binary main_v41 main_v42 main_v43 (mulf : (⟨S4096, .f32⟩ : BufTy).Contents (Elt F) → (⟨S4096, .f32⟩ : BufTy).Contents (Elt F) → (⟨S4096, .f32⟩ : BufTy).Contents (Elt F)),
    StableHlo.unary main_v43 main_v44 (Host.floor : (⟨S4096, .f32⟩ : BufTy).Contents (Elt F) → (⟨S4096, .f32⟩ : BufTy).Contents (Elt F)),
    StableHlo.unary main_v44 main_v45 (fptosi 32 : (⟨S4096, .f32⟩ : BufTy).Contents (Elt F) → (⟨S4096, .i32⟩ : BufTy).Contents (Elt F)) ]

/-- Group 1 of columns: its index table normalised into `[0, 17)`, the pose's columns at those indices, their maximum and minimum over the last two axes, and the two bounds `⌈64 · (max − top) / denom⌉` and `⌊64 · (min − top) / denom⌋` as integers. -/
abbrev segPart1 : List (HloOp τ sig (Elt F)) :=
  [ StableHlo.nullary main_c_19 (constantI S_ 32 0#32),
    StableHlo.unary main_c_19 main_v46 (broadcastInDim S2 ![] bcast_S_S2 : (⟨S_, .i32⟩ : BufTy).Contents (Elt F) → (⟨S2, .i32⟩ : BufTy).Contents (Elt F)),
    StableHlo.binary main_c_1 main_v46 main_v47 (cmpi .slt : (⟨S2, .i32⟩ : BufTy).Contents (Elt F) → (⟨S2, .i32⟩ : BufTy).Contents (Elt F) → (⟨S2, .i1⟩ : BufTy).Contents (Elt F)),
    StableHlo.nullary main_c_20 (constantI S_ 32 17#32),
    StableHlo.unary main_c_20 main_v48 (broadcastInDim S2 ![] bcast_S_S2 : (⟨S_, .i32⟩ : BufTy).Contents (Elt F) → (⟨S2, .i32⟩ : BufTy).Contents (Elt F)),
    StableHlo.binary main_c_1 main_v48 main_v49 (addi : (⟨S2, .i32⟩ : BufTy).Contents (Elt F) → (⟨S2, .i32⟩ : BufTy).Contents (Elt F) → (⟨S2, .i32⟩ : BufTy).Contents (Elt F)),
    StableHlo.ternary main_v47 main_v49 main_c_1 main_v50 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v50 main_v51 (broadcastInDim S2x1 ![0] bcast_S2_S2x1_0 : (⟨S2, .i32⟩ : BufTy).Contents (Elt F) → (⟨S2x1, .i32⟩ : BufTy).Contents (Elt F)),
    StableHlo.binary main_v21 main_v51 main_v52 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_21 (constant S_ .f32 0xFF800000#32),
    StableHlo.binary main_v52 main_cst_21 main_v53 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_22 (constant S_ .f32 0x7F800000#32),
    StableHlo.binary main_v52 main_cst_22 main_v54 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v53 main_v23 main_v55 (subf : (⟨S4096, .f32⟩ : BufTy).Contents (Elt F) → (⟨S4096, .f32⟩ : BufTy).Contents (Elt F) → (⟨S4096, .f32⟩ : BufTy).Contents (Elt F)),
    StableHlo.binary main_v55 main_v24 main_v56 (Host.divf : (⟨S4096, .f32⟩ : BufTy).Contents (Elt F) → (⟨S4096, .f32⟩ : BufTy).Contents (Elt F) → (⟨S4096, .f32⟩ : BufTy).Contents (Elt F)),
    StableHlo.nullary main_cst_23 (constant S_ .f32 0x42800000#32),
    StableHlo.unary main_cst_23 main_v57 (broadcastInDim S4096 ![] bcast_S_S4096 : (⟨S_, .f32⟩ : BufTy).Contents (Elt F) → (⟨S4096, .f32⟩ : BufTy).Contents (Elt F)),
    StableHlo.binary main_v56 main_v57 main_v58 (mulf : (⟨S4096, .f32⟩ : BufTy).Contents (Elt F) → (⟨S4096, .f32⟩ : BufTy).Contents (Elt F) → (⟨S4096, .f32⟩ : BufTy).Contents (Elt F)),
    StableHlo.unary main_v58 main_v59 (Host.ceil : (⟨S4096, .f32⟩ : BufTy).Contents (Elt F) → (⟨S4096, .f32⟩ : BufTy).Contents (Elt F)),
    StableHlo.unary main_v59 main_v60 (fptosi 32 : (⟨S4096, .f32⟩ : BufTy).Contents (Elt F) → (⟨S4096, .i32⟩ : BufTy).Contents (Elt F)),
    StableHlo.binary main_v54 main_v23 main_v61 (subf : (⟨S4096, .f32⟩ : BufTy).Contents (Elt F) → (⟨S4096, .f32⟩ : BufTy).Contents (Elt F) → (⟨S4096, .f32⟩ : BufTy).Contents (Elt F)),
    StableHlo.binary main_v61 main_v24 main_v62 (Host.divf : (⟨S4096, .f32⟩ : BufTy).Contents (Elt F) → (⟨S4096, .f32⟩ : BufTy).Contents (Elt F) → (⟨S4096, .f32⟩ : BufTy).Contents (Elt F)),
    StableHlo.nullary main_cst_24 (constant S_ .f32 0x42800000#32),
    StableHlo.unary main_cst_24 main_v63 (broadcastInDim S4096 ![] bcast_S_S4096 : (⟨S_, .f32⟩ : BufTy).Contents (Elt F) → (⟨S4096, .f32⟩ : BufTy).Contents (Elt F)),
    StableHlo.binary main_v62 main_v63 main_v64 (mulf : (⟨S4096, .f32⟩ : BufTy).Contents (Elt F) → (⟨S4096, .f32⟩ : BufTy).Contents (Elt F) → (⟨S4096, .f32⟩ : BufTy).Contents (Elt F)),
    StableHlo.unary main_v64 main_v65 (Host.floor : (⟨S4096, .f32⟩ : BufTy).Contents (Elt F) → (⟨S4096, .f32⟩ : BufTy).Contents (Elt F)),
    StableHlo.unary main_v65 main_v66 (fptosi 32 : (⟨S4096, .f32⟩ : BufTy).Contents (Elt F) → (⟨S4096, .i32⟩ : BufTy).Contents (Elt F)) ]

/-- Group 2 of columns: its index table normalised into `[0, 17)`, the pose's columns at those indices, their maximum and minimum over the last two axes, and the two bounds `⌈64 · (max − top) / denom⌉` and `⌊64 · (min − top) / denom⌋` as integers. -/
abbrev segPart2 : List (HloOp τ sig (Elt F)) :=
  [ StableHlo.nullary main_c_25 (constantI S_ 32 0#32),
    StableHlo.unary main_c_25 main_v67 (broadcastInDim S2 ![] bcast_S_S2 : (⟨S_, .i32⟩ : BufTy).Contents (Elt F) → (⟨S2, .i32⟩ : BufTy).Contents (Elt F)),
    StableHlo.binary main_c_2 main_v67 main_v68 (cmpi .slt : (⟨S2, .i32⟩ : BufTy).Contents (Elt F) → (⟨S2, .i32⟩ : BufTy).Contents (Elt F) → (⟨S2, .i1⟩ : BufTy).Contents (Elt F)),
    StableHlo.nullary main_c_26 (constantI S_ 32 17#32),
    StableHlo.unary main_c_26 main_v69 (broadcastInDim S2 ![] bcast_S_S2 : (⟨S_, .i32⟩ : BufTy).Contents (Elt F) → (⟨S2, .i32⟩ : BufTy).Contents (Elt F)),
    StableHlo.binary main_c_2 main_v69 main_v70 (addi : (⟨S2, .i32⟩ : BufTy).Contents (Elt F) → (⟨S2, .i32⟩ : BufTy).Contents (Elt F) → (⟨S2, .i32⟩ : BufTy).Contents (Elt F)),
    StableHlo.ternary main_v68 main_v70 main_c_2 main_v71 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v71 main_v72 (broadcastInDim S2x1 ![0] bcast_S2_S2x1_0 : (⟨S2, .i32⟩ : BufTy).Contents (Elt F) → (⟨S2x1, .i32⟩ : BufTy).Contents (Elt F)),
    StableHlo.binary main_v21 main_v72 main_v73 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_27 (constant S_ .f32 0xFF800000#32),
    StableHlo.binary main_v73 main_cst_27 main_v74 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_28 (constant S_ .f32 0x7F800000#32),
    StableHlo.binary main_v73 main_cst_28 main_v75 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v74 main_v23 main_v76 (subf : (⟨S4096, .f32⟩ : BufTy).Contents (Elt F) → (⟨S4096, .f32⟩ : BufTy).Contents (Elt F) → (⟨S4096, .f32⟩ : BufTy).Contents (Elt F)),
    StableHlo.binary main_v76 main_v24 main_v77 (Host.divf : (⟨S4096, .f32⟩ : BufTy).Contents (Elt F) → (⟨S4096, .f32⟩ : BufTy).Contents (Elt F) → (⟨S4096, .f32⟩ : BufTy).Contents (Elt F)),
    StableHlo.nullary main_cst_29 (constant S_ .f32 0x42800000#32),
    StableHlo.unary main_cst_29 main_v78 (broadcastInDim S4096 ![] bcast_S_S4096 : (⟨S_, .f32⟩ : BufTy).Contents (Elt F) → (⟨S4096, .f32⟩ : BufTy).Contents (Elt F)),
    StableHlo.binary main_v77 main_v78 main_v79 (mulf : (⟨S4096, .f32⟩ : BufTy).Contents (Elt F) → (⟨S4096, .f32⟩ : BufTy).Contents (Elt F) → (⟨S4096, .f32⟩ : BufTy).Contents (Elt F)),
    StableHlo.unary main_v79 main_v80 (Host.ceil : (⟨S4096, .f32⟩ : BufTy).Contents (Elt F) → (⟨S4096, .f32⟩ : BufTy).Contents (Elt F)),
    StableHlo.unary main_v80 main_v81 (fptosi 32 : (⟨S4096, .f32⟩ : BufTy).Contents (Elt F) → (⟨S4096, .i32⟩ : BufTy).Contents (Elt F)),
    StableHlo.binary main_v75 main_v23 main_v82 (subf : (⟨S4096, .f32⟩ : BufTy).Contents (Elt F) → (⟨S4096, .f32⟩ : BufTy).Contents (Elt F) → (⟨S4096, .f32⟩ : BufTy).Contents (Elt F)),
    StableHlo.binary main_v82 main_v24 main_v83 (Host.divf : (⟨S4096, .f32⟩ : BufTy).Contents (Elt F) → (⟨S4096, .f32⟩ : BufTy).Contents (Elt F) → (⟨S4096, .f32⟩ : BufTy).Contents (Elt F)),
    StableHlo.nullary main_cst_30 (constant S_ .f32 0x42800000#32),
    StableHlo.unary main_cst_30 main_v84 (broadcastInDim S4096 ![] bcast_S_S4096 : (⟨S_, .f32⟩ : BufTy).Contents (Elt F) → (⟨S4096, .f32⟩ : BufTy).Contents (Elt F)),
    StableHlo.binary main_v83 main_v84 main_v85 (mulf : (⟨S4096, .f32⟩ : BufTy).Contents (Elt F) → (⟨S4096, .f32⟩ : BufTy).Contents (Elt F) → (⟨S4096, .f32⟩ : BufTy).Contents (Elt F)),
    StableHlo.unary main_v85 main_v86 (Host.floor : (⟨S4096, .f32⟩ : BufTy).Contents (Elt F) → (⟨S4096, .f32⟩ : BufTy).Contents (Elt F)),
    StableHlo.unary main_v86 main_v87 (fptosi 32 : (⟨S4096, .f32⟩ : BufTy).Contents (Elt F) → (⟨S4096, .i32⟩ : BufTy).Contents (Elt F)) ]

/-- Group 3 of columns: its index table normalised into `[0, 17)`, the pose's columns at those indices, their maximum and minimum over the last two axes, and the two bounds `⌈64 · (max − top) / denom⌉` and `⌊64 · (min − top) / denom⌋` as integers. -/
abbrev segPart3 : List (HloOp τ sig (Elt F)) :=
  [ StableHlo.nullary main_c_31 (constantI S_ 32 0#32),
    StableHlo.unary main_c_31 main_v88 (broadcastInDim S2 ![] bcast_S_S2 : (⟨S_, .i32⟩ : BufTy).Contents (Elt F) → (⟨S2, .i32⟩ : BufTy).Contents (Elt F)),
    StableHlo.binary main_c_3 main_v88 main_v89 (cmpi .slt : (⟨S2, .i32⟩ : BufTy).Contents (Elt F) → (⟨S2, .i32⟩ : BufTy).Contents (Elt F) → (⟨S2, .i1⟩ : BufTy).Contents (Elt F)),
    StableHlo.nullary main_c_32 (constantI S_ 32 17#32),
    StableHlo.unary main_c_32 main_v90 (broadcastInDim S2 ![] bcast_S_S2 : (⟨S_, .i32⟩ : BufTy).Contents (Elt F) → (⟨S2, .i32⟩ : BufTy).Contents (Elt F)),
    StableHlo.binary main_c_3 main_v90 main_v91 (addi : (⟨S2, .i32⟩ : BufTy).Contents (Elt F) → (⟨S2, .i32⟩ : BufTy).Contents (Elt F) → (⟨S2, .i32⟩ : BufTy).Contents (Elt F)),
    StableHlo.ternary main_v89 main_v91 main_c_3 main_v92 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v92 main_v93 (broadcastInDim S2x1 ![0] bcast_S2_S2x1_0 : (⟨S2, .i32⟩ : BufTy).Contents (Elt F) → (⟨S2x1, .i32⟩ : BufTy).Contents (Elt F)),
    StableHlo.binary main_v21 main_v93 main_v94 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_33 (constant S_ .f32 0xFF800000#32),
    StableHlo.binary main_v94 main_cst_33 main_v95 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_34 (constant S_ .f32 0x7F800000#32),
    StableHlo.binary main_v94 main_cst_34 main_v96 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v95 main_v23 main_v97 (subf : (⟨S4096, .f32⟩ : BufTy).Contents (Elt F) → (⟨S4096, .f32⟩ : BufTy).Contents (Elt F) → (⟨S4096, .f32⟩ : BufTy).Contents (Elt F)),
    StableHlo.binary main_v97 main_v24 main_v98 (Host.divf : (⟨S4096, .f32⟩ : BufTy).Contents (Elt F) → (⟨S4096, .f32⟩ : BufTy).Contents (Elt F) → (⟨S4096, .f32⟩ : BufTy).Contents (Elt F)),
    StableHlo.nullary main_cst_35 (constant S_ .f32 0x42800000#32),
    StableHlo.unary main_cst_35 main_v99 (broadcastInDim S4096 ![] bcast_S_S4096 : (⟨S_, .f32⟩ : BufTy).Contents (Elt F) → (⟨S4096, .f32⟩ : BufTy).Contents (Elt F)),
    StableHlo.binary main_v98 main_v99 main_v100 (mulf : (⟨S4096, .f32⟩ : BufTy).Contents (Elt F) → (⟨S4096, .f32⟩ : BufTy).Contents (Elt F) → (⟨S4096, .f32⟩ : BufTy).Contents (Elt F)),
    StableHlo.unary main_v100 main_v101 (Host.ceil : (⟨S4096, .f32⟩ : BufTy).Contents (Elt F) → (⟨S4096, .f32⟩ : BufTy).Contents (Elt F)),
    StableHlo.unary main_v101 main_v102 (fptosi 32 : (⟨S4096, .f32⟩ : BufTy).Contents (Elt F) → (⟨S4096, .i32⟩ : BufTy).Contents (Elt F)),
    StableHlo.binary main_v96 main_v23 main_v103 (subf : (⟨S4096, .f32⟩ : BufTy).Contents (Elt F) → (⟨S4096, .f32⟩ : BufTy).Contents (Elt F) → (⟨S4096, .f32⟩ : BufTy).Contents (Elt F)),
    StableHlo.binary main_v103 main_v24 main_v104 (Host.divf : (⟨S4096, .f32⟩ : BufTy).Contents (Elt F) → (⟨S4096, .f32⟩ : BufTy).Contents (Elt F) → (⟨S4096, .f32⟩ : BufTy).Contents (Elt F)),
    StableHlo.nullary main_cst_36 (constant S_ .f32 0x42800000#32),
    StableHlo.unary main_cst_36 main_v105 (broadcastInDim S4096 ![] bcast_S_S4096 : (⟨S_, .f32⟩ : BufTy).Contents (Elt F) → (⟨S4096, .f32⟩ : BufTy).Contents (Elt F)),
    StableHlo.binary main_v104 main_v105 main_v106 (mulf : (⟨S4096, .f32⟩ : BufTy).Contents (Elt F) → (⟨S4096, .f32⟩ : BufTy).Contents (Elt F) → (⟨S4096, .f32⟩ : BufTy).Contents (Elt F)),
    StableHlo.unary main_v106 main_v107 (Host.floor : (⟨S4096, .f32⟩ : BufTy).Contents (Elt F) → (⟨S4096, .f32⟩ : BufTy).Contents (Elt F)),
    StableHlo.unary main_v107 main_v108 (fptosi 32 : (⟨S4096, .f32⟩ : BufTy).Contents (Elt F) → (⟨S4096, .i32⟩ : BufTy).Contents (Elt F)) ]

/-- Group 4 of columns: its index table normalised into `[0, 17)`, the pose's columns at those indices, their maximum and minimum over the last two axes, and the two bounds `⌈64 · (max − top) / denom⌉` and `⌊64 · (min − top) / denom⌋` as integers. -/
abbrev segPart4 : List (HloOp τ sig (Elt F)) :=
  [ StableHlo.nullary main_c_37 (constantI S_ 32 0#32),
    StableHlo.unary main_c_37 main_v109 (broadcastInDim S2 ![] bcast_S_S2 : (⟨S_, .i32⟩ : BufTy).Contents (Elt F) → (⟨S2, .i32⟩ : BufTy).Contents (Elt F)),
    StableHlo.binary main_c_4 main_v109 main_v110 (cmpi .slt : (⟨S2, .i32⟩ : BufTy).Contents (Elt F) → (⟨S2, .i32⟩ : BufTy).Contents (Elt F) → (⟨S2, .i1⟩ : BufTy).Contents (Elt F)),
    StableHlo.nullary main_c_38 (constantI S_ 32 17#32),
    StableHlo.unary main_c_38 main_v111 (broadcastInDim S2 ![] bcast_S_S2 : (⟨S_, .i32⟩ : BufTy).Contents (Elt F) → (⟨S2, .i32⟩ : BufTy).Contents (Elt F)),
    StableHlo.binary main_c_4 main_v111 main_v112 (addi : (⟨S2, .i32⟩ : BufTy).Contents (Elt F) → (⟨S2, .i32⟩ : BufTy).Contents (Elt F) → (⟨S2, .i32⟩ : BufTy).Contents (Elt F)),
    StableHlo.ternary main_v110 main_v112 main_c_4 main_v113 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v113 main_v114 (broadcastInDim S2x1 ![0] bcast_S2_S2x1_0 : (⟨S2, .i32⟩ : BufTy).Contents (Elt F) → (⟨S2x1, .i32⟩ : BufTy).Contents (Elt F)),
    StableHlo.binary main_v21 main_v114 main_v115 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_39 (constant S_ .f32 0xFF800000#32),
    StableHlo.binary main_v115 main_cst_39 main_v116 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_40 (constant S_ .f32 0x7F800000#32),
    StableHlo.binary main_v115 main_cst_40 main_v117 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v116 main_v23 main_v118 (subf : (⟨S4096, .f32⟩ : BufTy).Contents (Elt F) → (⟨S4096, .f32⟩ : BufTy).Contents (Elt F) → (⟨S4096, .f32⟩ : BufTy).Contents (Elt F)),
    StableHlo.binary main_v118 main_v24 main_v119 (Host.divf : (⟨S4096, .f32⟩ : BufTy).Contents (Elt F) → (⟨S4096, .f32⟩ : BufTy).Contents (Elt F) → (⟨S4096, .f32⟩ : BufTy).Contents (Elt F)),
    StableHlo.nullary main_cst_41 (constant S_ .f32 0x42800000#32),
    StableHlo.unary main_cst_41 main_v120 (broadcastInDim S4096 ![] bcast_S_S4096 : (⟨S_, .f32⟩ : BufTy).Contents (Elt F) → (⟨S4096, .f32⟩ : BufTy).Contents (Elt F)),
    StableHlo.binary main_v119 main_v120 main_v121 (mulf : (⟨S4096, .f32⟩ : BufTy).Contents (Elt F) → (⟨S4096, .f32⟩ : BufTy).Contents (Elt F) → (⟨S4096, .f32⟩ : BufTy).Contents (Elt F)),
    StableHlo.unary main_v121 main_v122 (Host.ceil : (⟨S4096, .f32⟩ : BufTy).Contents (Elt F) → (⟨S4096, .f32⟩ : BufTy).Contents (Elt F)),
    StableHlo.unary main_v122 main_v123 (fptosi 32 : (⟨S4096, .f32⟩ : BufTy).Contents (Elt F) → (⟨S4096, .i32⟩ : BufTy).Contents (Elt F)),
    StableHlo.binary main_v117 main_v23 main_v124 (subf : (⟨S4096, .f32⟩ : BufTy).Contents (Elt F) → (⟨S4096, .f32⟩ : BufTy).Contents (Elt F) → (⟨S4096, .f32⟩ : BufTy).Contents (Elt F)),
    StableHlo.binary main_v124 main_v24 main_v125 (Host.divf : (⟨S4096, .f32⟩ : BufTy).Contents (Elt F) → (⟨S4096, .f32⟩ : BufTy).Contents (Elt F) → (⟨S4096, .f32⟩ : BufTy).Contents (Elt F)),
    StableHlo.nullary main_cst_42 (constant S_ .f32 0x42800000#32),
    StableHlo.unary main_cst_42 main_v126 (broadcastInDim S4096 ![] bcast_S_S4096 : (⟨S_, .f32⟩ : BufTy).Contents (Elt F) → (⟨S4096, .f32⟩ : BufTy).Contents (Elt F)),
    StableHlo.binary main_v125 main_v126 main_v127 (mulf : (⟨S4096, .f32⟩ : BufTy).Contents (Elt F) → (⟨S4096, .f32⟩ : BufTy).Contents (Elt F) → (⟨S4096, .f32⟩ : BufTy).Contents (Elt F)),
    StableHlo.unary main_v127 main_v128 (Host.floor : (⟨S4096, .f32⟩ : BufTy).Contents (Elt F) → (⟨S4096, .f32⟩ : BufTy).Contents (Elt F)),
    StableHlo.unary main_v128 main_v129 (fptosi 32 : (⟨S4096, .f32⟩ : BufTy).Contents (Elt F) → (⟨S4096, .i32⟩ : BufTy).Contents (Elt F)) ]

/-- Group 5 of columns: its index table normalised into `[0, 17)`, the pose's columns at those indices, their maximum and minimum over the last two axes, and the two bounds `⌈64 · (max − top) / denom⌉` and `⌊64 · (min − top) / denom⌋` as integers. -/
abbrev segPart5 : List (HloOp τ sig (Elt F)) :=
  [ StableHlo.nullary main_c_43 (constantI S_ 32 0#32),
    StableHlo.unary main_c_43 main_v130 (broadcastInDim S2 ![] bcast_S_S2 : (⟨S_, .i32⟩ : BufTy).Contents (Elt F) → (⟨S2, .i32⟩ : BufTy).Contents (Elt F)),
    StableHlo.binary main_c_5 main_v130 main_v131 (cmpi .slt : (⟨S2, .i32⟩ : BufTy).Contents (Elt F) → (⟨S2, .i32⟩ : BufTy).Contents (Elt F) → (⟨S2, .i1⟩ : BufTy).Contents (Elt F)),
    StableHlo.nullary main_c_44 (constantI S_ 32 17#32),
    StableHlo.unary main_c_44 main_v132 (broadcastInDim S2 ![] bcast_S_S2 : (⟨S_, .i32⟩ : BufTy).Contents (Elt F) → (⟨S2, .i32⟩ : BufTy).Contents (Elt F)),
    StableHlo.binary main_c_5 main_v132 main_v133 (addi : (⟨S2, .i32⟩ : BufTy).Contents (Elt F) → (⟨S2, .i32⟩ : BufTy).Contents (Elt F) → (⟨S2, .i32⟩ : BufTy).Contents (Elt F)),
    StableHlo.ternary main_v131 main_v133 main_c_5 main_v134 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v134 main_v135 (broadcastInDim S2x1 ![0] bcast_S2_S2x1_0 : (⟨S2, .i32⟩ : BufTy).Contents (Elt F) → (⟨S2x1, .i32⟩ : BufTy).Contents (Elt F)),
    StableHlo.binary main_v21 main_v135 main_v136 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_45 (constant S_ .f32 0xFF800000#32),
    StableHlo.binary main_v136 main_cst_45 main_v137 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_46 (constant S_ .f32 0x7F800000#32),
    StableHlo.binary main_v136 main_cst_46 main_v138 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v137 main_v23 main_v139 (subf : (⟨S4096, .f32⟩ : BufTy).Contents (Elt F) → (⟨S4096, .f32⟩ : BufTy).Contents (Elt F) → (⟨S4096, .f32⟩ : BufTy).Contents (Elt F)),
    StableHlo.binary main_v139 main_v24 main_v140 (Host.divf : (⟨S4096, .f32⟩ : BufTy).Contents (Elt F) → (⟨S4096, .f32⟩ : BufTy).Contents (Elt F) → (⟨S4096, .f32⟩ : BufTy).Contents (Elt F)),
    StableHlo.nullary main_cst_47 (constant S_ .f32 0x42800000#32),
    StableHlo.unary main_cst_47 main_v141 (broadcastInDim S4096 ![] bcast_S_S4096 : (⟨S_, .f32⟩ : BufTy).Contents (Elt F) → (⟨S4096, .f32⟩ : BufTy).Contents (Elt F)),
    StableHlo.binary main_v140 main_v141 main_v142 (mulf : (⟨S4096, .f32⟩ : BufTy).Contents (Elt F) → (⟨S4096, .f32⟩ : BufTy).Contents (Elt F) → (⟨S4096, .f32⟩ : BufTy).Contents (Elt F)),
    StableHlo.unary main_v142 main_v143 (Host.ceil : (⟨S4096, .f32⟩ : BufTy).Contents (Elt F) → (⟨S4096, .f32⟩ : BufTy).Contents (Elt F)),
    StableHlo.unary main_v143 main_v144 (fptosi 32 : (⟨S4096, .f32⟩ : BufTy).Contents (Elt F) → (⟨S4096, .i32⟩ : BufTy).Contents (Elt F)),
    StableHlo.binary main_v138 main_v23 main_v145 (subf : (⟨S4096, .f32⟩ : BufTy).Contents (Elt F) → (⟨S4096, .f32⟩ : BufTy).Contents (Elt F) → (⟨S4096, .f32⟩ : BufTy).Contents (Elt F)),
    StableHlo.binary main_v145 main_v24 main_v146 (Host.divf : (⟨S4096, .f32⟩ : BufTy).Contents (Elt F) → (⟨S4096, .f32⟩ : BufTy).Contents (Elt F) → (⟨S4096, .f32⟩ : BufTy).Contents (Elt F)),
    StableHlo.nullary main_cst_48 (constant S_ .f32 0x42800000#32),
    StableHlo.unary main_cst_48 main_v147 (broadcastInDim S4096 ![] bcast_S_S4096 : (⟨S_, .f32⟩ : BufTy).Contents (Elt F) → (⟨S4096, .f32⟩ : BufTy).Contents (Elt F)),
    StableHlo.binary main_v146 main_v147 main_v148 (mulf : (⟨S4096, .f32⟩ : BufTy).Contents (Elt F) → (⟨S4096, .f32⟩ : BufTy).Contents (Elt F) → (⟨S4096, .f32⟩ : BufTy).Contents (Elt F)),
    StableHlo.unary main_v148 main_v149 (Host.floor : (⟨S4096, .f32⟩ : BufTy).Contents (Elt F) → (⟨S4096, .f32⟩ : BufTy).Contents (Elt F)),
    StableHlo.unary main_v149 main_v150 (fptosi 32 : (⟨S4096, .f32⟩ : BufTy).Contents (Elt F) → (⟨S4096, .i32⟩ : BufTy).Contents (Elt F)) ]

/-- Group 6 of columns: its index table normalised into `[0, 17)`, the pose's columns at those indices, their maximum and minimum over the last two axes, and the two bounds `⌈64 · (max − top) / denom⌉` and `⌊64 · (min − top) / denom⌋` as integers. -/
abbrev segPart6 : List (HloOp τ sig (Elt F)) :=
  [ StableHlo.nullary main_c_49 (constantI S_ 32 0#32),
    StableHlo.unary main_c_49 main_v151 (broadcastInDim S2 ![] bcast_S_S2 : (⟨S_, .i32⟩ : BufTy).Contents (Elt F) → (⟨S2, .i32⟩ : BufTy).Contents (Elt F)),
    StableHlo.binary main_c_6 main_v151 main_v152 (cmpi .slt : (⟨S2, .i32⟩ : BufTy).Contents (Elt F) → (⟨S2, .i32⟩ : BufTy).Contents (Elt F) → (⟨S2, .i1⟩ : BufTy).Contents (Elt F)),
    StableHlo.nullary main_c_50 (constantI S_ 32 17#32),
    StableHlo.unary main_c_50 main_v153 (broadcastInDim S2 ![] bcast_S_S2 : (⟨S_, .i32⟩ : BufTy).Contents (Elt F) → (⟨S2, .i32⟩ : BufTy).Contents (Elt F)),
    StableHlo.binary main_c_6 main_v153 main_v154 (addi : (⟨S2, .i32⟩ : BufTy).Contents (Elt F) → (⟨S2, .i32⟩ : BufTy).Contents (Elt F) → (⟨S2, .i32⟩ : BufTy).Contents (Elt F)),
    StableHlo.ternary main_v152 main_v154 main_c_6 main_v155 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v155 main_v156 (broadcastInDim S2x1 ![0] bcast_S2_S2x1_0 : (⟨S2, .i32⟩ : BufTy).Contents (Elt F) → (⟨S2x1, .i32⟩ : BufTy).Contents (Elt F)),
    StableHlo.binary main_v21 main_v156 main_v157 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_51 (constant S_ .f32 0xFF800000#32),
    StableHlo.binary main_v157 main_cst_51 main_v158 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_52 (constant S_ .f32 0x7F800000#32),
    StableHlo.binary main_v157 main_cst_52 main_v159 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v158 main_v23 main_v160 (subf : (⟨S4096, .f32⟩ : BufTy).Contents (Elt F) → (⟨S4096, .f32⟩ : BufTy).Contents (Elt F) → (⟨S4096, .f32⟩ : BufTy).Contents (Elt F)),
    StableHlo.binary main_v160 main_v24 main_v161 (Host.divf : (⟨S4096, .f32⟩ : BufTy).Contents (Elt F) → (⟨S4096, .f32⟩ : BufTy).Contents (Elt F) → (⟨S4096, .f32⟩ : BufTy).Contents (Elt F)),
    StableHlo.nullary main_cst_53 (constant S_ .f32 0x42800000#32),
    StableHlo.unary main_cst_53 main_v162 (broadcastInDim S4096 ![] bcast_S_S4096 : (⟨S_, .f32⟩ : BufTy).Contents (Elt F) → (⟨S4096, .f32⟩ : BufTy).Contents (Elt F)),
    StableHlo.binary main_v161 main_v162 main_v163 (mulf : (⟨S4096, .f32⟩ : BufTy).Contents (Elt F) → (⟨S4096, .f32⟩ : BufTy).Contents (Elt F) → (⟨S4096, .f32⟩ : BufTy).Contents (Elt F)),
    StableHlo.unary main_v163 main_v164 (Host.ceil : (⟨S4096, .f32⟩ : BufTy).Contents (Elt F) → (⟨S4096, .f32⟩ : BufTy).Contents (Elt F)),
    StableHlo.unary main_v164 main_v165 (fptosi 32 : (⟨S4096, .f32⟩ : BufTy).Contents (Elt F) → (⟨S4096, .i32⟩ : BufTy).Contents (Elt F)),
    StableHlo.binary main_v159 main_v23 main_v166 (subf : (⟨S4096, .f32⟩ : BufTy).Contents (Elt F) → (⟨S4096, .f32⟩ : BufTy).Contents (Elt F) → (⟨S4096, .f32⟩ : BufTy).Contents (Elt F)),
    StableHlo.binary main_v166 main_v24 main_v167 (Host.divf : (⟨S4096, .f32⟩ : BufTy).Contents (Elt F) → (⟨S4096, .f32⟩ : BufTy).Contents (Elt F) → (⟨S4096, .f32⟩ : BufTy).Contents (Elt F)),
    StableHlo.nullary main_cst_54 (constant S_ .f32 0x42800000#32),
    StableHlo.unary main_cst_54 main_v168 (broadcastInDim S4096 ![] bcast_S_S4096 : (⟨S_, .f32⟩ : BufTy).Contents (Elt F) → (⟨S4096, .f32⟩ : BufTy).Contents (Elt F)),
    StableHlo.binary main_v167 main_v168 main_v169 (mulf : (⟨S4096, .f32⟩ : BufTy).Contents (Elt F) → (⟨S4096, .f32⟩ : BufTy).Contents (Elt F) → (⟨S4096, .f32⟩ : BufTy).Contents (Elt F)),
    StableHlo.unary main_v169 main_v170 (Host.floor : (⟨S4096, .f32⟩ : BufTy).Contents (Elt F) → (⟨S4096, .f32⟩ : BufTy).Contents (Elt F)),
    StableHlo.unary main_v170 main_v171 (fptosi 32 : (⟨S4096, .f32⟩ : BufTy).Contents (Elt F) → (⟨S4096, .i32⟩ : BufTy).Contents (Elt F)) ]

/-- The seven upper bounds and the seven lower bounds laid out as the rows of two `7 × 4096` tables (`%179`, `%187`), the row numbers times nine (`%195`) and the row numbers plus one times nine (`%193`), and the four selections between a table and such a column (`%197`, `%198`, then `%202`, `%203` where the difference exceeds thirty). -/
abbrev segTail : List (HloOp τ sig (Elt F)) :=
  [ StableHlo.unary main_v39 main_v172 (broadcastInDim S1x4096 ![1] bcast_S4096_S1x4096_1 : (⟨S4096, .i32⟩ : BufTy).Contents (Elt F) → (⟨S1x4096, .i32⟩ : BufTy).Contents (Elt F)),
    StableHlo.unary main_v60 main_v173 (broadcastInDim S1x4096 ![1] bcast_S4096_S1x4096_1 : (⟨S4096, .i32⟩ : BufTy).Contents (Elt F) → (⟨S1x4096, .i32⟩ : BufTy).Contents (Elt F)),
    StableHlo.unary main_v81 main_v174 (broadcastInDim S1x4096 ![1] bcast_S4096_S1x4096_1 : (⟨S4096, .i32⟩ : BufTy).Contents (Elt F) → (⟨S1x4096, .i32⟩ : BufTy).Contents (Elt F)),
    StableHlo.unary main_v102 main_v175 (broadcastInDim S1x4096 ![1] bcast_S4096_S1x4096_1 : (⟨S4096, .i32⟩ : BufTy).Contents (Elt F) → (⟨S1x4096, .i32⟩ : BufTy).Contents (Elt F)),
    StableHlo.unary main_v123 main_v176 (broadcastInDim S1x4096 ![1] bcast_S4096_S1x4096_1 : (⟨S4096, .i32⟩ : BufTy).Contents (Elt F) → (⟨S1x4096, .i32⟩ : BufTy).Contents (Elt F)),
    StableHlo.unary main_v144 main_v177 (broadcastInDim S1x4096 ![1] bcast_S4096_S1x4096_1 : (⟨S4096, .i32⟩ : BufTy).Contents (Elt F) → (⟨S1x4096, .i32⟩ : BufTy).Contents (Elt F)),
    StableHlo.unary main_v165 main_v178 (broadcastInDim S1x4096 ![1] bcast_S4096_S1x4096_1 : (⟨S4096, .i32⟩ : BufTy).Contents (Elt F) → (⟨S1x4096, .i32⟩ : BufTy).Contents (Elt F)),
    StableHlo.nary ![main_v172, main_v173, main_v174, main_v175, main_v176, main_v177, main_v178] main_v179 (fun u => concatenate S7x4096 0 [⟨S1x4096, u 0⟩, ⟨S1x4096, u 1⟩, ⟨S1x4096, u 2⟩, ⟨S1x4096, u 3⟩, ⟨S1x4096, u 4⟩, ⟨S1x4096, u 5⟩, ⟨S1x4096, u 6⟩] concatenates_S1x4096_S1x4096_S1x4096_S1x4096_S1x4096_S1x4096_S1x4096_S7x4096_d0),
    StableHlo.unary main_v45 main_v180 (broadcastInDim S1x4096 ![1] bcast_S4096_S1x4096_1 : (⟨S4096, .i32⟩ : BufTy).Contents (Elt F) → (⟨S1x4096, .i32⟩ : BufTy).Contents (Elt F)),
    StableHlo.unary main_v66 main_v181 (broadcastInDim S1x4096 ![1] bcast_S4096_S1x4096_1 : (⟨S4096, .i32⟩ : BufTy).Contents (Elt F) → (⟨S1x4096, .i32⟩ : BufTy).Contents (Elt F)),
    StableHlo.unary main_v87 main_v182 (broadcastInDim S1x4096 ![1] bcast_S4096_S1x4096_1 : (⟨S4096, .i32⟩ : BufTy).Contents (Elt F) → (⟨S1x4096, .i32⟩ : BufTy).Contents (Elt F)),
    StableHlo.unary main_v108 main_v183 (broadcastInDim S1x4096 ![1] bcast_S4096_S1x4096_1 : (⟨S4096, .i32⟩ : BufTy).Contents (Elt F) → (⟨S1x4096, .i32⟩ : BufTy).Contents (Elt F)),
    StableHlo.unary main_v129 main_v184 (broadcastInDim S1x4096 ![1] bcast_S4096_S1x4096_1 : (⟨S4096, .i32⟩ : BufTy).Contents (Elt F) → (⟨S1x4096, .i32⟩ : BufTy).Contents (Elt F)),
    StableHlo.unary main_v150 main_v185 (broadcastInDim S1x4096 ![1] bcast_S4096_S1x4096_1 : (⟨S4096, .i32⟩ : BufTy).Contents (Elt F) → (⟨S1x4096, .i32⟩ : BufTy).Contents (Elt F)),
    StableHlo.unary main_v171 main_v186 (broadcastInDim S1x4096 ![1] bcast_S4096_S1x4096_1 : (⟨S4096, .i32⟩ : BufTy).Contents (Elt F) → (⟨S1x4096, .i32⟩ : BufTy).Contents (Elt F)),
    StableHlo.nary ![main_v180, main_v181, main_v182, main_v183, main_v184, main_v185, main_v186] main_v187 (fun u => concatenate S7x4096 0 [⟨S1x4096, u 0⟩, ⟨S1x4096, u 1⟩, ⟨S1x4096, u 2⟩, ⟨S1x4096, u 3⟩, ⟨S1x4096, u 4⟩, ⟨S1x4096, u 5⟩, ⟨S1x4096, u 6⟩] concatenates_S1x4096_S1x4096_S1x4096_S1x4096_S1x4096_S1x4096_S1x4096_S7x4096_d0),
    StableHlo.nullary main_v188 (iotaInDim S7 32 0),
    StableHlo.unary main_v188 main_v189 (broadcastInDim S7x1 ![0] bcast_S7_S7x1_0 : (⟨S7, .i32⟩ : BufTy).Contents (Elt F) → (⟨S7x1, .i32⟩ : BufTy).Contents (Elt F)),
    StableHlo.nullary main_c_55 (constantI S_ 32 1#32),
    StableHlo.unary main_c_55 main_v190 (broadcastInDim S7x1 ![] bcast_S_S7x1 : (⟨S_, .i32⟩ : BufTy).Contents (Elt F) → (⟨S7x1, .i32⟩ : BufTy).Contents (Elt F)),
    StableHlo.binary main_v189 main_v190 main_v191 (addi : (⟨S7x1, .i32⟩ : BufTy).Contents (Elt F) → (⟨S7x1, .i32⟩ : BufTy).Contents (Elt F) → (⟨S7x1, .i32⟩ : BufTy).Contents (Elt F)),
    StableHlo.nullary main_c_56 (constantI S_ 32 9#32),
    StableHlo.unary main_c_56 main_v192 (broadcastInDim S7x1 ![] bcast_S_S7x1 : (⟨S_, .i32⟩ : BufTy).Contents (Elt F) → (⟨S7x1, .i32⟩ : BufTy).Contents (Elt F)),
    StableHlo.binary main_v191 main_v192 main_v193 (muli : (⟨S7x1, .i32⟩ : BufTy).Contents (Elt F) → (⟨S7x1, .i32⟩ : BufTy).Contents (Elt F) → (⟨S7x1, .i32⟩ : BufTy).Contents (Elt F)),
    StableHlo.nullary main_c_57 (constantI S_ 32 9#32),
    StableHlo.unary main_c_57 main_v194 (broadcastInDim S7x1 ![] bcast_S_S7x1 : (⟨S_, .i32⟩ : BufTy).Contents (Elt F) → (⟨S7x1, .i32⟩ : BufTy).Contents (Elt F)),
    StableHlo.binary main_v189 main_v194 main_v195 (muli : (⟨S7x1, .i32⟩ : BufTy).Contents (Elt F) → (⟨S7x1, .i32⟩ : BufTy).Contents (Elt F) → (⟨S7x1, .i32⟩ : BufTy).Contents (Elt F)),
    StableHlo.binary main_v179 main_v187 main_v196 (cmpi .sle : (⟨S7x4096, .i32⟩ : BufTy).Contents (Elt F) → (⟨S7x4096, .i32⟩ : BufTy).Contents (Elt F) → (⟨S7x4096, .i1⟩ : BufTy).Contents (Elt F)),
    TRef.unary (.of main_v193 : TRef sig ⟨S7x1, .i32⟩) main_call0.v0 (broadcastInDim S7x4096 ![0, 1] bcast_S7x1_S7x4096_0_1),
    TRef.ternary (.of main_v196 : TRef sig ⟨S7x4096, .i1⟩) main_call0.v0 (.of main_v179 : TRef sig ⟨S7x4096, .i32⟩) main_call0.v1 select,
    TRef.unary (.of main_v195 : TRef sig ⟨S7x1, .i32⟩) main_call1.v0 (broadcastInDim S7x4096 ![0, 1] bcast_S7x1_S7x4096_0_1),
    TRef.ternary (.of main_v196 : TRef sig ⟨S7x4096, .i1⟩) main_call1.v0 (.of main_v187 : TRef sig ⟨S7x4096, .i32⟩) main_call1.v1 select,
    StableHlo.binary main_v197 main_v198 main_v199 (subi : (⟨S7x4096, .i32⟩ : BufTy).Contents (Elt F) → (⟨S7x4096, .i32⟩ : BufTy).Contents (Elt F) → (⟨S7x4096, .i32⟩ : BufTy).Contents (Elt F)),
    StableHlo.nullary main_c_58 (constantI S_ 32 30#32),
    StableHlo.unary main_c_58 main_v200 (broadcastInDim S7x4096 ![] bcast_S_S7x4096 : (⟨S_, .i32⟩ : BufTy).Contents (Elt F) → (⟨S7x4096, .i32⟩ : BufTy).Contents (Elt F)),
    StableHlo.binary main_v199 main_v200 main_v201 (cmpi .sgt : (⟨S7x4096, .i32⟩ : BufTy).Contents (Elt F) → (⟨S7x4096, .i32⟩ : BufTy).Contents (Elt F) → (⟨S7x4096, .i1⟩ : BufTy).Contents (Elt F)),
    TRef.unary (.of main_v193 : TRef sig ⟨S7x1, .i32⟩) main_call2.v0 (broadcastInDim S7x4096 ![0, 1] bcast_S7x1_S7x4096_0_1),
    TRef.ternary (.of main_v201 : TRef sig ⟨S7x4096, .i1⟩) main_call2.v0 (.of main_v197 : TRef sig ⟨S7x4096, .i32⟩) main_call2.v1 select,
    TRef.unary (.of main_v195 : TRef sig ⟨S7x1, .i32⟩) main_call3.v0 (broadcastInDim S7x4096 ![0, 1] bcast_S7x1_S7x4096_0_1),
    TRef.ternary (.of main_v201 : TRef sig ⟨S7x4096, .i1⟩) main_call3.v0 (.of main_v198 : TRef sig ⟨S7x4096, .i32⟩) main_call3.v1 select ]

/-- The whole line: the pose, the seven groups, the closing tables. -/
abbrev ops : List (HloOp τ sig (Elt F)) :=
  segPose ++ segPart0 ++ segPart1 ++ segPart2 ++ segPart3 ++ segPart4 ++ segPart5 ++ segPart6 ++ segTail

end Cert.ReferenceIdeal.RefRun

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefRun.lean ====
/-
  The reference program is the straight line of its operations, and its run: from any memory with zero counters every
  weakly fair execution terminates with each buffer at the fold of the operations over its launch contents.

  The program is given as five consecutive windows; each window is the line of its own operations (the last one with
  the four calls of the selection function opened into their two operations), the five lines concatenated are the line
  of all the operations, and that concatenation is the list `ops` cut by meaning instead of by count.
-/
import proofs.«130793_j65274912965111_1_alg».proof.Proof.RefOps
import proofs.«130793_j65274912965111_1_alg».proof.Proof.LibAfter
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 (statements 1 … 60). -/
abbrev win0 : List (HloOp τ sig (Elt F)) :=
  [ StableHlo.nullary main_c (fun i => lit0 (S2.rowMajor i)),
    StableHlo.nullary main_c_0 (fun i => lit1 (S5.rowMajor i)),
    StableHlo.nullary main_c_1 (fun i => lit2 (S2.rowMajor i)),
    StableHlo.nullary main_c_2 (fun i => lit3 (S2.rowMajor i)),
    StableHlo.nullary main_c_3 (fun i => lit4 (S2.rowMajor i)),
    StableHlo.nullary main_c_4 (fun i => lit5 (S2.rowMajor i)),
    StableHlo.nullary main_c_5 (fun i => lit6 (S2.rowMajor i)),
    StableHlo.nullary main_c_6 (fun i => lit7 (S2.rowMajor i)),
    StableHlo.unary main_arg0 main_v0 ((extractStridedSlice S4096x1x128x17 ![0, 1, 0, 0] · slices_S4096x3x128x17_S4096x1x128x17_0_1_0_0) : (⟨S4096x3x128x17, .f32⟩ : BufTy).Contents (Elt F) → (⟨S4096x1x128x17, .f32⟩ : BufTy).Contents (Elt F)),
    StableHlo.reshape main_v0 main_v1 rfl shapeCasts_S4096x1x128x17_S4096x128x17,
    StableHlo.unary main_v1 main_v2 ((extractStridedSlice S4096x128x1 ![0, 0, 0] · slices_S4096x128x17_S4096x128x1_0_0_0) : (⟨S4096x128x17, .f32⟩ : BufTy).Contents (Elt F) → (⟨S4096x128x1, .f32⟩ : BufTy).Contents (Elt F)),
    StableHlo.unary main_v2 main_v3 (broadcastInDim S4096x128x17 ![0, 1, 2] bcast_S4096x128x1_S4096x128x17_0_1_2 : (⟨S4096x128x1, .f32⟩ : BufTy).Contents (Elt F) → (⟨S4096x128x17, .f32⟩ : BufTy).Contents (Elt F)),
    StableHlo.binary main_v1 main_v3 main_v4 (subf : (⟨S4096x128x17, .f32⟩ : BufTy).Contents (Elt F) → (⟨S4096x128x17, .f32⟩ : BufTy).Contents (Elt F) → (⟨S4096x128x17, .f32⟩ : BufTy).Contents (Elt F)),
    StableHlo.nullary main_c_7 (constantI S_ 32 0#32),
    StableHlo.unary main_c_7 main_v5 (broadcastInDim S2 ![] bcast_S_S2 : (⟨S_, .i32⟩ : BufTy).Contents (Elt F) → (⟨S2, .i32⟩ : BufTy).Contents (Elt F)),
    StableHlo.binary main_c main_v5 main_v6 (cmpi .slt : (⟨S2, .i32⟩ : BufTy).Contents (Elt F) → (⟨S2, .i32⟩ : BufTy).Contents (Elt F) → (⟨S2, .i1⟩ : BufTy).Contents (Elt F)),
    StableHlo.nullary main_c_8 (constantI S_ 32 17#32),
    StableHlo.unary main_c_8 main_v7 (broadcastInDim S2 ![] bcast_S_S2 : (⟨S_, .i32⟩ : BufTy).Contents (Elt F) → (⟨S2, .i32⟩ : BufTy).Contents (Elt F)),
    StableHlo.binary main_c main_v7 main_v8 (addi : (⟨S2, .i32⟩ : BufTy).Contents (Elt F) → (⟨S2, .i32⟩ : BufTy).Contents (Elt F) → (⟨S2, .i32⟩ : BufTy).Contents (Elt F)),
    StableHlo.ternary main_v6 main_v8 main_c main_v9 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v9 main_v10 (broadcastInDim S2x1 ![0] bcast_S2_S2x1_0 : (⟨S2, .i32⟩ : BufTy).Contents (Elt F) → (⟨S2x1, .i32⟩ : BufTy).Contents (Elt F)),
    StableHlo.binary main_v4 main_v10 main_v11 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst (constant S_ .f32 0x00000000#32),
    StableHlo.binary main_v11 main_cst main_v12 ((fun x v => Host.reduceAdd x v reducesTo_S4096x128x2_S4096x128_d2 h_S_) : (⟨S4096x128x2, .f32⟩ : BufTy).Contents (Elt F) → (⟨S_, .f32⟩ : BufTy).Contents (Elt F) → (⟨S4096x128, .f32⟩ : BufTy).Contents (Elt F)),
    StableHlo.unary main_v12 main_v13 (broadcastInDim S4096x128x1 ![0, 1] bcast_S4096x128_S4096x128x1_0_1 : (⟨S4096x128, .f32⟩ : BufTy).Contents (Elt F) → (⟨S4096x128x1, .f32⟩ : BufTy).Contents (Elt F)),
    StableHlo.nullary main_cst_9 (constant S_ .f32 0x40000000#32),
    StableHlo.unary main_cst_9 main_v14 (broadcastInDim S4096x128x1 ![] bcast_S_S4096x128x1 : (⟨S_, .f32⟩ : BufTy).Contents (Elt F) → (⟨S4096x128x1, .f32⟩ : BufTy).Contents (Elt F)),
    StableHlo.binary main_v13 main_v14 main_v15 (Host.divf : (⟨S4096x128x1, .f32⟩ : BufTy).Contents (Elt F) → (⟨S4096x128x1, .f32⟩ : BufTy).Contents (Elt F) → (⟨S4096x128x1, .f32⟩ : BufTy).Contents (Elt F)),
    StableHlo.unary main_v15 main_v16 (broadcastInDim S4096x128x17 ![0, 1, 2] bcast_S4096x128x1_S4096x128x17_0_1_2 : (⟨S4096x128x1, .f32⟩ : BufTy).Contents (Elt F) → (⟨S4096x128x17, .f32⟩ : BufTy).Contents (Elt F)),
    StableHlo.binary main_v4 main_v16 main_v17 (Host.divf : (⟨S4096x128x17, .f32⟩ : BufTy).Contents (Elt F) → (⟨S4096x128x17, .f32⟩ : BufTy).Contents (Elt F) → (⟨S4096x128x17, .f32⟩ : BufTy).Contents (Elt F)),
    StableHlo.nullary main_cst_10 (constant S_ .f32 0x7F800000#32),
    StableHlo.binary main_v17 main_cst_10 main_v18 ((fun x v => Host.reduce FloatOps.minimumf x v reducesTo_S4096x128x17_S4096x128_d2 h_S_) : (⟨S4096x128x17, .f32⟩ : BufTy).Contents (Elt F) → (⟨S_, .f32⟩ : BufTy).Contents (Elt F) → (⟨S4096x128, .f32⟩ : BufTy).Contents (Elt F)),
    StableHlo.unary main_v18 main_v19 (broadcastInDim S4096x128x1 ![0, 1] bcast_S4096x128_S4096x128x1_0_1 : (⟨S4096x128, .f32⟩ : BufTy).Contents (Elt F) → (⟨S4096x128x1, .f32⟩ : BufTy).Contents (Elt F)),
    StableHlo.unary main_v19 main_v20 (broadcastInDim S4096x128x17 ![0, 1, 2] bcast_S4096x128x1_S4096x128x17_0_1_2 : (⟨S4096x128x1, .f32⟩ : BufTy).Contents (Elt F) → (⟨S4096x128x17, .f32⟩ : BufTy).Contents (Elt F)),
    StableHlo.binary main_v17 main_v20 main_v21 (subf : (⟨S4096x128x17, .f32⟩ : BufTy).Contents (Elt F) → (⟨S4096x128x17, .f32⟩ : BufTy).Contents (Elt F) → (⟨S4096x128x17, .f32⟩ : BufTy).Contents (Elt F)),
    StableHlo.nullary main_cst_11 (constant S_ .f32 0xFF800000#32),
    StableHlo.binary main_v21 main_cst_11 main_v22 ((fun x v => Host.reduce FloatOps.maximumf x v reducesTo_S4096x128x17_S4096_d1_2 h_S_) : (⟨S4096x128x17, .f32⟩ : BufTy).Contents (Elt F) → (⟨S_, .f32⟩ : BufTy).Contents (Elt F) → (⟨S4096, .f32⟩ : BufTy).Contents (Elt F)),
    StableHlo.nullary main_cst_12 (constant S_ .f32 0x7F800000#32),
    StableHlo.binary main_v21 main_cst_12 main_v23 ((fun x v => Host.reduce FloatOps.minimumf x v reducesTo_S4096x128x17_S4096_d1_2 h_S_) : (⟨S4096x128x17, .f32⟩ : BufTy).Contents (Elt F) → (⟨S_, .f32⟩ : BufTy).Contents (Elt F) → (⟨S4096, .f32⟩ : BufTy).Contents (Elt F)),
    StableHlo.binary main_v22 main_v23 main_v24 (subf : (⟨S4096, .f32⟩ : BufTy).Contents (Elt F) → (⟨S4096, .f32⟩ : BufTy).Contents (Elt F) → (⟨S4096, .f32⟩ : BufTy).Contents (Elt F)),
    StableHlo.nullary main_c_13 (constantI S_ 32 0#32),
    StableHlo.unary main_c_13 main_v25 (broadcastInDim S5 ![] bcast_S_S5 : (⟨S_, .i32⟩ : BufTy).Contents (Elt F) → (⟨S5, .i32⟩ : BufTy).Contents (Elt F)),
    StableHlo.binary main_c_0 main_v25 main_v26 (cmpi .slt : (⟨S5, .i32⟩ : BufTy).Contents (Elt F) → (⟨S5, .i32⟩ : BufTy).Contents (Elt F) → (⟨S5, .i1⟩ : BufTy).Contents (Elt F)),
    StableHlo.nullary main_c_14 (constantI S_ 32 17#32),
    StableHlo.unary main_c_14 main_v27 (broadcastInDim S5 ![] bcast_S_S5 : (⟨S_, .i32⟩ : BufTy).Contents (Elt F) → (⟨S5, .i32⟩ : BufTy).Contents (Elt F)),
    StableHlo.binary main_c_0 main_v27 main_v28 (addi : (⟨S5, .i32⟩ : BufTy).Contents (Elt F) → (⟨S5, .i32⟩ : BufTy).Contents (Elt F) → (⟨S5, .i32⟩ : BufTy).Contents (Elt F)),
    StableHlo.ternary main_v26 main_v28 main_c_0 main_v29 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v29 main_v30 (broadcastInDim S5x1 ![0] bcast_S5_S5x1_0 : (⟨S5, .i32⟩ : BufTy).Contents (Elt F) → (⟨S5x1, .i32⟩ : BufTy).Contents (Elt F)),
    StableHlo.binary main_v21 main_v30 main_v31 ((fun x i => Host.gather gather_S4096x128x17_S5x1_S4096x128x5_01_2_n_n_2_1_40961281 x i) : (⟨S4096x128x17, .f32⟩ : BufTy).Contents (Elt F) → (⟨S5x1, .i32⟩ : BufTy).Contents (Elt F) → (⟨S4096x128x5, .f32⟩ : BufTy).Contents (Elt F)),
    StableHlo.nullary main_cst_15 (constant S_ .f32 0xFF800000#32),
    StableHlo.binary main_v31 main_cst_15 main_v32 ((fun x v => Host.reduce FloatOps.maximumf x v reducesTo_S4096x128x5_S4096_d1_2 h_S_) : (⟨S4096x128x5, .f32⟩ : BufTy).Contents (Elt F) → (⟨S_, .f32⟩ : BufTy).Contents (Elt F) → (⟨S4096, .f32⟩ : BufTy).Contents (Elt F)),
    StableHlo.nullary main_cst_16 (constant S_ .f32 0x7F800000#32),
    StableHlo.binary main_v31 main_cst_16 main_v33 ((fun x v => Host.reduce FloatOps.minimumf x v reducesTo_S4096x128x5_S4096_d1_2 h_S_) : (⟨S4096x128x5, .f32⟩ : BufTy).Contents (Elt F) → (⟨S_, .f32⟩ : BufTy).Contents (Elt F) → (⟨S4096, .f32⟩ : BufTy).Contents (Elt F)),
    StableHlo.binary main_v32 main_v23 main_v34 (subf : (⟨S4096, .f32⟩ : BufTy).Contents (Elt F) → (⟨S4096, .f32⟩ : BufTy).Contents (Elt F) → (⟨S4096, .f32⟩ : BufTy).Contents (Elt F)),
    StableHlo.binary main_v34 main_v24 main_v35 (Host.divf : (⟨S4096, .f32⟩ : BufTy).Contents (Elt F) → (⟨S4096, .f32⟩ : BufTy).Contents (Elt F) → (⟨S4096, .f32⟩ : BufTy).Contents (Elt F)),
    StableHlo.nullary main_cst_17 (constant S_ .f32 0x42800000#32),
    StableHlo.unary main_cst_17 main_v36 (broadcastInDim S4096 ![] bcast_S_S4096 : (⟨S_, .f32⟩ : BufTy).Contents (Elt F) → (⟨S4096, .f32⟩ : BufTy).Contents (Elt F)),
    StableHlo.binary main_v35 main_v36 main_v37 (mulf : (⟨S4096, .f32⟩ : BufTy).Contents (Elt F) → (⟨S4096, .f32⟩ : BufTy).Contents (Elt F) → (⟨S4096, .f32⟩ : BufTy).Contents (Elt F)),
    StableHlo.unary main_v37 main_v38 (Host.ceil : (⟨S4096, .f32⟩ : BufTy).Contents (Elt F) → (⟨S4096, .f32⟩ : BufTy).Contents (Elt F)),
    StableHlo.unary main_v38 main_v39 (fptosi 32 : (⟨S4096, .f32⟩ : BufTy).Contents (Elt F) → (⟨S4096, .i32⟩ : BufTy).Contents (Elt F)) ]

/-- The operations of window 1 (statements 61 … 120). -/
abbrev win1 : List (HloOp τ sig (Elt F)) :=
  [ StableHlo.binary main_v33 main_v23 main_v40 (subf : (⟨S4096, .f32⟩ : BufTy).Contents (Elt F) → (⟨S4096, .f32⟩ : BufTy).Contents (Elt F) → (⟨S4096, .f32⟩ : BufTy).Contents (Elt F)),
    StableHlo.binary main_v40 main_v24 main_v41 (Host.divf : (⟨S4096, .f32⟩ : BufTy).Contents (Elt F) → (⟨S4096, .f32⟩ : BufTy).Contents (Elt F) → (⟨S4096, .f32⟩ : BufTy).Contents (Elt F)),
    StableHlo.nullary main_cst_18 (constant S_ .f32 0x42800000#32),
    StableHlo.unary main_cst_18 main_v42 (broadcastInDim S4096 ![] bcast_S_S4096 : (⟨S_, .f32⟩ : BufTy).Contents (Elt F) → (⟨S4096, .f32⟩ : BufTy).Contents (Elt F)),
    StableHlo.binary main_v41 main_v42 main_v43 (mulf : (⟨S4096, .f32⟩ : BufTy).Contents (Elt F) → (⟨S4096, .f32⟩ : BufTy).Contents (Elt F) → (⟨S4096, .f32⟩ : BufTy).Contents (Elt F)),
    StableHlo.unary main_v43 main_v44 (Host.floor : (⟨S4096, .f32⟩ : BufTy).Contents (Elt F) → (⟨S4096, .f32⟩ : BufTy).Contents (Elt F)),
    StableHlo.unary main_v44 main_v45 (fptosi 32 : (⟨S4096, .f32⟩ : BufTy).Contents (Elt F) → (⟨S4096, .i32⟩ : BufTy).Contents (Elt F)),
    StableHlo.nullary main_c_19 (constantI S_ 32 0#32),
    StableHlo.unary main_c_19 main_v46 (broadcastInDim S2 ![] bcast_S_S2 : (⟨S_, .i32⟩ : BufTy).Contents (Elt F) → (⟨S2, .i32⟩ : BufTy).Contents (Elt F)),
    StableHlo.binary main_c_1 main_v46 main_v47 (cmpi .slt : (⟨S2, .i32⟩ : BufTy).Contents (Elt F) → (⟨S2, .i32⟩ : BufTy).Contents (Elt F) → (⟨S2, .i1⟩ : BufTy).Contents (Elt F)),
    StableHlo.nullary main_c_20 (constantI S_ 32 17#32),
    StableHlo.unary main_c_20 main_v48 (broadcastInDim S2 ![] bcast_S_S2 : (⟨S_, .i32⟩ : BufTy).Contents (Elt F) → (⟨S2, .i32⟩ : BufTy).Contents (Elt F)),
    StableHlo.binary main_c_1 main_v48 main_v49 (addi : (⟨S2, .i32⟩ : BufTy).Contents (Elt F) → (⟨S2, .i32⟩ : BufTy).Contents (Elt F) → (⟨S2, .i32⟩ : BufTy).Contents (Elt F)),
    StableHlo.ternary main_v47 main_v49 main_c_1 main_v50 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v50 main_v51 (broadcastInDim S2x1 ![0] bcast_S2_S2x1_0 : (⟨S2, .i32⟩ : BufTy).Contents (Elt F) → (⟨S2x1, .i32⟩ : BufTy).Contents (Elt F)),
    StableHlo.binary main_v21 main_v51 main_v52 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_21 (constant S_ .f32 0xFF800000#32),
    StableHlo.binary main_v52 main_cst_21 main_v53 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_22 (constant S_ .f32 0x7F800000#32),
    StableHlo.binary main_v52 main_cst_22 main_v54 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v53 main_v23 main_v55 (subf : (⟨S4096, .f32⟩ : BufTy).Contents (Elt F) → (⟨S4096, .f32⟩ : BufTy).Contents (Elt F) → (⟨S4096, .f32⟩ : BufTy).Contents (Elt F)),
    StableHlo.binary main_v55 main_v24 main_v56 (Host.divf : (⟨S4096, .f32⟩ : BufTy).Contents (Elt F) → (⟨S4096, .f32⟩ : BufTy).Contents (Elt F) → (⟨S4096, .f32⟩ : BufTy).Contents (Elt F)),
    StableHlo.nullary main_cst_23 (constant S_ .f32 0x42800000#32),
    StableHlo.unary main_cst_23 main_v57 (broadcastInDim S4096 ![] bcast_S_S4096 : (⟨S_, .f32⟩ : BufTy).Contents (Elt F) → (⟨S4096, .f32⟩ : BufTy).Contents (Elt F)),
    StableHlo.binary main_v56 main_v57 main_v58 (mulf : (⟨S4096, .f32⟩ : BufTy).Contents (Elt F) → (⟨S4096, .f32⟩ : BufTy).Contents (Elt F) → (⟨S4096, .f32⟩ : BufTy).Contents (Elt F)),
    StableHlo.unary main_v58 main_v59 (Host.ceil : (⟨S4096, .f32⟩ : BufTy).Contents (Elt F) → (⟨S4096, .f32⟩ : BufTy).Contents (Elt F)),
    StableHlo.unary main_v59 main_v60 (fptosi 32 : (⟨S4096, .f32⟩ : BufTy).Contents (Elt F) → (⟨S4096, .i32⟩ : BufTy).Contents (Elt F)),
    StableHlo.binary main_v54 main_v23 main_v61 (subf : (⟨S4096, .f32⟩ : BufTy).Contents (Elt F) → (⟨S4096, .f32⟩ : BufTy).Contents (Elt F) → (⟨S4096, .f32⟩ : BufTy).Contents (Elt F)),
    StableHlo.binary main_v61 main_v24 main_v62 (Host.divf : (⟨S4096, .f32⟩ : BufTy).Contents (Elt F) → (⟨S4096, .f32⟩ : BufTy).Contents (Elt F) → (⟨S4096, .f32⟩ : BufTy).Contents (Elt F)),
    StableHlo.nullary main_cst_24 (constant S_ .f32 0x42800000#32),
    StableHlo.unary main_cst_24 main_v63 (broadcastInDim S4096 ![] bcast_S_S4096 : (⟨S_, .f32⟩ : BufTy).Contents (Elt F) → (⟨S4096, .f32⟩ : BufTy).Contents (Elt F)),
    StableHlo.binary main_v62 main_v63 main_v64 (mulf : (⟨S4096, .f32⟩ : BufTy).Contents (Elt F) → (⟨S4096, .f32⟩ : BufTy).Contents (Elt F) → (⟨S4096, .f32⟩ : BufTy).Contents (Elt F)),
    StableHlo.unary main_v64 main_v65 (Host.floor : (⟨S4096, .f32⟩ : BufTy).Contents (Elt F) → (⟨S4096, .f32⟩ : BufTy).Contents (Elt F)),
    StableHlo.unary main_v65 main_v66 (fptosi 32 : (⟨S4096, .f32⟩ : BufTy).Contents (Elt F) → (⟨S4096, .i32⟩ : BufTy).Contents (Elt F)),
    StableHlo.nullary main_c_25 (constantI S_ 32 0#32),
    StableHlo.unary main_c_25 main_v67 (broadcastInDim S2 ![] bcast_S_S2 : (⟨S_, .i32⟩ : BufTy).Contents (Elt F) → (⟨S2, .i32⟩ : BufTy).Contents (Elt F)),
    StableHlo.binary main_c_2 main_v67 main_v68 (cmpi .slt : (⟨S2, .i32⟩ : BufTy).Contents (Elt F) → (⟨S2, .i32⟩ : BufTy).Contents (Elt F) → (⟨S2, .i1⟩ : BufTy).Contents (Elt F)),
    StableHlo.nullary main_c_26 (constantI S_ 32 17#32),
    StableHlo.unary main_c_26 main_v69 (broadcastInDim S2 ![] bcast_S_S2 : (⟨S_, .i32⟩ : BufTy).Contents (Elt F) → (⟨S2, .i32⟩ : BufTy).Contents (Elt F)),
    StableHlo.binary main_c_2 main_v69 main_v70 (addi : (⟨S2, .i32⟩ : BufTy).Contents (Elt F) → (⟨S2, .i32⟩ : BufTy).Contents (Elt F) → (⟨S2, .i32⟩ : BufTy).Contents (Elt F)),
    StableHlo.ternary main_v68 main_v70 main_c_2 main_v71 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v71 main_v72 (broadcastInDim S2x1 ![0] bcast_S2_S2x1_0 : (⟨S2, .i32⟩ : BufTy).Contents (Elt F) → (⟨S2x1, .i32⟩ : BufTy).Contents (Elt F)),
    StableHlo.binary main_v21 main_v72 main_v73 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_27 (constant S_ .f32 0xFF800000#32),
    StableHlo.binary main_v73 main_cst_27 main_v74 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_28 (constant S_ .f32 0x7F800000#32),
    StableHlo.binary main_v73 main_cst_28 main_v75 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v74 main_v23 main_v76 (subf : (⟨S4096, .f32⟩ : BufTy).Contents (Elt F) → (⟨S4096, .f32⟩ : BufTy).Contents (Elt F) → (⟨S4096, .f32⟩ : BufTy).Contents (Elt F)),
    StableHlo.binary main_v76 main_v24 main_v77 (Host.divf : (⟨S4096, .f32⟩ : BufTy).Contents (Elt F) → (⟨S4096, .f32⟩ : BufTy).Contents (Elt F) → (⟨S4096, .f32⟩ : BufTy).Contents (Elt F)),
    StableHlo.nullary main_cst_29 (constant S_ .f32 0x42800000#32),
    StableHlo.unary main_cst_29 main_v78 (broadcastInDim S4096 ![] bcast_S_S4096 : (⟨S_, .f32⟩ : BufTy).Contents (Elt F) → (⟨S4096, .f32⟩ : BufTy).Contents (Elt F)),
    StableHlo.binary main_v77 main_v78 main_v79 (mulf : (⟨S4096, .f32⟩ : BufTy).Contents (Elt F) → (⟨S4096, .f32⟩ : BufTy).Contents (Elt F) → (⟨S4096, .f32⟩ : BufTy).Contents (Elt F)),
    StableHlo.unary main_v79 main_v80 (Host.ceil : (⟨S4096, .f32⟩ : BufTy).Contents (Elt F) → (⟨S4096, .f32⟩ : BufTy).Contents (Elt F)),
    StableHlo.unary main_v80 main_v81 (fptosi 32 : (⟨S4096, .f32⟩ : BufTy).Contents (Elt F) → (⟨S4096, .i32⟩ : BufTy).Contents (Elt F)),
    StableHlo.binary main_v75 main_v23 main_v82 (subf : (⟨S4096, .f32⟩ : BufTy).Contents (Elt F) → (⟨S4096, .f32⟩ : BufTy).Contents (Elt F) → (⟨S4096, .f32⟩ : BufTy).Contents (Elt F)),
    StableHlo.binary main_v82 main_v24 main_v83 (Host.divf : (⟨S4096, .f32⟩ : BufTy).Contents (Elt F) → (⟨S4096, .f32⟩ : BufTy).Contents (Elt F) → (⟨S4096, .f32⟩ : BufTy).Contents (Elt F)),
    StableHlo.nullary main_cst_30 (constant S_ .f32 0x42800000#32),
    StableHlo.unary main_cst_30 main_v84 (broadcastInDim S4096 ![] bcast_S_S4096 : (⟨S_, .f32⟩ : BufTy).Contents (Elt F) → (⟨S4096, .f32⟩ : BufTy).Contents (Elt F)),
    StableHlo.binary main_v83 main_v84 main_v85 (mulf : (⟨S4096, .f32⟩ : BufTy).Contents (Elt F) → (⟨S4096, .f32⟩ : BufTy).Contents (Elt F) → (⟨S4096, .f32⟩ : BufTy).Contents (Elt F)),
    StableHlo.unary main_v85 main_v86 (Host.floor : (⟨S4096, .f32⟩ : BufTy).Contents (Elt F) → (⟨S4096, .f32⟩ : BufTy).Contents (Elt F)) ]

/-- The operations of window 2 (statements 121 … 180). -/
abbrev win2 : List (HloOp τ sig (Elt F)) :=
  [ StableHlo.unary main_v86 main_v87 (fptosi 32 : (⟨S4096, .f32⟩ : BufTy).Contents (Elt F) → (⟨S4096, .i32⟩ : BufTy).Contents (Elt F)),
    StableHlo.nullary main_c_31 (constantI S_ 32 0#32),
    StableHlo.unary main_c_31 main_v88 (broadcastInDim S2 ![] bcast_S_S2 : (⟨S_, .i32⟩ : BufTy).Contents (Elt F) → (⟨S2, .i32⟩ : BufTy).Contents (Elt F)),
    StableHlo.binary main_c_3 main_v88 main_v89 (cmpi .slt : (⟨S2, .i32⟩ : BufTy).Contents (Elt F) → (⟨S2, .i32⟩ : BufTy).Contents (Elt F) → (⟨S2, .i1⟩ : BufTy).Contents (Elt F)),
    StableHlo.nullary main_c_32 (constantI S_ 32 17#32),
    StableHlo.unary main_c_32 main_v90 (broadcastInDim S2 ![] bcast_S_S2 : (⟨S_, .i32⟩ : BufTy).Contents (Elt F) → (⟨S2, .i32⟩ : BufTy).Contents (Elt F)),
    StableHlo.binary main_c_3 main_v90 main_v91 (addi : (⟨S2, .i32⟩ : BufTy).Contents (Elt F) → (⟨S2, .i32⟩ : BufTy).Contents (Elt F) → (⟨S2, .i32⟩ : BufTy).Contents (Elt F)),
    StableHlo.ternary main_v89 main_v91 main_c_3 main_v92 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v92 main_v93 (broadcastInDim S2x1 ![0] bcast_S2_S2x1_0 : (⟨S2, .i32⟩ : BufTy).Contents (Elt F) → (⟨S2x1, .i32⟩ : BufTy).Contents (Elt F)),
    StableHlo.binary main_v21 main_v93 main_v94 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_33 (constant S_ .f32 0xFF800000#32),
    StableHlo.binary main_v94 main_cst_33 main_v95 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_34 (constant S_ .f32 0x7F800000#32),
    StableHlo.binary main_v94 main_cst_34 main_v96 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v95 main_v23 main_v97 (subf : (⟨S4096, .f32⟩ : BufTy).Contents (Elt F) → (⟨S4096, .f32⟩ : BufTy).Contents (Elt F) → (⟨S4096, .f32⟩ : BufTy).Contents (Elt F)),
    StableHlo.binary main_v97 main_v24 main_v98 (Host.divf : (⟨S4096, .f32⟩ : BufTy).Contents (Elt F) → (⟨S4096, .f32⟩ : BufTy).Contents (Elt F) → (⟨S4096, .f32⟩ : BufTy).Contents (Elt F)),
    StableHlo.nullary main_cst_35 (constant S_ .f32 0x42800000#32),
    StableHlo.unary main_cst_35 main_v99 (broadcastInDim S4096 ![] bcast_S_S4096 : (⟨S_, .f32⟩ : BufTy).Contents (Elt F) → (⟨S4096, .f32⟩ : BufTy).Contents (Elt F)),
    StableHlo.binary main_v98 main_v99 main_v100 (mulf : (⟨S4096, .f32⟩ : BufTy).Contents (Elt F) → (⟨S4096, .f32⟩ : BufTy).Contents (Elt F) → (⟨S4096, .f32⟩ : BufTy).Contents (Elt F)),
    StableHlo.unary main_v100 main_v101 (Host.ceil : (⟨S4096, .f32⟩ : BufTy).Contents (Elt F) → (⟨S4096, .f32⟩ : BufTy).Contents (Elt F)),
    StableHlo.unary main_v101 main_v102 (fptosi 32 : (⟨S4096, .f32⟩ : BufTy).Contents (Elt F) → (⟨S4096, .i32⟩ : BufTy).Contents (Elt F)),
    StableHlo.binary main_v96 main_v23 main_v103 (subf : (⟨S4096, .f32⟩ : BufTy).Contents (Elt F) → (⟨S4096, .f32⟩ : BufTy).Contents (Elt F) → (⟨S4096, .f32⟩ : BufTy).Contents (Elt F)),
    StableHlo.binary main_v103 main_v24 main_v104 (Host.divf : (⟨S4096, .f32⟩ : BufTy).Contents (Elt F) → (⟨S4096, .f32⟩ : BufTy).Contents (Elt F) → (⟨S4096, .f32⟩ : BufTy).Contents (Elt F)),
    StableHlo.nullary main_cst_36 (constant S_ .f32 0x42800000#32),
    StableHlo.unary main_cst_36 main_v105 (broadcastInDim S4096 ![] bcast_S_S4096 : (⟨S_, .f32⟩ : BufTy).Contents (Elt F) → (⟨S4096, .f32⟩ : BufTy).Contents (Elt F)),
    StableHlo.binary main_v104 main_v105 main_v106 (mulf : (⟨S4096, .f32⟩ : BufTy).Contents (Elt F) → (⟨S4096, .f32⟩ : BufTy).Contents (Elt F) → (⟨S4096, .f32⟩ : BufTy).Contents (Elt F)),
    StableHlo.unary main_v106 main_v107 (Host.floor : (⟨S4096, .f32⟩ : BufTy).Contents (Elt F) → (⟨S4096, .f32⟩ : BufTy).Contents (Elt F)),
    StableHlo.unary main_v107 main_v108 (fptosi 32 : (⟨S4096, .f32⟩ : BufTy).Contents (Elt F) → (⟨S4096, .i32⟩ : BufTy).Contents (Elt F)),
    StableHlo.nullary main_c_37 (constantI S_ 32 0#32),
    StableHlo.unary main_c_37 main_v109 (broadcastInDim S2 ![] bcast_S_S2 : (⟨S_, .i32⟩ : BufTy).Contents (Elt F) → (⟨S2, .i32⟩ : BufTy).Contents (Elt F)),
    StableHlo.binary main_c_4 main_v109 main_v110 (cmpi .slt : (⟨S2, .i32⟩ : BufTy).Contents (Elt F) → (⟨S2, .i32⟩ : BufTy).Contents (Elt F) → (⟨S2, .i1⟩ : BufTy).Contents (Elt F)),
    StableHlo.nullary main_c_38 (constantI S_ 32 17#32),
    StableHlo.unary main_c_38 main_v111 (broadcastInDim S2 ![] bcast_S_S2 : (⟨S_, .i32⟩ : BufTy).Contents (Elt F) → (⟨S2, .i32⟩ : BufTy).Contents (Elt F)),
    StableHlo.binary main_c_4 main_v111 main_v112 (addi : (⟨S2, .i32⟩ : BufTy).Contents (Elt F) → (⟨S2, .i32⟩ : BufTy).Contents (Elt F) → (⟨S2, .i32⟩ : BufTy).Contents (Elt F)),
    StableHlo.ternary main_v110 main_v112 main_c_4 main_v113 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v113 main_v114 (broadcastInDim S2x1 ![0] bcast_S2_S2x1_0 : (⟨S2, .i32⟩ : BufTy).Contents (Elt F) → (⟨S2x1, .i32⟩ : BufTy).Contents (Elt F)),
    StableHlo.binary main_v21 main_v114 main_v115 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_39 (constant S_ .f32 0xFF800000#32),
    StableHlo.binary main_v115 main_cst_39 main_v116 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_40 (constant S_ .f32 0x7F800000#32),
    StableHlo.binary main_v115 main_cst_40 main_v117 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v116 main_v23 main_v118 (subf : (⟨S4096, .f32⟩ : BufTy).Contents (Elt F) → (⟨S4096, .f32⟩ : BufTy).Contents (Elt F) → (⟨S4096, .f32⟩ : BufTy).Contents (Elt F)),
    StableHlo.binary main_v118 main_v24 main_v119 (Host.divf : (⟨S4096, .f32⟩ : BufTy).Contents (Elt F) → (⟨S4096, .f32⟩ : BufTy).Contents (Elt F) → (⟨S4096, .f32⟩ : BufTy).Contents (Elt F)),
    StableHlo.nullary main_cst_41 (constant S_ .f32 0x42800000#32),
    StableHlo.unary main_cst_41 main_v120 (broadcastInDim S4096 ![] bcast_S_S4096 : (⟨S_, .f32⟩ : BufTy).Contents (Elt F) → (⟨S4096, .f32⟩ : BufTy).Contents (Elt F)),
    StableHlo.binary main_v119 main_v120 main_v121 (mulf : (⟨S4096, .f32⟩ : BufTy).Contents (Elt F) → (⟨S4096, .f32⟩ : BufTy).Contents (Elt F) → (⟨S4096, .f32⟩ : BufTy).Contents (Elt F)),
    StableHlo.unary main_v121 main_v122 (Host.ceil : (⟨S4096, .f32⟩ : BufTy).Contents (Elt F) → (⟨S4096, .f32⟩ : BufTy).Contents (Elt F)),
    StableHlo.unary main_v122 main_v123 (fptosi 32 : (⟨S4096, .f32⟩ : BufTy).Contents (Elt F) → (⟨S4096, .i32⟩ : BufTy).Contents (Elt F)),
    StableHlo.binary main_v117 main_v23 main_v124 (subf : (⟨S4096, .f32⟩ : BufTy).Contents (Elt F) → (⟨S4096, .f32⟩ : BufTy).Contents (Elt F) → (⟨S4096, .f32⟩ : BufTy).Contents (Elt F)),
    StableHlo.binary main_v124 main_v24 main_v125 (Host.divf : (⟨S4096, .f32⟩ : BufTy).Contents (Elt F) → (⟨S4096, .f32⟩ : BufTy).Contents (Elt F) → (⟨S4096, .f32⟩ : BufTy).Contents (Elt F)),
    StableHlo.nullary main_cst_42 (constant S_ .f32 0x42800000#32),
    StableHlo.unary main_cst_42 main_v126 (broadcastInDim S4096 ![] bcast_S_S4096 : (⟨S_, .f32⟩ : BufTy).Contents (Elt F) → (⟨S4096, .f32⟩ : BufTy).Contents (Elt F)),
    StableHlo.binary main_v125 main_v126 main_v127 (mulf : (⟨S4096, .f32⟩ : BufTy).Contents (Elt F) → (⟨S4096, .f32⟩ : BufTy).Contents (Elt F) → (⟨S4096, .f32⟩ : BufTy).Contents (Elt F)),
    StableHlo.unary main_v127 main_v128 (Host.floor : (⟨S4096, .f32⟩ : BufTy).Contents (Elt F) → (⟨S4096, .f32⟩ : BufTy).Contents (Elt F)),
    StableHlo.unary main_v128 main_v129 (fptosi 32 : (⟨S4096, .f32⟩ : BufTy).Contents (Elt F) → (⟨S4096, .i32⟩ : BufTy).Contents (Elt F)),
    StableHlo.nullary main_c_43 (constantI S_ 32 0#32),
    StableHlo.unary main_c_43 main_v130 (broadcastInDim S2 ![] bcast_S_S2 : (⟨S_, .i32⟩ : BufTy).Contents (Elt F) → (⟨S2, .i32⟩ : BufTy).Contents (Elt F)),
    StableHlo.binary main_c_5 main_v130 main_v131 (cmpi .slt : (⟨S2, .i32⟩ : BufTy).Contents (Elt F) → (⟨S2, .i32⟩ : BufTy).Contents (Elt F) → (⟨S2, .i1⟩ : BufTy).Contents (Elt F)),
    StableHlo.nullary main_c_44 (constantI S_ 32 17#32),
    StableHlo.unary main_c_44 main_v132 (broadcastInDim S2 ![] bcast_S_S2 : (⟨S_, .i32⟩ : BufTy).Contents (Elt F) → (⟨S2, .i32⟩ : BufTy).Contents (Elt F)) ]

/-- The operations of window 3 (statements 181 … 240). -/
abbrev win3 : List (HloOp τ sig (Elt F)) :=
  [ StableHlo.binary main_c_5 main_v132 main_v133 (addi : (⟨S2, .i32⟩ : BufTy).Contents (Elt F) → (⟨S2, .i32⟩ : BufTy).Contents (Elt F) → (⟨S2, .i32⟩ : BufTy).Contents (Elt F)),
    StableHlo.ternary main_v131 main_v133 main_c_5 main_v134 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v134 main_v135 (broadcastInDim S2x1 ![0] bcast_S2_S2x1_0 : (⟨S2, .i32⟩ : BufTy).Contents (Elt F) → (⟨S2x1, .i32⟩ : BufTy).Contents (Elt F)),
    StableHlo.binary main_v21 main_v135 main_v136 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_45 (constant S_ .f32 0xFF800000#32),
    StableHlo.binary main_v136 main_cst_45 main_v137 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_46 (constant S_ .f32 0x7F800000#32),
    StableHlo.binary main_v136 main_cst_46 main_v138 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v137 main_v23 main_v139 (subf : (⟨S4096, .f32⟩ : BufTy).Contents (Elt F) → (⟨S4096, .f32⟩ : BufTy).Contents (Elt F) → (⟨S4096, .f32⟩ : BufTy).Contents (Elt F)),
    StableHlo.binary main_v139 main_v24 main_v140 (Host.divf : (⟨S4096, .f32⟩ : BufTy).Contents (Elt F) → (⟨S4096, .f32⟩ : BufTy).Contents (Elt F) → (⟨S4096, .f32⟩ : BufTy).Contents (Elt F)),
    StableHlo.nullary main_cst_47 (constant S_ .f32 0x42800000#32),
    StableHlo.unary main_cst_47 main_v141 (broadcastInDim S4096 ![] bcast_S_S4096 : (⟨S_, .f32⟩ : BufTy).Contents (Elt F) → (⟨S4096, .f32⟩ : BufTy).Contents (Elt F)),
    StableHlo.binary main_v140 main_v141 main_v142 (mulf : (⟨S4096, .f32⟩ : BufTy).Contents (Elt F) → (⟨S4096, .f32⟩ : BufTy).Contents (Elt F) → (⟨S4096, .f32⟩ : BufTy).Contents (Elt F)),
    StableHlo.unary main_v142 main_v143 (Host.ceil : (⟨S4096, .f32⟩ : BufTy).Contents (Elt F) → (⟨S4096, .f32⟩ : BufTy).Contents (Elt F)),
    StableHlo.unary main_v143 main_v144 (fptosi 32 : (⟨S4096, .f32⟩ : BufTy).Contents (Elt F) → (⟨S4096, .i32⟩ : BufTy).Contents (Elt F)),
    StableHlo.binary main_v138 main_v23 main_v145 (subf : (⟨S4096, .f32⟩ : BufTy).Contents (Elt F) → (⟨S4096, .f32⟩ : BufTy).Contents (Elt F) → (⟨S4096, .f32⟩ : BufTy).Contents (Elt F)),
    StableHlo.binary main_v145 main_v24 main_v146 (Host.divf : (⟨S4096, .f32⟩ : BufTy).Contents (Elt F) → (⟨S4096, .f32⟩ : BufTy).Contents (Elt F) → (⟨S4096, .f32⟩ : BufTy).Contents (Elt F)),
    StableHlo.nullary main_cst_48 (constant S_ .f32 0x42800000#32),
    StableHlo.unary main_cst_48 main_v147 (broadcastInDim S4096 ![] bcast_S_S4096 : (⟨S_, .f32⟩ : BufTy).Contents (Elt F) → (⟨S4096, .f32⟩ : BufTy).Contents (Elt F)),
    StableHlo.binary main_v146 main_v147 main_v148 (mulf : (⟨S4096, .f32⟩ : BufTy).Contents (Elt F) → (⟨S4096, .f32⟩ : BufTy).Contents (Elt F) → (⟨S4096, .f32⟩ : BufTy).Contents (Elt F)),
    StableHlo.unary main_v148 main_v149 (Host.floor : (⟨S4096, .f32⟩ : BufTy).Contents (Elt F) → (⟨S4096, .f32⟩ : BufTy).Contents (Elt F)),
    StableHlo.unary main_v149 main_v150 (fptosi 32 : (⟨S4096, .f32⟩ : BufTy).Contents (Elt F) → (⟨S4096, .i32⟩ : BufTy).Contents (Elt F)),
    StableHlo.nullary main_c_49 (constantI S_ 32 0#32),
    StableHlo.unary main_c_49 main_v151 (broadcastInDim S2 ![] bcast_S_S2 : (⟨S_, .i32⟩ : BufTy).Contents (Elt F) → (⟨S2, .i32⟩ : BufTy).Contents (Elt F)),
    StableHlo.binary main_c_6 main_v151 main_v152 (cmpi .slt : (⟨S2, .i32⟩ : BufTy).Contents (Elt F) → (⟨S2, .i32⟩ : BufTy).Contents (Elt F) → (⟨S2, .i1⟩ : BufTy).Contents (Elt F)),
    StableHlo.nullary main_c_50 (constantI S_ 32 17#32),
    StableHlo.unary main_c_50 main_v153 (broadcastInDim S2 ![] bcast_S_S2 : (⟨S_, .i32⟩ : BufTy).Contents (Elt F) → (⟨S2, .i32⟩ : BufTy).Contents (Elt F)),
    StableHlo.binary main_c_6 main_v153 main_v154 (addi : (⟨S2, .i32⟩ : BufTy).Contents (Elt F) → (⟨S2, .i32⟩ : BufTy).Contents (Elt F) → (⟨S2, .i32⟩ : BufTy).Contents (Elt F)),
    StableHlo.ternary main_v152 main_v154 main_c_6 main_v155 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v155 main_v156 (broadcastInDim S2x1 ![0] bcast_S2_S2x1_0 : (⟨S2, .i32⟩ : BufTy).Contents (Elt F) → (⟨S2x1, .i32⟩ : BufTy).Contents (Elt F)),
    StableHlo.binary main_v21 main_v156 main_v157 ((fun x i => Host.gather gather_S4096x128x17_S2x1_S4096x128x2_01_2_n_n_2_1_40961281 x i) : (⟨S4096x128x17, .f32⟩ : BufTy).Contents (Elt F) → (⟨S2x1, .i32⟩ : BufTy).Contents (Elt F) → (⟨S4096x128x2, .f32⟩ : BufTy).Contents (Elt F)),
    StableHlo.nullary main_cst_51 (constant S_ .f32 0xFF800000#32),
    StableHlo.binary main_v157 main_cst_51 main_v158 ((fun x v => Host.reduce FloatOps.maximumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.nullary main_cst_52 (constant S_ .f32 0x7F800000#32),
    StableHlo.binary main_v157 main_cst_52 main_v159 ((fun x v => Host.reduce FloatOps.minimumf x v reducesTo_S4096x128x2_S4096_d1_2 h_S_) : (⟨S4096x128x2, .f32⟩ : BufTy).Contents (Elt F) → (⟨S_, .f32⟩ : BufTy).Contents (Elt F) → (⟨S4096, .f32⟩ : BufTy).Contents (Elt F)),
    StableHlo.binary main_v158 main_v23 main_v160 (subf : (⟨S4096, .f32⟩ : BufTy).Contents (Elt F) → (⟨S4096, .f32⟩ : BufTy).Contents (Elt F) → (⟨S4096, .f32⟩ : BufTy).Contents (Elt F)),
    StableHlo.binary main_v160 main_v24 main_v161 (Host.divf : (⟨S4096, .f32⟩ : BufTy).Contents (Elt F) → (⟨S4096, .f32⟩ : BufTy).Contents (Elt F) → (⟨S4096, .f32⟩ : BufTy).Contents (Elt F)),
    StableHlo.nullary main_cst_53 (constant S_ .f32 0x42800000#32),
    StableHlo.unary main_cst_53 main_v162 (broadcastInDim S4096 ![] bcast_S_S4096 : (⟨S_, .f32⟩ : BufTy).Contents (Elt F) → (⟨S4096, .f32⟩ : BufTy).Contents (Elt F)),
    StableHlo.binary main_v161 main_v162 main_v163 (mulf : (⟨S4096, .f32⟩ : BufTy).Contents (Elt F) → (⟨S4096, .f32⟩ : BufTy).Contents (Elt F) → (⟨S4096, .f32⟩ : BufTy).Contents (Elt F)),
    StableHlo.unary main_v163 main_v164 (Host.ceil : (⟨S4096, .f32⟩ : BufTy).Contents (Elt F) → (⟨S4096, .f32⟩ : BufTy).Contents (Elt F)),
    StableHlo.unary main_v164 main_v165 (fptosi 32 : (⟨S4096, .f32⟩ : BufTy).Contents (Elt F) → (⟨S4096, .i32⟩ : BufTy).Contents (Elt F)),
    StableHlo.binary main_v159 main_v23 main_v166 (subf : (⟨S4096, .f32⟩ : BufTy).Contents (Elt F) → (⟨S4096, .f32⟩ : BufTy).Contents (Elt F) → (⟨S4096, .f32⟩ : BufTy).Contents (Elt F)),
    StableHlo.binary main_v166 main_v24 main_v167 (Host.divf : (⟨S4096, .f32⟩ : BufTy).Contents (Elt F) → (⟨S4096, .f32⟩ : BufTy).Contents (Elt F) → (⟨S4096, .f32⟩ : BufTy).Contents (Elt F)),
    StableHlo.nullary main_cst_54 (constant S_ .f32 0x42800000#32),
    StableHlo.unary main_cst_54 main_v168 (broadcastInDim S4096 ![] bcast_S_S4096 : (⟨S_, .f32⟩ : BufTy).Contents (Elt F) → (⟨S4096, .f32⟩ : BufTy).Contents (Elt F)),
    StableHlo.binary main_v167 main_v168 main_v169 (mulf : (⟨S4096, .f32⟩ : BufTy).Contents (Elt F) → (⟨S4096, .f32⟩ : BufTy).Contents (Elt F) → (⟨S4096, .f32⟩ : BufTy).Contents (Elt F)),
    StableHlo.unary main_v169 main_v170 (Host.floor : (⟨S4096, .f32⟩ : BufTy).Contents (Elt F) → (⟨S4096, .f32⟩ : BufTy).Contents (Elt F)),
    StableHlo.unary main_v170 main_v171 (fptosi 32 : (⟨S4096, .f32⟩ : BufTy).Contents (Elt F) → (⟨S4096, .i32⟩ : BufTy).Contents (Elt F)),
    StableHlo.unary main_v39 main_v172 (broadcastInDim S1x4096 ![1] bcast_S4096_S1x4096_1 : (⟨S4096, .i32⟩ : BufTy).Contents (Elt F) → (⟨S1x4096, .i32⟩ : BufTy).Contents (Elt F)),
    StableHlo.unary main_v60 main_v173 (broadcastInDim S1x4096 ![1] bcast_S4096_S1x4096_1 : (⟨S4096, .i32⟩ : BufTy).Contents (Elt F) → (⟨S1x4096, .i32⟩ : BufTy).Contents (Elt F)),
    StableHlo.unary main_v81 main_v174 (broadcastInDim S1x4096 ![1] bcast_S4096_S1x4096_1 : (⟨S4096, .i32⟩ : BufTy).Contents (Elt F) → (⟨S1x4096, .i32⟩ : BufTy).Contents (Elt F)),
    StableHlo.unary main_v102 main_v175 (broadcastInDim S1x4096 ![1] bcast_S4096_S1x4096_1 : (⟨S4096, .i32⟩ : BufTy).Contents (Elt F) → (⟨S1x4096, .i32⟩ : BufTy).Contents (Elt F)),
    StableHlo.unary main_v123 main_v176 (broadcastInDim S1x4096 ![1] bcast_S4096_S1x4096_1 : (⟨S4096, .i32⟩ : BufTy).Contents (Elt F) → (⟨S1x4096, .i32⟩ : BufTy).Contents (Elt F)),
    StableHlo.unary main_v144 main_v177 (broadcastInDim S1x4096 ![1] bcast_S4096_S1x4096_1 : (⟨S4096, .i32⟩ : BufTy).Contents (Elt F) → (⟨S1x4096, .i32⟩ : BufTy).Contents (Elt F)),
    StableHlo.unary main_v165 main_v178 (broadcastInDim S1x4096 ![1] bcast_S4096_S1x4096_1 : (⟨S4096, .i32⟩ : BufTy).Contents (Elt F) → (⟨S1x4096, .i32⟩ : BufTy).Contents (Elt F)),
    StableHlo.nary ![main_v172, main_v173, main_v174, main_v175, main_v176, main_v177, main_v178] main_v179 (fun u => concatenate S7x4096 0 [⟨S1x4096, u 0⟩, ⟨S1x4096, u 1⟩, ⟨S1x4096, u 2⟩, ⟨S1x4096, u 3⟩, ⟨S1x4096, u 4⟩, ⟨S1x4096, u 5⟩, ⟨S1x4096, u 6⟩] concatenates_S1x4096_S1x4096_S1x4096_S1x4096_S1x4096_S1x4096_S1x4096_S7x4096_d0),
    StableHlo.unary main_v45 main_v180 (broadcastInDim S1x4096 ![1] bcast_S4096_S1x4096_1 : (⟨S4096, .i32⟩ : BufTy).Contents (Elt F) → (⟨S1x4096, .i32⟩ : BufTy).Contents (Elt F)),
    StableHlo.unary main_v66 main_v181 (broadcastInDim S1x4096 ![1] bcast_S4096_S1x4096_1 : (⟨S4096, .i32⟩ : BufTy).Contents (Elt F) → (⟨S1x4096, .i32⟩ : BufTy).Contents (Elt F)),
    StableHlo.unary main_v87 main_v182 (broadcastInDim S1x4096 ![1] bcast_S4096_S1x4096_1 : (⟨S4096, .i32⟩ : BufTy).Contents (Elt F) → (⟨S1x4096, .i32⟩ : BufTy).Contents (Elt F)) ]

/-- The operations of window 4 (statements 241 … 266). -/
abbrev win4 : List (HloOp τ sig (Elt F)) :=
  [ StableHlo.unary main_v108 main_v183 (broadcastInDim S1x4096 ![1] bcast_S4096_S1x4096_1 : (⟨S4096, .i32⟩ : BufTy).Contents (Elt F) → (⟨S1x4096, .i32⟩ : BufTy).Contents (Elt F)),
    StableHlo.unary main_v129 main_v184 (broadcastInDim S1x4096 ![1] bcast_S4096_S1x4096_1 : (⟨S4096, .i32⟩ : BufTy).Contents (Elt F) → (⟨S1x4096, .i32⟩ : BufTy).Contents (Elt F)),
    StableHlo.unary main_v150 main_v185 (broadcastInDim S1x4096 ![1] bcast_S4096_S1x4096_1 : (⟨S4096, .i32⟩ : BufTy).Contents (Elt F) → (⟨S1x4096, .i32⟩ : BufTy).Contents (Elt F)),
    StableHlo.unary main_v171 main_v186 (broadcastInDim S1x4096 ![1] bcast_S4096_S1x4096_1 : (⟨S4096, .i32⟩ : BufTy).Contents (Elt F) → (⟨S1x4096, .i32⟩ : BufTy).Contents (Elt F)),
    StableHlo.nary ![main_v180, main_v181, main_v182, main_v183, main_v184, main_v185, main_v186] main_v187 (fun u => concatenate S7x4096 0 [⟨S1x4096, u 0⟩, ⟨S1x4096, u 1⟩, ⟨S1x4096, u 2⟩, ⟨S1x4096, u 3⟩, ⟨S1x4096, u 4⟩, ⟨S1x4096, u 5⟩, ⟨S1x4096, u 6⟩] concatenates_S1x4096_S1x4096_S1x4096_S1x4096_S1x4096_S1x4096_S1x4096_S7x4096_d0),
    StableHlo.nullary main_v188 (iotaInDim S7 32 0),
    StableHlo.unary main_v188 main_v189 (broadcastInDim S7x1 ![0] bcast_S7_S7x1_0 : (⟨S7, .i32⟩ : BufTy).Contents (Elt F) → (⟨S7x1, .i32⟩ : BufTy).Contents (Elt F)),
    StableHlo.nullary main_c_55 (constantI S_ 32 1#32),
    StableHlo.unary main_c_55 main_v190 (broadcastInDim S7x1 ![] bcast_S_S7x1 : (⟨S_, .i32⟩ : BufTy).Contents (Elt F) → (⟨S7x1, .i32⟩ : BufTy).Contents (Elt F)),
    StableHlo.binary main_v189 main_v190 main_v191 (addi : (⟨S7x1, .i32⟩ : BufTy).Contents (Elt F) → (⟨S7x1, .i32⟩ : BufTy).Contents (Elt F) → (⟨S7x1, .i32⟩ : BufTy).Contents (Elt F)),
    StableHlo.nullary main_c_56 (constantI S_ 32 9#32),
    StableHlo.unary main_c_56 main_v192 (broadcastInDim S7x1 ![] bcast_S_S7x1 : (⟨S_, .i32⟩ : BufTy).Contents (Elt F) → (⟨S7x1, .i32⟩ : BufTy).Contents (Elt F)),
    StableHlo.binary main_v191 main_v192 main_v193 (muli : (⟨S7x1, .i32⟩ : BufTy).Contents (Elt F) → (⟨S7x1, .i32⟩ : BufTy).Contents (Elt F) → (⟨S7x1, .i32⟩ : BufTy).Contents (Elt F)),
    StableHlo.nullary main_c_57 (constantI S_ 32 9#32),
    StableHlo.unary main_c_57 main_v194 (broadcastInDim S7x1 ![] bcast_S_S7x1 : (⟨S_, .i32⟩ : BufTy).Contents (Elt F) → (⟨S7x1, .i32⟩ : BufTy).Contents (Elt F)),
    StableHlo.binary main_v189 main_v194 main_v195 (muli : (⟨S7x1, .i32⟩ : BufTy).Contents (Elt F) → (⟨S7x1, .i32⟩ : BufTy).Contents (Elt F) → (⟨S7x1, .i32⟩ : BufTy).Contents (Elt F)),
    StableHlo.binary main_v179 main_v187 main_v196 (cmpi .sle : (⟨S7x4096, .i32⟩ : BufTy).Contents (Elt F) → (⟨S7x4096, .i32⟩ : BufTy).Contents (Elt F) → (⟨S7x4096, .i1⟩ : BufTy).Contents (Elt F)),
    TRef.unary (.of main_v193 : TRef sig ⟨S7x1, .i32⟩) main_call0.v0 (broadcastInDim S7x4096 ![0, 1] bcast_S7x1_S7x4096_0_1),
    TRef.ternary (.of main_v196 : TRef sig ⟨S7x4096, .i1⟩) main_call0.v0 (.of main_v179 : TRef sig ⟨S7x4096, .i32⟩) main_call0.v1 select,
    TRef.unary (.of main_v195 : TRef sig ⟨S7x1, .i32⟩) main_call1.v0 (broadcastInDim S7x4096 ![0, 1] bcast_S7x1_S7x4096_0_1),
    TRef.ternary (.of main_v196 : TRef sig ⟨S7x4096, .i1⟩) main_call1.v0 (.of main_v187 : TRef sig ⟨S7x4096, .i32⟩) main_call1.v1 select,
    StableHlo.binary main_v197 main_v198 main_v199 (subi : (⟨S7x4096, .i32⟩ : BufTy).Contents (Elt F) → (⟨S7x4096, .i32⟩ : BufTy).Contents (Elt F) → (⟨S7x4096, .i32⟩ : BufTy).Contents (Elt F)),
    StableHlo.nullary main_c_58 (constantI S_ 32 30#32),
    StableHlo.unary main_c_58 main_v200 (broadcastInDim S7x4096 ![] bcast_S_S7x4096 : (⟨S_, .i32⟩ : BufTy).Contents (Elt F) → (⟨S7x4096, .i32⟩ : BufTy).Contents (Elt F)),
    StableHlo.binary main_v199 main_v200 main_v201 (cmpi .sgt : (⟨S7x4096, .i32⟩ : BufTy).Contents (Elt F) → (⟨S7x4096, .i32⟩ : BufTy).Contents (Elt F) → (⟨S7x4096, .i1⟩ : BufTy).Contents (Elt F)),
    TRef.unary (.of main_v193 : TRef sig ⟨S7x1, .i32⟩) main_call2.v0 (broadcastInDim S7x4096 ![0, 1] bcast_S7x1_S7x4096_0_1),
    TRef.ternary (.of main_v201 : TRef sig ⟨S7x4096, .i1⟩) main_call2.v0 (.of main_v197 : TRef sig ⟨S7x4096, .i32⟩) main_call2.v1 select,
    TRef.unary (.of main_v195 : TRef sig ⟨S7x1, .i32⟩) main_call3.v0 (broadcastInDim S7x4096 ![0, 1] bcast_S7x1_S7x4096_0_1),
    TRef.ternary (.of main_v201 : TRef sig ⟨S7x4096, .i1⟩) main_call3.v0 (.of main_v198 : TRef sig ⟨S7x4096, .i32⟩) main_call3.v1 select ]

/-! ## The program is the line of its operations -/

theorem win0_eq (c : Dev nD) : main_part0 (F := F) c = seq win0 := by chain_rfl
theorem win1_eq (c : Dev nD) : main_part1 (F := F) c = seq win1 := by chain_rfl
theorem win2_eq (c : Dev nD) : main_part2 (F := F) c = seq win2 := by chain_rfl
theorem win3_eq (c : Dev nD) : main_part3 (F := F) c = seq win3 := by chain_rfl
theorem win4_eq (c : Dev nD) : main_part4 (F := F) c = seq win4 := by chain_rfl

/-- The five windows' operations, in order, are the operations cut by meaning. -/
theorem wins_eq : (ops : List (HloOp τ sig (Elt F))) = win0 ++ (win1 ++ (win2 ++ (win3 ++ win4))) := by chain_rfl

/-- The program is the straight line of its operations: window by window, then the windows' lines joined. -/
theorem main_eq (c : Dev nD) : main (F := F) c = seq ops := by
  rw [wins_eq, seq_append, seq_append, seq_append, seq_append, ← win0_eq c, ← win1_eq c, ← win2_eq c, ← win3_eq c, ← win4_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem segPose_sub : (segPose : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., binary_bufs_sub ..,
    unary_bufs_sub .., nullary_bufs_sub .., unary_bufs_sub .., binary_bufs_sub .., unary_bufs_sub .., binary_bufs_sub ..,
    nullary_bufs_sub .., binary_bufs_sub .., unary_bufs_sub .., unary_bufs_sub .., binary_bufs_sub .., nullary_bufs_sub ..,
    binary_bufs_sub .., nullary_bufs_sub .., binary_bufs_sub .., binary_bufs_sub ..⟩
theorem segPart0_sub : (segPart0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segPart1_sub : (segPart1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segPart2_sub : (segPart2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segPart3_sub : (segPart3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segPart4_sub : (segPart4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segPart5_sub : (segPart5 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segPart6_sub : (segPart6 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., nullary_bufs_sub ..,
    binary_bufs_sub .., binary_bufs_sub .., binary_bufs_sub .., nullary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., unary_bufs_sub ..⟩
theorem segTail_sub : (segTail : List (HloOp τ sig (Elt F))).Forall fun op => op.bufs ⊆ tcRefs τ sig :=
  ⟨unary_bufs_sub .., unary_bufs_sub .., unary_bufs_sub .., unary_bufs_sub .., unary_bufs_sub .., unary_bufs_sub ..,
    unary_bufs_sub .., nary_bufs_sub .., unary_bufs_sub .., unary_bufs_sub .., unary_bufs_sub .., unary_bufs_sub ..,
    unary_bufs_sub .., unary_bufs_sub .., unary_bufs_sub .., nary_bufs_sub .., nullary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., unary_bufs_sub .., ternary_bufs_sub ..,
    unary_bufs_sub .., ternary_bufs_sub .., binary_bufs_sub .., nullary_bufs_sub .., unary_bufs_sub .., binary_bufs_sub ..,
    unary_bufs_sub .., ternary_bufs_sub .., unary_bufs_sub .., ternary_bufs_sub ..⟩

/-- Every operation of the line touches TensorCore buffers only. -/
theorem ops_sub : (ops : List (HloOp τ sig (Elt F))).Forall fun op => op.bufs ⊆ tcRefs τ sig :=
  (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append segPose_sub segPart0_sub) segPart1_sub) segPart2_sub) segPart3_sub) segPart4_sub) segPart5_sub) segPart6_sub) segTail_sub)

theorem segPose_fresh : (segPose : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩
theorem segPart0_fresh : (segPart0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segPart1_fresh : (segPart1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segPart2_fresh : (segPart2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segPart3_fresh : (segPart3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segPart4_fresh : (segPart4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segPart5_fresh : (segPart5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segPart6_fresh : (segPart6 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl⟩
theorem segTail_fresh : (segTail : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

/-- No operation of the line allocates a buffer. -/
theorem ops_fresh : (ops : List (HloOp τ sig (Elt F))).Forall fun op => op.fresh = ∅ :=
  (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append segPose_fresh segPart0_fresh) segPart1_fresh) segPart2_fresh) segPart3_fresh) segPart4_fresh) segPart5_fresh) segPart6_fresh) segTail_fresh)

/-! ## The run -/

/-- At the compiled mesh, for any float values, from any memory with zero counters: every weakly fair execution of the
    program on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (Cert.LibAfter.fresh_of_forall_dev fun _ => ops_fresh)

end Cert.ReferenceIdeal.RefRun

end
-- ==== Proof.RefStages.lean ====
/-
  The reference program's results as functions of its input, stage by stage.

  The pose (`poseOf`): the middle channel of the input relative to its first column, divided by half the sum of columns
  5 and 6 of that difference, shifted by its minimum over the last axis. Its minimum and the spread between its maximum
  and minimum over the last two axes (`topOf`, `denomOf`). For each of the seven groups of columns the two integer
  bounds `⌈64 · (max − top) / denom⌉` and `⌊64 · (min − top) / denom⌋` of the group's columns (`maOf_k`, `miOf_k`).
  And the closing tables (`tailMa`, `tailMi`): the seven upper bounds and the seven lower bounds as the rows of two
  tables, a row replaced by nine times its number plus nine (resp. nine times its number) where the upper bound is
  below the lower one, and again where the two differ by more than thirty.
-/
import proofs.«130793_j65274912965111_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pose -/

/-- The middle channel of the input, as a `4096 × 128 × 17` array (`%1`). -/
def midOf (x : (⟨S4096x3x128x17, .f32⟩ : BufTy).Contents (Elt F)) : FVec F S4096x128x17 .f32 :=
  fun i => shapeCast S4096x128x17
    (extractStridedSlice S4096x1x128x17 ![0, 1, 0, 0] x slices_S4096x3x128x17_S4096x1x128x17_0_1_0_0)
    shapeCasts_S4096x1x128x17_S4096x128x17 i

/-- An array relative to its first column along the last axis (`%4`). -/
def relOf (v : FVec F S4096x128x17 .f32) : FVec F S4096x128x17 .f32 :=
  subf v (broadcastInDim S4096x128x17 ![0, 1, 2] bcast_S4096x128x1_S4096x128x17_0_1_2
    (extractStridedSlice S4096x128x1 ![0, 0, 0] v slices_S4096x128x17_S4096x128x1_0_0_0))

/-- A table of two column indices, each below zero moved up by seventeen, as a `2 × 1` table of start indices. -/
def normIdx2 (t : IVec S2 32) : IVec S2x1 32 :=
  broadcastInDim S2x1 ![0] bcast_S2_S2x1_0
    (select (cmpi .slt t (broadcastInDim S2 ![] bcast_S_S2 (constantI S_ 32 0#32)))
      (addi t (broadcastInDim S2 ![] bcast_S_S2 (constantI S_ 32 17#32))) t)

/-- The same for a table of five column indices. -/
def normIdx5 (t : IVec S5 32) : IVec S5x1 32 :=
  broadcastInDim S5x1 ![0] bcast_S5_S5x1_0
    (select (cmpi .slt t (broadcastInDim S5 ![] bcast_S_S5 (constantI S_ 32 0#32)))
      (addi t (broadcastInDim S5 ![] bcast_S_S5 (constantI S_ 32 17#32))) t)

/-- The columns of an array at a table of two indices. -/
def cols2 (p : FVec F S4096x128x17 .f32) (t : IVec S2 32) : FVec F S4096x128x2 .f32 :=
  Host.gather gather_S4096x128x17_S2x1_S4096x128x2_01_2_n_n_2_1_40961281 p (normIdx2 t)

/-- The columns of an array at a table of five indices. -/
def cols5 (p : FVec F S4096x128x17 .f32) (t : IVec S5 32) : FVec F S4096x128x5 .f32 :=
  Host.gather gather_S4096x128x17_S5x1_S4096x128x5_01_2_n_n_2_1_40961281 p (normIdx5 t)

/-- The index tables of the program: the pair `[5, 6]` the scale is read at, then the seven groups of columns. -/
abbrev tblScale : IVec S2 32 := fun i => lit0 (S2.rowMajor i)
abbrev tbl0 : IVec S5 32 := fun i => lit1 (S5.rowMajor i)
abbrev tbl1 : IVec S2 32 := fun i => lit2 (S2.rowMajor i)
abbrev tbl2 : IVec S2 32 := fun i => lit3 (S2.rowMajor i)
abbrev tbl3 : IVec S2 32 := fun i => lit4 (S2.rowMajor i)
abbrev tbl4 : IVec S2 32 := fun i => lit5 (S2.rowMajor i)
abbrev tbl5 : IVec S2 32 := fun i => lit6 (S2.rowMajor i)
abbrev tbl6 : IVec S2 32 := fun i => lit7 (S2.rowMajor i)

/-- Half the sum of the two columns of `r` at the table `t`, per row (`%15` at `t = [5, 6]`). -/
def halfOf (r : FVec F S4096x128x17 .f32) (t : IVec S2 32) : FVec F S4096x128x1 .f32 :=
  Host.divf
    (broadcastInDim S4096x128x1 ![0, 1] bcast_S4096x128_S4096x128x1_0_1
      (Host.reduceAdd (cols2 r t) (constant S_ .f32 0x00000000#32) reducesTo_S4096x128x2_S4096x128_d2 h_S_))
    (broadcastInDim S4096x128x1 ![] bcast_S_S4096x128x1 (constant S_ .f32 0x40000000#32))

/-- `r` divided, row by row, by that half sum (`%17`). -/
def unitOf (r : FVec F S4096x128x17 .f32) (t : IVec S2 32) : FVec F S4096x128x17 .f32 :=
  Host.divf r (broadcastInDim S4096x128x17 ![0, 1, 2] bcast_S4096x128x1_S4096x128x17_0_1_2 (halfOf r t))

/-- An array shifted, row by row, by its minimum over the last axis (`%21` of `%17`). -/
def shiftOf (u : FVec F S4096x128x17 .f32) : FVec F S4096x128x17 .f32 :=
  subf u (broadcastInDim S4096x128x17 ![0, 1, 2] bcast_S4096x128x1_S4096x128x17_0_1_2
    (broadcastInDim S4096x128x1 ![0, 1] bcast_S4096x128_S4096x128x1_0_1
      (Host.reduce FloatOps.minimumf u (constant S_ .f32 0x7F800000#32) reducesTo_S4096x128x17_S4096x128_d2 h_S_)))

/-- The pose, from the index table the scale is read at and the input. -/
def poseAt (t : IVec S2 32) (x : (⟨S4096x3x128x17, .f32⟩ : BufTy).Contents (Elt F)) : FVec F S4096x128x17 .f32 :=
  shiftOf (unitOf (relOf (midOf x)) t)

/-- The pose (`%21`) as a function of the input (`%arg0`). -/
def poseOf (x : (⟨S4096x3x128x17, .f32⟩ : BufTy).Contents (Elt F)) : FVec F S4096x128x17 .f32 :=
  poseAt tblScale x

/-- The maximum of the pose over its last two axes (`%22`). -/
def bottomOf (p : FVec F S4096x128x17 .f32) : FVec F S4096 .f32 :=
  Host.reduce FloatOps.maximumf p (constant S_ .f32 0xFF800000#32) reducesTo_S4096x128x17_S4096_d1_2 h_S_

/-- The minimum of the pose over its last two axes (`%23`). -/
def topOf (p : FVec F S4096x128x17 .f32) : FVec F S4096 .f32 :=
  Host.reduce FloatOps.minimumf p (constant S_ .f32 0x7F800000#32) reducesTo_S4096x128x17_S4096_d1_2 h_S_

/-- The spread of the pose: its maximum less its minimum (`%24`). -/
def denomOf (p : FVec F S4096x128x17 .f32) : FVec F S4096 .f32 :=
  subf (bottomOf p) (topOf p)

/-! ## The groups of columns -/

/-- The maximum of two gathered columns over the last two axes. -/
def hi2 (c : FVec F S4096x128x2 .f32) : FVec F S4096 .f32 :=
  Host.reduce FloatOps.maximumf c (constant S_ .f32 0xFF800000#32) reducesTo_S4096x128x2_S4096_d1_2 h_S_
/-- Their minimum. -/
def lo2 (c : FVec F S4096x128x2 .f32) : FVec F S4096 .f32 :=
  Host.reduce FloatOps.minimumf c (constant S_ .f32 0x7F800000#32) reducesTo_S4096x128x2_S4096_d1_2 h_S_
/-- The maximum of five gathered columns over the last two axes. -/
def hi5 (c : FVec F S4096x128x5 .f32) : FVec F S4096 .f32 :=
  Host.reduce FloatOps.maximumf c (constant S_ .f32 0xFF800000#32) reducesTo_S4096x128x5_S4096_d1_2 h_S_
/-- Their minimum. -/
def lo5 (c : FVec F S4096x128x5 .f32) : FVec F S4096 .f32 :=
  Host.reduce FloatOps.minimumf c (constant S_ .f32 0x7F800000#32) reducesTo_S4096x128x5_S4096_d1_2 h_S_

/-- `⌈64 · (h − top) / denom⌉` as an integer. -/
def upOf (h top denom : FVec F S4096 .f32) : IVec S4096 32 :=
  fptosi 32 (Host.ceil (mulf (Host.divf (subf h top) denom)
    (broadcastInDim S4096 ![] bcast_S_S4096 (constant S_ .f32 0x42800000#32))))
/-- `⌊64 · (l − top) / denom⌋` as an integer. -/
def downOf (l top denom : FVec F S4096 .f32) : IVec S4096 32 :=
  fptosi 32 (Host.floor (mulf (Host.divf (subf l top) denom)
    (broadcastInDim S4096 ![] bcast_S_S4096 (constant S_ .f32 0x42800000#32))))

/-- The two bounds of a group of two columns, from its index table. -/
def maAt2 (t : IVec S2 32) (p : FVec F S4096x128x17 .f32) (top denom : FVec F S4096 .f32) : IVec S4096 32 :=
  upOf (hi2 (cols2 p t)) top denom
def miAt2 (t : IVec S2 32) (p : FVec F S4096x128x17 .f32) (top denom : FVec F S4096 .f32) : IVec S4096 32 :=
  downOf (lo2 (cols2 p t)) top denom
/-- The two bounds of a group of five columns, from its index table. -/
def maAt5 (t : IVec S5 32) (p : FVec F S4096x128x17 .f32) (top denom : FVec F S4096 .f32) : IVec S4096 32 :=
  upOf (hi5 (cols5 p t)) top denom
def miAt5 (t : IVec S5 32) (p : FVec F S4096x128x17 .f32) (top denom : FVec F S4096 .f32) : IVec S4096 32 :=
  downOf (lo5 (cols5 p t)) top denom

/-- Group 0 (columns 0 … 4): `%39` and `%45` as functions of `%21`, `%23`, `%24`. -/
def maOf_0 (p : FVec F S4096x128x17 .f32) (top denom : FVec F S4096 .f32) : IVec S4096 32 := maAt5 tbl0 p top denom
def miOf_0 (p : FVec F S4096x128x17 .f32) (top denom : FVec F S4096 .f32) : IVec S4096 32 := miAt5 tbl0 p top denom
/-- Group 1 (columns 5, 6): `%60` and `%66`. -/
def maOf_1 (p : FVec F S4096x128x17 .f32) (top denom : FVec F S4096 .f32) : IVec S4096 32 := maAt2 tbl1 p top denom
def miOf_1 (p : FVec F S4096x128x17 .f32) (top denom : FVec F S4096 .f32) : IVec S4096 32 := miAt2 tbl1 p top denom
/-- Group 2 (columns 7, 8): `%81` and `%87`. -/
def maOf_2 (p : FVec F S4096x128x17 .f32) (top denom : FVec F S4096 .f32) : IVec S4096 32 := maAt2 tbl2 p top denom
def miOf_2 (p : FVec F S4096x128x17 .f32) (top denom : FVec F S4096 .f32) : IVec S4096 32 := miAt2 tbl2 p top denom
/-- Group 3 (columns 9, 10): `%102` and `%108`. -/
def maOf_3 (p : FVec F S4096x128x17 .f32) (top denom : FVec F S4096 .f32) : IVec S4096 32 := maAt2 tbl3 p top denom
def miOf_3 (p : FVec F S4096x128x17 .f32) (top denom : FVec F S4096 .f32) : IVec S4096 32 := miAt2 tbl3 p top denom
/-- Group 4 (columns 11, 12): `%123` and `%129`. -/
def maOf_4 (p : FVec F S4096x128x17 .f32) (top denom : FVec F S4096 .f32) : IVec S4096 32 := maAt2 tbl4 p top denom
def miOf_4 (p : FVec F S4096x128x17 .f32) (top denom : FVec F S4096 .f32) : IVec S4096 32 := miAt2 tbl4 p top denom
/-- Group 5 (columns 13, 14): `%144` and `%150`. -/
def maOf_5 (p : FVec F S4096x128x17 .f32) (top denom : FVec F S4096 .f32) : IVec S4096 32 := maAt2 tbl5 p top denom
def miOf_5 (p : FVec F S4096x128x17 .f32) (top denom : FVec F S4096 .f32) : IVec S4096 32 := miAt2 tbl5 p top denom
/-- Group 6 (columns 15, 16): `%165` and `%171`. -/
def maOf_6 (p : FVec F S4096x128x17 .f32) (top denom : FVec F S4096 .f32) : IVec S4096 32 := maAt2 tbl6 p top denom
def miOf_6 (p : FVec F S4096x128x17 .f32) (top denom : FVec F S4096 .f32) : IVec S4096 32 := miAt2 tbl6 p top denom

/-! ## The closing tables -/

/-- A vector as the one row of a `1 × 4096` table. -/
def rowOf (a : IVec S4096 32) : IVec S1x4096 32 := broadcastInDim S1x4096 ![1] bcast_S4096_S1x4096_1 a

/-- Seven vectors as the rows of a `7 × 4096` table (`%179`, `%187`). -/
def stackOf (a0 a1 a2 a3 a4 a5 a6 : IVec S4096 32) : IVec S7x4096 32 :=
  concatenate S7x4096 0 [⟨S1x4096, rowOf a0⟩, ⟨S1x4096, rowOf a1⟩, ⟨S1x4096, rowOf a2⟩, ⟨S1x4096, rowOf a3⟩, ⟨S1x4096, rowOf a4⟩, ⟨S1x4096, rowOf a5⟩, ⟨S1x4096, rowOf a6⟩] concatenates_S1x4096_S1x4096_S1x4096_S1x4096_S1x4096_S1x4096_S1x4096_S7x4096_d0

/-- The row numbers `0 … 6` as a column (`%189`). -/
def rowNo : IVec S7x1 32 := broadcastInDim S7x1 ![0] bcast_S7_S7x1_0 (iotaInDim S7 32 0)
/-- Nine times the row number plus nine (`%193`). -/
def hiCol : IVec S7x1 32 :=
  muli (addi rowNo (broadcastInDim S7x1 ![] bcast_S_S7x1 (constantI S_ 32 1#32)))
    (broadcastInDim S7x1 ![] bcast_S_S7x1 (constantI S_ 32 9#32))
/-- Nine times the row number (`%195`). -/
def loCol : IVec S7x1 32 := muli rowNo (broadcastInDim S7x1 ![] bcast_S_S7x1 (constantI S_ 32 9#32))

/-- The selection function: where the mask is set the column's entry of the row, elsewhere the table's. -/
def whereOf (c : IVec S7x4096 1) (col : IVec S7x1 32) (t : IVec S7x4096 32) : IVec S7x4096 32 :=
  select c (broadcastInDim S7x4096 ![0, 1] bcast_S7x1_S7x4096_0_1 col) t

/-- Where the upper bounds are at most the lower ones (`%196`). -/
def crossOf (A B : IVec S7x4096 32) : IVec S7x4096 1 := cmpi .sle A B
/-- The upper table after the first selection (`%197`), and the lower one (`%198`). -/
def hiTab (A B : IVec S7x4096 32) : IVec S7x4096 32 := whereOf (crossOf A B) hiCol A
def loTab (A B : IVec S7x4096 32) : IVec S7x4096 32 := whereOf (crossOf A B) loCol B
/-- Where the two tables then differ by more than thirty (`%201`). -/
def wideOf (A B : IVec S7x4096 32) : IVec S7x4096 1 :=
  cmpi .sgt (subi (hiTab A B) (loTab A B)) (broadcastInDim S7x4096 ![] bcast_S_S7x4096 (constantI S_ 32 30#32))
/-- The two results from the two stacked tables (`%202`, `%203`). -/
def tailMaOf (A B : IVec S7x4096 32) : IVec S7x4096 32 := whereOf (wideOf A B) hiCol (hiTab A B)
def tailMiOf (A B : IVec S7x4096 32) : IVec S7x4096 32 := whereOf (wideOf A B) loCol (loTab A B)

/-- The first result (`%202`) from the seven upper and the seven lower bounds. -/
def tailMa (a0 a1 a2 a3 a4 a5 a6 b0 b1 b2 b3 b4 b5 b6 : IVec S4096 32) : IVec S7x4096 32 :=
  tailMaOf (stackOf a0 a1 a2 a3 a4 a5 a6) (stackOf b0 b1 b2 b3 b4 b5 b6)
/-- The second result (`%203`). -/
def tailMi (a0 a1 a2 a3 a4 a5 a6 b0 b1 b2 b3 b4 b5 b6 : IVec S4096 32) : IVec S7x4096 32 :=
  tailMiOf (stackOf a0 a1 a2 a3 a4 a5 a6) (stackOf b0 b1 b2 b3 b4 b5 b6)

end Cert.ReferenceIdeal.RefRun

end
-- ==== Proof.RefOut.lean ====
/-
  What the reference program's line of operations leaves in its two result buffers, as the staged functions of the
  input: the line is run segment by segment. Each segment leaves every buffer it does not write as it was, and each
  buffer it defines that a later segment reads at the corresponding function of the buffers it reads; the pose segment
  defines the pose, its minimum and its spread and the seven index tables, each group's segment its two bounds, the
  closing segment the two results.
-/
import proofs.«130793_j65274912965111_1_alg».proof.Proof.RefStages
import proofs.«130793_j65274912965111_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Two facts about single operations -/

/-- A concatenation of seven operands leaves in its result buffer its function of the seven operands' contents, each
    read at its own buffer. -/
theorem nary7_result' {x0 x1 x2 x3 x4 x5 x6 y : Ref sig .tc}
    (f : ((k : Fin 7) → ((![x0, x1, x2, x3, x4, x5, x6] : Fin 7 → Ref sig .tc) k).ty.Contents (Elt F)) → y.ty.Contents (Elt F))
    (hxs hy) (W : Valuation τ sig (Elt F)) :
    (nary (τ := τ) ![x0, x1, x2, x3, x4, x5, x6] y f hxs hy).result W (no_index (Proc.devRef .tc y))
      = f (Fin.cons (W (Proc.devRef .tc x0)) (Fin.cons (W (Proc.devRef .tc x1)) (Fin.cons (W (Proc.devRef .tc x2))
          (Fin.cons (W (Proc.devRef .tc x3)) (Fin.cons (W (Proc.devRef .tc x4)) (Fin.cons (W (Proc.devRef .tc x5))
          (Fin.cons (W (Proc.devRef .tc x6)) (fun i => i.elim0)))))))) := by
  rw [nary_result]; congr 1; funext k; fin_cases k <;> rfl

/-- An operation that writes the one buffer `y`, a member of the list `L`, writes inside `L`. -/
theorem wsub {L : List (Ref sig .tc)} (y : Ref sig .tc) (hy : y ∈ L) {op : HloOp τ sig (Elt F)}
    (h : op.writes = {Proc.devRef .tc y}) : op.writes ⊆ (L.map (Proc.devRef (τ := τ) .tc)).toFinset := by
  rw [h, Finset.singleton_subset_iff, List.mem_toFinset]
  exact List.mem_map.mpr ⟨y, hy, rfl⟩

/-- Rewrites the contents of a literal buffer after a literal line of operations to the operations' functions of the
    contents before the line. -/
macro "seg_results" : tactic =>
  `(tactic| (simp (disch := decide) only [after_cons, after_nil,
      nullary_result', unary_result', binary_result', ternary_result', reshape_result', nary7_result',
      nullary_result_ne', unary_result_ne', binary_result_ne', ternary_result_ne', reshape_result_ne', nary_result_ne']))

/-! ## What each segment writes, and that it leaves the rest -/

/-- The buffers `segPose` writes. -/
def segPoseW : List (Ref sig .tc) :=
  [main_c, main_c_0, main_c_1, main_c_2, main_c_3, main_c_4, main_c_5, main_c_6, main_v0, main_v1,
   main_v2, main_v3, main_v4, main_c_7, main_v5, main_v6, main_c_8, main_v7, main_v8, main_v9,
   main_v10, main_v11, main_cst, main_v12, main_v13, main_cst_9, main_v14, main_v15, main_v16, main_v17,
   main_cst_10, main_v18, main_v19, main_v20, main_v21, main_cst_11, main_v22, main_cst_12, main_v23, main_v24]
theorem segPose_writes : (segPose : List (HloOp τ sig (Elt F))).Forall fun op => op.writes ⊆ ((segPoseW).map (Proc.devRef (τ := τ) .tc)).toFinset :=
  ⟨wsub main_c (by decide) rfl, wsub main_c_0 (by decide) rfl, wsub main_c_1 (by decide) rfl, wsub main_c_2 (by decide) rfl,
    wsub main_c_3 (by decide) rfl, wsub main_c_4 (by decide) rfl, wsub main_c_5 (by decide) rfl, wsub main_c_6 (by decide) rfl,
    wsub main_v0 (by decide) rfl, wsub main_v1 (by decide) rfl, wsub main_v2 (by decide) rfl, wsub main_v3 (by decide) rfl,
    wsub main_v4 (by decide) rfl, wsub main_c_7 (by decide) rfl, wsub main_v5 (by decide) rfl, wsub main_v6 (by decide) rfl,
    wsub main_c_8 (by decide) rfl, wsub main_v7 (by decide) rfl, wsub main_v8 (by decide) rfl, wsub main_v9 (by decide) rfl,
    wsub main_v10 (by decide) rfl, wsub main_v11 (by decide) rfl, wsub main_cst (by decide) rfl, wsub main_v12 (by decide) rfl,
    wsub main_v13 (by decide) rfl, wsub main_cst_9 (by decide) rfl, wsub main_v14 (by decide) rfl, wsub main_v15 (by decide) rfl,
    wsub main_v16 (by decide) rfl, wsub main_v17 (by decide) rfl, wsub main_cst_10 (by decide) rfl, wsub main_v18 (by decide) rfl,
    wsub main_v19 (by decide) rfl, wsub main_v20 (by decide) rfl, wsub main_v21 (by decide) rfl, wsub main_cst_11 (by decide) rfl,
    wsub main_v22 (by decide) rfl, wsub main_cst_12 (by decide) rfl, wsub main_v23 (by decide) rfl, wsub main_v24 (by decide) rfl⟩
theorem segPose_keep (W : Valuation τ sig (Elt F)) {r : Ref sig .tc} (hr : r ∉ segPoseW) :
    after segPose W (Proc.devRef .tc r) = W (Proc.devRef .tc r) :=
  after_of_writes_sub segPose W segPose_writes hr

/-- The buffers `segPart0` writes. -/
def segPart0W : List (Ref sig .tc) :=
  [main_c_13, main_v25, main_v26, main_c_14, main_v27, main_v28, main_v29, main_v30, main_v31, main_cst_15,
   main_v32, main_cst_16, main_v33, main_v34, main_v35, main_cst_17, main_v36, main_v37, main_v38, main_v39,
   main_v40, main_v41, main_cst_18, main_v42, main_v43, main_v44, main_v45]
theorem segPart0_writes : (segPart0 : List (HloOp τ sig (Elt F))).Forall fun op => op.writes ⊆ ((segPart0W).map (Proc.devRef (τ := τ) .tc)).toFinset :=
  ⟨wsub main_c_13 (by decide) rfl, wsub main_v25 (by decide) rfl, wsub main_v26 (by decide) rfl, wsub main_c_14 (by decide) rfl,
    wsub main_v27 (by decide) rfl, wsub main_v28 (by decide) rfl, wsub main_v29 (by decide) rfl, wsub main_v30 (by decide) rfl,
    wsub main_v31 (by decide) rfl, wsub main_cst_15 (by decide) rfl, wsub main_v32 (by decide) rfl, wsub main_cst_16 (by decide) rfl,
    wsub main_v33 (by decide) rfl, wsub main_v34 (by decide) rfl, wsub main_v35 (by decide) rfl, wsub main_cst_17 (by decide) rfl,
    wsub main_v36 (by decide) rfl, wsub main_v37 (by decide) rfl, wsub main_v38 (by decide) rfl, wsub main_v39 (by decide) rfl,
    wsub main_v40 (by decide) rfl, wsub main_v41 (by decide) rfl, wsub main_cst_18 (by decide) rfl, wsub main_v42 (by decide) rfl,
    wsub main_v43 (by decide) rfl, wsub main_v44 (by decide) rfl, wsub main_v45 (by decide) rfl⟩
theorem segPart0_keep (W : Valuation τ sig (Elt F)) {r : Ref sig .tc} (hr : r ∉ segPart0W) :
    after segPart0 W (Proc.devRef .tc r) = W (Proc.devRef .tc r) :=
  after_of_writes_sub segPart0 W segPart0_writes hr

/-- The buffers `segPart1` writes. -/
def segPart1W : List (Ref sig .tc) :=
  [main_c_19, main_v46, main_v47, main_c_20, main_v48, main_v49, main_v50, main_v51, main_v52, main_cst_21,
   main_v53, main_cst_22, main_v54, main_v55, main_v56, main_cst_23, main_v57, main_v58, main_v59, main_v60,
   main_v61, main_v62, main_cst_24, main_v63, main_v64, main_v65, main_v66]
theorem segPart1_writes : (segPart1 : List (HloOp τ sig (Elt F))).Forall fun op => op.writes ⊆ ((segPart1W).map (Proc.devRef (τ := τ) .tc)).toFinset :=
  ⟨wsub main_c_19 (by decide) rfl, wsub main_v46 (by decide) rfl, wsub main_v47 (by decide) rfl, wsub main_c_20 (by decide) rfl,
    wsub main_v48 (by decide) rfl, wsub main_v49 (by decide) rfl, wsub main_v50 (by decide) rfl, wsub main_v51 (by decide) rfl,
    wsub main_v52 (by decide) rfl, wsub main_cst_21 (by decide) rfl, wsub main_v53 (by decide) rfl, wsub main_cst_22 (by decide) rfl,
    wsub main_v54 (by decide) rfl, wsub main_v55 (by decide) rfl, wsub main_v56 (by decide) rfl, wsub main_cst_23 (by decide) rfl,
    wsub main_v57 (by decide) rfl, wsub main_v58 (by decide) rfl, wsub main_v59 (by decide) rfl, wsub main_v60 (by decide) rfl,
    wsub main_v61 (by decide) rfl, wsub main_v62 (by decide) rfl, wsub main_cst_24 (by decide) rfl, wsub main_v63 (by decide) rfl,
    wsub main_v64 (by decide) rfl, wsub main_v65 (by decide) rfl, wsub main_v66 (by decide) rfl⟩
theorem segPart1_keep (W : Valuation τ sig (Elt F)) {r : Ref sig .tc} (hr : r ∉ segPart1W) :
    after segPart1 W (Proc.devRef .tc r) = W (Proc.devRef .tc r) :=
  after_of_writes_sub segPart1 W segPart1_writes hr

/-- The buffers `segPart2` writes. -/
def segPart2W : List (Ref sig .tc) :=
  [main_c_25, main_v67, main_v68, main_c_26, main_v69, main_v70, main_v71, main_v72, main_v73, main_cst_27,
   main_v74, main_cst_28, main_v75, main_v76, main_v77, main_cst_29, main_v78, main_v79, main_v80, main_v81,
   main_v82, main_v83, main_cst_30, main_v84, main_v85, main_v86, main_v87]
theorem segPart2_writes : (segPart2 : List (HloOp τ sig (Elt F))).Forall fun op => op.writes ⊆ ((segPart2W).map (Proc.devRef (τ := τ) .tc)).toFinset :=
  ⟨wsub main_c_25 (by decide) rfl, wsub main_v67 (by decide) rfl, wsub main_v68 (by decide) rfl, wsub main_c_26 (by decide) rfl,
    wsub main_v69 (by decide) rfl, wsub main_v70 (by decide) rfl, wsub main_v71 (by decide) rfl, wsub main_v72 (by decide) rfl,
    wsub main_v73 (by decide) rfl, wsub main_cst_27 (by decide) rfl, wsub main_v74 (by decide) rfl, wsub main_cst_28 (by decide) rfl,
    wsub main_v75 (by decide) rfl, wsub main_v76 (by decide) rfl, wsub main_v77 (by decide) rfl, wsub main_cst_29 (by decide) rfl,
    wsub main_v78 (by decide) rfl, wsub main_v79 (by decide) rfl, wsub main_v80 (by decide) rfl, wsub main_v81 (by decide) rfl,
    wsub main_v82 (by decide) rfl, wsub main_v83 (by decide) rfl, wsub main_cst_30 (by decide) rfl, wsub main_v84 (by decide) rfl,
    wsub main_v85 (by decide) rfl, wsub main_v86 (by decide) rfl, wsub main_v87 (by decide) rfl⟩
theorem segPart2_keep (W : Valuation τ sig (Elt F)) {r : Ref sig .tc} (hr : r ∉ segPart2W) :
    after segPart2 W (Proc.devRef .tc r) = W (Proc.devRef .tc r) :=
  after_of_writes_sub segPart2 W segPart2_writes hr

/-- The buffers `segPart3` writes. -/
def segPart3W : List (Ref sig .tc) :=
  [main_c_31, main_v88, main_v89, main_c_32, main_v90, main_v91, main_v92, main_v93, main_v94, main_cst_33,
   main_v95, main_cst_34, main_v96, main_v97, main_v98, main_cst_35, main_v99, main_v100, main_v101, main_v102,
   main_v103, main_v104, main_cst_36, main_v105, main_v106, main_v107, main_v108]
theorem segPart3_writes : (segPart3 : List (HloOp τ sig (Elt F))).Forall fun op => op.writes ⊆ ((segPart3W).map (Proc.devRef (τ := τ) .tc)).toFinset :=
  ⟨wsub main_c_31 (by decide) rfl, wsub main_v88 (by decide) rfl, wsub main_v89 (by decide) rfl, wsub main_c_32 (by decide) rfl,
    wsub main_v90 (by decide) rfl, wsub main_v91 (by decide) rfl, wsub main_v92 (by decide) rfl, wsub main_v93 (by decide) rfl,
    wsub main_v94 (by decide) rfl, wsub main_cst_33 (by decide) rfl, wsub main_v95 (by decide) rfl, wsub main_cst_34 (by decide) rfl,
    wsub main_v96 (by decide) rfl, wsub main_v97 (by decide) rfl, wsub main_v98 (by decide) rfl, wsub main_cst_35 (by decide) rfl,
    wsub main_v99 (by decide) rfl, wsub main_v100 (by decide) rfl, wsub main_v101 (by decide) rfl, wsub main_v102 (by decide) rfl,
    wsub main_v103 (by decide) rfl, wsub main_v104 (by decide) rfl, wsub main_cst_36 (by decide) rfl, wsub main_v105 (by decide) rfl,
    wsub main_v106 (by decide) rfl, wsub main_v107 (by decide) rfl, wsub main_v108 (by decide) rfl⟩
theorem segPart3_keep (W : Valuation τ sig (Elt F)) {r : Ref sig .tc} (hr : r ∉ segPart3W) :
    after segPart3 W (Proc.devRef .tc r) = W (Proc.devRef .tc r) :=
  after_of_writes_sub segPart3 W segPart3_writes hr

/-- The buffers `segPart4` writes. -/
def segPart4W : List (Ref sig .tc) :=
  [main_c_37, main_v109, main_v110, main_c_38, main_v111, main_v112, main_v113, main_v114, main_v115, main_cst_39,
   main_v116, main_cst_40, main_v117, main_v118, main_v119, main_cst_41, main_v120, main_v121, main_v122, main_v123,
   main_v124, main_v125, main_cst_42, main_v126, main_v127, main_v128, main_v129]
theorem segPart4_writes : (segPart4 : List (HloOp τ sig (Elt F))).Forall fun op => op.writes ⊆ ((segPart4W).map (Proc.devRef (τ := τ) .tc)).toFinset :=
  ⟨wsub main_c_37 (by decide) rfl, wsub main_v109 (by decide) rfl, wsub main_v110 (by decide) rfl, wsub main_c_38 (by decide) rfl,
    wsub main_v111 (by decide) rfl, wsub main_v112 (by decide) rfl, wsub main_v113 (by decide) rfl, wsub main_v114 (by decide) rfl,
    wsub main_v115 (by decide) rfl, wsub main_cst_39 (by decide) rfl, wsub main_v116 (by decide) rfl, wsub main_cst_40 (by decide) rfl,
    wsub main_v117 (by decide) rfl, wsub main_v118 (by decide) rfl, wsub main_v119 (by decide) rfl, wsub main_cst_41 (by decide) rfl,
    wsub main_v120 (by decide) rfl, wsub main_v121 (by decide) rfl, wsub main_v122 (by decide) rfl, wsub main_v123 (by decide) rfl,
    wsub main_v124 (by decide) rfl, wsub main_v125 (by decide) rfl, wsub main_cst_42 (by decide) rfl, wsub main_v126 (by decide) rfl,
    wsub main_v127 (by decide) rfl, wsub main_v128 (by decide) rfl, wsub main_v129 (by decide) rfl⟩
theorem segPart4_keep (W : Valuation τ sig (Elt F)) {r : Ref sig .tc} (hr : r ∉ segPart4W) :
    after segPart4 W (Proc.devRef .tc r) = W (Proc.devRef .tc r) :=
  after_of_writes_sub segPart4 W segPart4_writes hr

/-- The buffers `segPart5` writes. -/
def segPart5W : List (Ref sig .tc) :=
  [main_c_43, main_v130, main_v131, main_c_44, main_v132, main_v133, main_v134, main_v135, main_v136, main_cst_45,
   main_v137, main_cst_46, main_v138, main_v139, main_v140, main_cst_47, main_v141, main_v142, main_v143, main_v144,
   main_v145, main_v146, main_cst_48, main_v147, main_v148, main_v149, main_v150]
theorem segPart5_writes : (segPart5 : List (HloOp τ sig (Elt F))).Forall fun op => op.writes ⊆ ((segPart5W).map (Proc.devRef (τ := τ) .tc)).toFinset :=
  ⟨wsub main_c_43 (by decide) rfl, wsub main_v130 (by decide) rfl, wsub main_v131 (by decide) rfl, wsub main_c_44 (by decide) rfl,
    wsub main_v132 (by decide) rfl, wsub main_v133 (by decide) rfl, wsub main_v134 (by decide) rfl, wsub main_v135 (by decide) rfl,
    wsub main_v136 (by decide) rfl, wsub main_cst_45 (by decide) rfl, wsub main_v137 (by decide) rfl, wsub main_cst_46 (by decide) rfl,
    wsub main_v138 (by decide) rfl, wsub main_v139 (by decide) rfl, wsub main_v140 (by decide) rfl, wsub main_cst_47 (by decide) rfl,
    wsub main_v141 (by decide) rfl, wsub main_v142 (by decide) rfl, wsub main_v143 (by decide) rfl, wsub main_v144 (by decide) rfl,
    wsub main_v145 (by decide) rfl, wsub main_v146 (by decide) rfl, wsub main_cst_48 (by decide) rfl, wsub main_v147 (by decide) rfl,
    wsub main_v148 (by decide) rfl, wsub main_v149 (by decide) rfl, wsub main_v150 (by decide) rfl⟩
theorem segPart5_keep (W : Valuation τ sig (Elt F)) {r : Ref sig .tc} (hr : r ∉ segPart5W) :
    after segPart5 W (Proc.devRef .tc r) = W (Proc.devRef .tc r) :=
  after_of_writes_sub segPart5 W segPart5_writes hr

/-- The buffers `segPart6` writes. -/
def segPart6W : List (Ref sig .tc) :=
  [main_c_49, main_v151, main_v152, main_c_50, main_v153, main_v154, main_v155, main_v156, main_v157, main_cst_51,
   main_v158, main_cst_52, main_v159, main_v160, main_v161, main_cst_53, main_v162, main_v163, main_v164, main_v165,
   main_v166, main_v167, main_cst_54, main_v168, main_v169, main_v170, main_v171]
theorem segPart6_writes : (segPart6 : List (HloOp τ sig (Elt F))).Forall fun op => op.writes ⊆ ((segPart6W).map (Proc.devRef (τ := τ) .tc)).toFinset :=
  ⟨wsub main_c_49 (by decide) rfl, wsub main_v151 (by decide) rfl, wsub main_v152 (by decide) rfl, wsub main_c_50 (by decide) rfl,
    wsub main_v153 (by decide) rfl, wsub main_v154 (by decide) rfl, wsub main_v155 (by decide) rfl, wsub main_v156 (by decide) rfl,
    wsub main_v157 (by decide) rfl, wsub main_cst_51 (by decide) rfl, wsub main_v158 (by decide) rfl, wsub main_cst_52 (by decide) rfl,
    wsub main_v159 (by decide) rfl, wsub main_v160 (by decide) rfl, wsub main_v161 (by decide) rfl, wsub main_cst_53 (by decide) rfl,
    wsub main_v162 (by decide) rfl, wsub main_v163 (by decide) rfl, wsub main_v164 (by decide) rfl, wsub main_v165 (by decide) rfl,
    wsub main_v166 (by decide) rfl, wsub main_v167 (by decide) rfl, wsub main_cst_54 (by decide) rfl, wsub main_v168 (by decide) rfl,
    wsub main_v169 (by decide) rfl, wsub main_v170 (by decide) rfl, wsub main_v171 (by decide) rfl⟩
theorem segPart6_keep (W : Valuation τ sig (Elt F)) {r : Ref sig .tc} (hr : r ∉ segPart6W) :
    after segPart6 W (Proc.devRef .tc r) = W (Proc.devRef .tc r) :=
  after_of_writes_sub segPart6 W segPart6_writes hr

/-- The buffers `segTail` writes. -/
def segTailW : List (Ref sig .tc) :=
  [main_v172, main_v173, main_v174, main_v175, main_v176, main_v177, main_v178, main_v179, main_v180, main_v181,
   main_v182, main_v183, main_v184, main_v185, main_v186, main_v187, main_v188, main_v189, main_c_55, main_v190,
   main_v191, main_c_56, main_v192, main_v193, main_c_57, main_v194, main_v195, main_v196, main_call0_v0, main_v197,
   main_call1_v0, main_v198, main_v199, main_c_58, main_v200, main_v201, main_call2_v0, main_v202, main_call3_v0, main_v203]
theorem segTail_writes : (segTail : List (HloOp τ sig (Elt F))).Forall fun op => op.writes ⊆ ((segTailW).map (Proc.devRef (τ := τ) .tc)).toFinset :=
  ⟨wsub main_v172 (by decide) rfl, wsub main_v173 (by decide) rfl, wsub main_v174 (by decide) rfl, wsub main_v175 (by decide) rfl,
    wsub main_v176 (by decide) rfl, wsub main_v177 (by decide) rfl, wsub main_v178 (by decide) rfl, wsub main_v179 (by decide) rfl,
    wsub main_v180 (by decide) rfl, wsub main_v181 (by decide) rfl, wsub main_v182 (by decide) rfl, wsub main_v183 (by decide) rfl,
    wsub main_v184 (by decide) rfl, wsub main_v185 (by decide) rfl, wsub main_v186 (by decide) rfl, wsub main_v187 (by decide) rfl,
    wsub main_v188 (by decide) rfl, wsub main_v189 (by decide) rfl, wsub main_c_55 (by decide) rfl, wsub main_v190 (by decide) rfl,
    wsub main_v191 (by decide) rfl, wsub main_c_56 (by decide) rfl, wsub main_v192 (by decide) rfl, wsub main_v193 (by decide) rfl,
    wsub main_c_57 (by decide) rfl, wsub main_v194 (by decide) rfl, wsub main_v195 (by decide) rfl, wsub main_v196 (by decide) rfl,
    wsub main_call0_v0 (by decide) rfl, wsub main_v197 (by decide) rfl, wsub main_call1_v0 (by decide) rfl, wsub main_v198 (by decide) rfl,
    wsub main_v199 (by decide) rfl, wsub main_c_58 (by decide) rfl, wsub main_v200 (by decide) rfl, wsub main_v201 (by decide) rfl,
    wsub main_call2_v0 (by decide) rfl, wsub main_v202 (by decide) rfl, wsub main_call3_v0 (by decide) rfl, wsub main_v203 (by decide) rfl⟩
theorem segTail_keep (W : Valuation τ sig (Elt F)) {r : Ref sig .tc} (hr : r ∉ segTailW) :
    after segTail W (Proc.devRef .tc r) = W (Proc.devRef .tc r) :=
  after_of_writes_sub segTail W segTail_writes hr

/-! ## The pose segment -/

section Pose
set_option maxRecDepth 8192
set_option maxHeartbeats 1600000

theorem pose_v21 (W : Valuation τ sig (Elt F)) :
    after segPose W (main_v21 : DevRef τ sig) = poseOf (W (main_arg0 : DevRef τ sig)) := by
  seg_results; rfl
theorem pose_v23 (W : Valuation τ sig (Elt F)) :
    after segPose W (main_v23 : DevRef τ sig) = topOf (poseOf (W (main_arg0 : DevRef τ sig))) := by
  seg_results; rfl
theorem pose_v24 (W : Valuation τ sig (Elt F)) :
    after segPose W (main_v24 : DevRef τ sig) = denomOf (poseOf (W (main_arg0 : DevRef τ sig))) := by
  seg_results; rfl
theorem pose_c0 (W : Valuation τ sig (Elt F)) : after segPose W (main_c_0 : DevRef τ sig) = tbl0 := by
  seg_results; rfl
theorem pose_c1 (W : Valuation τ sig (Elt F)) : after segPose W (main_c_1 : DevRef τ sig) = tbl1 := by
  seg_results; rfl
theorem pose_c2 (W : Valuation τ sig (Elt F)) : after segPose W (main_c_2 : DevRef τ sig) = tbl2 := by
  seg_results; rfl
theorem pose_c3 (W : Valuation τ sig (Elt F)) : after segPose W (main_c_3 : DevRef τ sig) = tbl3 := by
  seg_results; rfl
theorem pose_c4 (W : Valuation τ sig (Elt F)) : after segPose W (main_c_4 : DevRef τ sig) = tbl4 := by
  seg_results; rfl
theorem pose_c5 (W : Valuation τ sig (Elt F)) : after segPose W (main_c_5 : DevRef τ sig) = tbl5 := by
  seg_results; rfl
theorem pose_c6 (W : Valuation τ sig (Elt F)) : after segPose W (main_c_6 : DevRef τ sig) = tbl6 := by
  seg_results; rfl

end Pose

/-! ## The groups' segments -/

section Parts
set_option maxRecDepth 8192
set_option maxHeartbeats 1600000

theorem part0_ma (W : Valuation τ sig (Elt F)) :
    after segPart0 W (main_v39 : DevRef τ sig) = maAt5 (W (main_c_0 : DevRef τ sig)) (W (main_v21 : DevRef τ sig)) (W (main_v23 : DevRef τ sig)) (W (main_v24 : DevRef τ sig)) := by
  seg_results; rfl
theorem part0_mi (W : Valuation τ sig (Elt F)) :
    after segPart0 W (main_v45 : DevRef τ sig) = miAt5 (W (main_c_0 : DevRef τ sig)) (W (main_v21 : DevRef τ sig)) (W (main_v23 : DevRef τ sig)) (W (main_v24 : DevRef τ sig)) := by
  seg_results; rfl
theorem part1_ma (W : Valuation τ sig (Elt F)) :
    after segPart1 W (main_v60 : DevRef τ sig) = maAt2 (W (main_c_1 : DevRef τ sig)) (W (main_v21 : DevRef τ sig)) (W (main_v23 : DevRef τ sig)) (W (main_v24 : DevRef τ sig)) := by
  seg_results; rfl
theorem part1_mi (W : Valuation τ sig (Elt F)) :
    after segPart1 W (main_v66 : DevRef τ sig) = miAt2 (W (main_c_1 : DevRef τ sig)) (W (main_v21 : DevRef τ sig)) (W (main_v23 : DevRef τ sig)) (W (main_v24 : DevRef τ sig)) := by
  seg_results; rfl
theorem part2_ma (W : Valuation τ sig (Elt F)) :
    after segPart2 W (main_v81 : DevRef τ sig) = maAt2 (W (main_c_2 : DevRef τ sig)) (W (main_v21 : DevRef τ sig)) (W (main_v23 : DevRef τ sig)) (W (main_v24 : DevRef τ sig)) := by
  seg_results; rfl
theorem part2_mi (W : Valuation τ sig (Elt F)) :
    after segPart2 W (main_v87 : DevRef τ sig) = miAt2 (W (main_c_2 : DevRef τ sig)) (W (main_v21 : DevRef τ sig)) (W (main_v23 : DevRef τ sig)) (W (main_v24 : DevRef τ sig)) := by
  seg_results; rfl
theorem part3_ma (W : Valuation τ sig (Elt F)) :
    after segPart3 W (main_v102 : DevRef τ sig) = maAt2 (W (main_c_3 : DevRef τ sig)) (W (main_v21 : DevRef τ sig)) (W (main_v23 : DevRef τ sig)) (W (main_v24 : DevRef τ sig)) := by
  seg_results; rfl
theorem part3_mi (W : Valuation τ sig (Elt F)) :
    after segPart3 W (main_v108 : DevRef τ sig) = miAt2 (W (main_c_3 : DevRef τ sig)) (W (main_v21 : DevRef τ sig)) (W (main_v23 : DevRef τ sig)) (W (main_v24 : DevRef τ sig)) := by
  seg_results; rfl
theorem part4_ma (W : Valuation τ sig (Elt F)) :
    after segPart4 W (main_v123 : DevRef τ sig) = maAt2 (W (main_c_4 : DevRef τ sig)) (W (main_v21 : DevRef τ sig)) (W (main_v23 : DevRef τ sig)) (W (main_v24 : DevRef τ sig)) := by
  seg_results; rfl
theorem part4_mi (W : Valuation τ sig (Elt F)) :
    after segPart4 W (main_v129 : DevRef τ sig) = miAt2 (W (main_c_4 : DevRef τ sig)) (W (main_v21 : DevRef τ sig)) (W (main_v23 : DevRef τ sig)) (W (main_v24 : DevRef τ sig)) := by
  seg_results; rfl
theorem part5_ma (W : Valuation τ sig (Elt F)) :
    after segPart5 W (main_v144 : DevRef τ sig) = maAt2 (W (main_c_5 : DevRef τ sig)) (W (main_v21 : DevRef τ sig)) (W (main_v23 : DevRef τ sig)) (W (main_v24 : DevRef τ sig)) := by
  seg_results; rfl
theorem part5_mi (W : Valuation τ sig (Elt F)) :
    after segPart5 W (main_v150 : DevRef τ sig) = miAt2 (W (main_c_5 : DevRef τ sig)) (W (main_v21 : DevRef τ sig)) (W (main_v23 : DevRef τ sig)) (W (main_v24 : DevRef τ sig)) := by
  seg_results; rfl
theorem part6_ma (W : Valuation τ sig (Elt F)) :
    after segPart6 W (main_v165 : DevRef τ sig) = maAt2 (W (main_c_6 : DevRef τ sig)) (W (main_v21 : DevRef τ sig)) (W (main_v23 : DevRef τ sig)) (W (main_v24 : DevRef τ sig)) := by
  seg_results; rfl
theorem part6_mi (W : Valuation τ sig (Elt F)) :
    after segPart6 W (main_v171 : DevRef τ sig) = miAt2 (W (main_c_6 : DevRef τ sig)) (W (main_v21 : DevRef τ sig)) (W (main_v23 : DevRef τ sig)) (W (main_v24 : DevRef τ sig)) := by
  seg_results; rfl

end Parts

/-! ## The closing segment

The closing segment in five stretches: the seven upper bounds each as a row, those rows stacked, the same for the seven
lower bounds, and the selections. Each stretch is read back from a variable valuation, so that a stacked table's rows
are read at buffers whose contents are already named. -/

section Tail
set_option maxRecDepth 8192
set_option maxHeartbeats 1600000

/-- The seven upper bounds, each as the row of a one-row table. -/
abbrev tA : List (HloOp τ sig (Elt F)) :=
  [ StableHlo.unary main_v39 main_v172 (broadcastInDim S1x4096 ![1] bcast_S4096_S1x4096_1 : (⟨S4096, .i32⟩ : BufTy).Contents (Elt F) → (⟨S1x4096, .i32⟩ : BufTy).Contents (Elt F)),
    StableHlo.unary main_v60 main_v173 (broadcastInDim S1x4096 ![1] bcast_S4096_S1x4096_1 : (⟨S4096, .i32⟩ : BufTy).Contents (Elt F) → (⟨S1x4096, .i32⟩ : BufTy).Contents (Elt F)),
    StableHlo.unary main_v81 main_v174 (broadcastInDim S1x4096 ![1] bcast_S4096_S1x4096_1 : (⟨S4096, .i32⟩ : BufTy).Contents (Elt F) → (⟨S1x4096, .i32⟩ : BufTy).Contents (Elt F)),
    StableHlo.unary main_v102 main_v175 (broadcastInDim S1x4096 ![1] bcast_S4096_S1x4096_1 : (⟨S4096, .i32⟩ : BufTy).Contents (Elt F) → (⟨S1x4096, .i32⟩ : BufTy).Contents (Elt F)),
    StableHlo.unary main_v123 main_v176 (broadcastInDim S1x4096 ![1] bcast_S4096_S1x4096_1 : (⟨S4096, .i32⟩ : BufTy).Contents (Elt F) → (⟨S1x4096, .i32⟩ : BufTy).Contents (Elt F)),
    StableHlo.unary main_v144 main_v177 (broadcastInDim S1x4096 ![1] bcast_S4096_S1x4096_1 : (⟨S4096, .i32⟩ : BufTy).Contents (Elt F) → (⟨S1x4096, .i32⟩ : BufTy).Contents (Elt F)),
    StableHlo.unary main_v165 main_v178 (broadcastInDim S1x4096 ![1] bcast_S4096_S1x4096_1 : (⟨S4096, .i32⟩ : BufTy).Contents (Elt F) → (⟨S1x4096, .i32⟩ : BufTy).Contents (Elt F)) ]
/-- Those rows stacked. -/
abbrev tB : List (HloOp τ sig (Elt F)) :=
  [ StableHlo.nary ![main_v172, main_v173, main_v174, main_v175, main_v176, main_v177, main_v178] main_v179 (fun u => concatenate S7x4096 0 [⟨S1x4096, u 0⟩, ⟨S1x4096, u 1⟩, ⟨S1x4096, u 2⟩, ⟨S1x4096, u 3⟩, ⟨S1x4096, u 4⟩, ⟨S1x4096, u 5⟩, ⟨S1x4096, u 6⟩] concatenates_S1x4096_S1x4096_S1x4096_S1x4096_S1x4096_S1x4096_S1x4096_S7x4096_d0) ]
/-- The seven lower bounds, each as a row. -/
abbrev tC : List (HloOp τ sig (Elt F)) :=
  [ StableHlo.unary main_v45 main_v180 (broadcastInDim S1x4096 ![1] bcast_S4096_S1x4096_1 : (⟨S4096, .i32⟩ : BufTy).Contents (Elt F) → (⟨S1x4096, .i32⟩ : BufTy).Contents (Elt F)),
    StableHlo.unary main_v66 main_v181 (broadcastInDim S1x4096 ![1] bcast_S4096_S1x4096_1 : (⟨S4096, .i32⟩ : BufTy).Contents (Elt F) → (⟨S1x4096, .i32⟩ : BufTy).Contents (Elt F)),
    StableHlo.unary main_v87 main_v182 (broadcastInDim S1x4096 ![1] bcast_S4096_S1x4096_1 : (⟨S4096, .i32⟩ : BufTy).Contents (Elt F) → (⟨S1x4096, .i32⟩ : BufTy).Contents (Elt F)),
    StableHlo.unary main_v108 main_v183 (broadcastInDim S1x4096 ![1] bcast_S4096_S1x4096_1 : (⟨S4096, .i32⟩ : BufTy).Contents (Elt F) → (⟨S1x4096, .i32⟩ : BufTy).Contents (Elt F)),
    StableHlo.unary main_v129 main_v184 (broadcastInDim S1x4096 ![1] bcast_S4096_S1x4096_1 : (⟨S4096, .i32⟩ : BufTy).Contents (Elt F) → (⟨S1x4096, .i32⟩ : BufTy).Contents (Elt F)),
    StableHlo.unary main_v150 main_v185 (broadcastInDim S1x4096 ![1] bcast_S4096_S1x4096_1 : (⟨S4096, .i32⟩ : BufTy).Contents (Elt F) → (⟨S1x4096, .i32⟩ : BufTy).Contents (Elt F)),
    StableHlo.unary main_v171 main_v186 (broadcastInDim S1x4096 ![1] bcast_S4096_S1x4096_1 : (⟨S4096, .i32⟩ : BufTy).Contents (Elt F) → (⟨S1x4096, .i32⟩ : BufTy).Contents (Elt F)) ]
/-- Those rows stacked. -/
abbrev tD : List (HloOp τ sig (Elt F)) :=
  [ StableHlo.nary ![main_v180, main_v181, main_v182, main_v183, main_v184, main_v185, main_v186] main_v187 (fun u => concatenate S7x4096 0 [⟨S1x4096, u 0⟩, ⟨S1x4096, u 1⟩, ⟨S1x4096, u 2⟩, ⟨S1x4096, u 3⟩, ⟨S1x4096, u 4⟩, ⟨S1x4096, u 5⟩, ⟨S1x4096, u 6⟩] concatenates_S1x4096_S1x4096_S1x4096_S1x4096_S1x4096_S1x4096_S1x4096_S7x4096_d0) ]
/-- The row numbers' two columns and the four selections. -/
abbrev tE : List (HloOp τ sig (Elt F)) :=
  [ StableHlo.nullary main_v188 (iotaInDim S7 32 0),
    StableHlo.unary main_v188 main_v189 (broadcastInDim S7x1 ![0] bcast_S7_S7x1_0 : (⟨S7, .i32⟩ : BufTy).Contents (Elt F) → (⟨S7x1, .i32⟩ : BufTy).Contents (Elt F)),
    StableHlo.nullary main_c_55 (constantI S_ 32 1#32),
    StableHlo.unary main_c_55 main_v190 (broadcastInDim S7x1 ![] bcast_S_S7x1 : (⟨S_, .i32⟩ : BufTy).Contents (Elt F) → (⟨S7x1, .i32⟩ : BufTy).Contents (Elt F)),
    StableHlo.binary main_v189 main_v190 main_v191 (addi : (⟨S7x1, .i32⟩ : BufTy).Contents (Elt F) → (⟨S7x1, .i32⟩ : BufTy).Contents (Elt F) → (⟨S7x1, .i32⟩ : BufTy).Contents (Elt F)),
    StableHlo.nullary main_c_56 (constantI S_ 32 9#32),
    StableHlo.unary main_c_56 main_v192 (broadcastInDim S7x1 ![] bcast_S_S7x1 : (⟨S_, .i32⟩ : BufTy).Contents (Elt F) → (⟨S7x1, .i32⟩ : BufTy).Contents (Elt F)),
    StableHlo.binary main_v191 main_v192 main_v193 (muli : (⟨S7x1, .i32⟩ : BufTy).Contents (Elt F) → (⟨S7x1, .i32⟩ : BufTy).Contents (Elt F) → (⟨S7x1, .i32⟩ : BufTy).Contents (Elt F)),
    StableHlo.nullary main_c_57 (constantI S_ 32 9#32),
    StableHlo.unary main_c_57 main_v194 (broadcastInDim S7x1 ![] bcast_S_S7x1 : (⟨S_, .i32⟩ : BufTy).Contents (Elt F) → (⟨S7x1, .i32⟩ : BufTy).Contents (Elt F)),
    StableHlo.binary main_v189 main_v194 main_v195 (muli : (⟨S7x1, .i32⟩ : BufTy).Contents (Elt F) → (⟨S7x1, .i32⟩ : BufTy).Contents (Elt F) → (⟨S7x1, .i32⟩ : BufTy).Contents (Elt F)),
    StableHlo.binary main_v179 main_v187 main_v196 (cmpi .sle : (⟨S7x4096, .i32⟩ : BufTy).Contents (Elt F) → (⟨S7x4096, .i32⟩ : BufTy).Contents (Elt F) → (⟨S7x4096, .i1⟩ : BufTy).Contents (Elt F)),
    TRef.unary (.of main_v193 : TRef sig ⟨S7x1, .i32⟩) main_call0.v0 (broadcastInDim S7x4096 ![0, 1] bcast_S7x1_S7x4096_0_1),
    TRef.ternary (.of main_v196 : TRef sig ⟨S7x4096, .i1⟩) main_call0.v0 (.of main_v179 : TRef sig ⟨S7x4096, .i32⟩) main_call0.v1 select,
    TRef.unary (.of main_v195 : TRef sig ⟨S7x1, .i32⟩) main_call1.v0 (broadcastInDim S7x4096 ![0, 1] bcast_S7x1_S7x4096_0_1),
    TRef.ternary (.of main_v196 : TRef sig ⟨S7x4096, .i1⟩) main_call1.v0 (.of main_v187 : TRef sig ⟨S7x4096, .i32⟩) main_call1.v1 select,
    StableHlo.binary main_v197 main_v198 main_v199 (subi : (⟨S7x4096, .i32⟩ : BufTy).Contents (Elt F) → (⟨S7x4096, .i32⟩ : BufTy).Contents (Elt F) → (⟨S7x4096, .i32⟩ : BufTy).Contents (Elt F)),
    StableHlo.nullary main_c_58 (constantI S_ 32 30#32),
    StableHlo.unary main_c_58 main_v200 (broadcastInDim S7x4096 ![] bcast_S_S7x4096 : (⟨S_, .i32⟩ : BufTy).Contents (Elt F) → (⟨S7x4096, .i32⟩ : BufTy).Contents (Elt F)),
    StableHlo.binary main_v199 main_v200 main_v201 (cmpi .sgt : (⟨S7x4096, .i32⟩ : BufTy).Contents (Elt F) → (⟨S7x4096, .i32⟩ : BufTy).Contents (Elt F) → (⟨S7x4096, .i1⟩ : BufTy).Contents (Elt F)),
    TRef.unary (.of main_v193 : TRef sig ⟨S7x1, .i32⟩) main_call2.v0 (broadcastInDim S7x4096 ![0, 1] bcast_S7x1_S7x4096_0_1),
    TRef.ternary (.of main_v201 : TRef sig ⟨S7x4096, .i1⟩) main_call2.v0 (.of main_v197 : TRef sig ⟨S7x4096, .i32⟩) main_call2.v1 select,
    TRef.unary (.of main_v195 : TRef sig ⟨S7x1, .i32⟩) main_call3.v0 (broadcastInDim S7x4096 ![0, 1] bcast_S7x1_S7x4096_0_1),
    TRef.ternary (.of main_v201 : TRef sig ⟨S7x4096, .i1⟩) main_call3.v0 (.of main_v198 : TRef sig ⟨S7x4096, .i32⟩) main_call3.v1 select ]

theorem segTail_split : (segTail : List (HloOp τ sig (Elt F))) = tA ++ (tB ++ (tC ++ (tD ++ tE))) := rfl

theorem tA_row0 (W : Valuation τ sig (Elt F)) : after tA W (main_v172 : DevRef τ sig) = rowOf (W (main_v39 : DevRef τ sig)) := by seg_results; rfl
theorem tA_row1 (W : Valuation τ sig (Elt F)) : after tA W (main_v173 : DevRef τ sig) = rowOf (W (main_v60 : DevRef τ sig)) := by seg_results; rfl
theorem tA_row2 (W : Valuation τ sig (Elt F)) : after tA W (main_v174 : DevRef τ sig) = rowOf (W (main_v81 : DevRef τ sig)) := by seg_results; rfl
theorem tA_row3 (W : Valuation τ sig (Elt F)) : after tA W (main_v175 : DevRef τ sig) = rowOf (W (main_v102 : DevRef τ sig)) := by seg_results; rfl
theorem tA_row4 (W : Valuation τ sig (Elt F)) : after tA W (main_v176 : DevRef τ sig) = rowOf (W (main_v123 : DevRef τ sig)) := by seg_results; rfl
theorem tA_row5 (W : Valuation τ sig (Elt F)) : after tA W (main_v177 : DevRef τ sig) = rowOf (W (main_v144 : DevRef τ sig)) := by seg_results; rfl
theorem tA_row6 (W : Valuation τ sig (Elt F)) : after tA W (main_v178 : DevRef τ sig) = rowOf (W (main_v165 : DevRef τ sig)) := by seg_results; rfl
theorem tA_keep0 (W : Valuation τ sig (Elt F)) : after tA W (main_v45 : DevRef τ sig) = W (main_v45 : DevRef τ sig) := by seg_results
theorem tA_keep1 (W : Valuation τ sig (Elt F)) : after tA W (main_v66 : DevRef τ sig) = W (main_v66 : DevRef τ sig) := by seg_results
theorem tA_keep2 (W : Valuation τ sig (Elt F)) : after tA W (main_v87 : DevRef τ sig) = W (main_v87 : DevRef τ sig) := by seg_results
theorem tA_keep3 (W : Valuation τ sig (Elt F)) : after tA W (main_v108 : DevRef τ sig) = W (main_v108 : DevRef τ sig) := by seg_results
theorem tA_keep4 (W : Valuation τ sig (Elt F)) : after tA W (main_v129 : DevRef τ sig) = W (main_v129 : DevRef τ sig) := by seg_results
theorem tA_keep5 (W : Valuation τ sig (Elt F)) : after tA W (main_v150 : DevRef τ sig) = W (main_v150 : DevRef τ sig) := by seg_results
theorem tA_keep6 (W : Valuation τ sig (Elt F)) : after tA W (main_v171 : DevRef τ sig) = W (main_v171 : DevRef τ sig) := by seg_results
theorem tB_stack (W : Valuation τ sig (Elt F)) : after tB W (main_v179 : DevRef τ sig)
    = concatenate S7x4096 0 [⟨S1x4096, W (main_v172 : DevRef τ sig)⟩, ⟨S1x4096, W (main_v173 : DevRef τ sig)⟩, ⟨S1x4096, W (main_v174 : DevRef τ sig)⟩, ⟨S1x4096, W (main_v175 : DevRef τ sig)⟩, ⟨S1x4096, W (main_v176 : DevRef τ sig)⟩, ⟨S1x4096, W (main_v177 : DevRef τ sig)⟩, ⟨S1x4096, W (main_v178 : DevRef τ sig)⟩] concatenates_S1x4096_S1x4096_S1x4096_S1x4096_S1x4096_S1x4096_S1x4096_S7x4096_d0 := by
  simp only [after_cons, after_nil]; rw [nary_result]; rfl
theorem tB_keep0 (W : Valuation τ sig (Elt F)) : after tB W (main_v45 : DevRef τ sig) = W (main_v45 : DevRef τ sig) := by seg_results
theorem tB_keep1 (W : Valuation τ sig (Elt F)) : after tB W (main_v66 : DevRef τ sig) = W (main_v66 : DevRef τ sig) := by seg_results
theorem tB_keep2 (W : Valuation τ sig (Elt F)) : after tB W (main_v87 : DevRef τ sig) = W (main_v87 : DevRef τ sig) := by seg_results
theorem tB_keep3 (W : Valuation τ sig (Elt F)) : after tB W (main_v108 : DevRef τ sig) = W (main_v108 : DevRef τ sig) := by seg_results
theorem tB_keep4 (W : Valuation τ sig (Elt F)) : after tB W (main_v129 : DevRef τ sig) = W (main_v129 : DevRef τ sig) := by seg_results
theorem tB_keep5 (W : Valuation τ sig (Elt F)) : after tB W (main_v150 : DevRef τ sig) = W (main_v150 : DevRef τ sig) := by seg_results
theorem tB_keep6 (W : Valuation τ sig (Elt F)) : after tB W (main_v171 : DevRef τ sig) = W (main_v171 : DevRef τ sig) := by seg_results
theorem tC_row0 (W : Valuation τ sig (Elt F)) : after tC W (main_v180 : DevRef τ sig) = rowOf (W (main_v45 : DevRef τ sig)) := by seg_results; rfl
theorem tC_row1 (W : Valuation τ sig (Elt F)) : after tC W (main_v181 : DevRef τ sig) = rowOf (W (main_v66 : DevRef τ sig)) := by seg_results; rfl
theorem tC_row2 (W : Valuation τ sig (Elt F)) : after tC W (main_v182 : DevRef τ sig) = rowOf (W (main_v87 : DevRef τ sig)) := by seg_results; rfl
theorem tC_row3 (W : Valuation τ sig (Elt F)) : after tC W (main_v183 : DevRef τ sig) = rowOf (W (main_v108 : DevRef τ sig)) := by seg_results; rfl
theorem tC_row4 (W : Valuation τ sig (Elt F)) : after tC W (main_v184 : DevRef τ sig) = rowOf (W (main_v129 : DevRef τ sig)) := by seg_results; rfl
theorem tC_row5 (W : Valuation τ sig (Elt F)) : after tC W (main_v185 : DevRef τ sig) = rowOf (W (main_v150 : DevRef τ sig)) := by seg_results; rfl
theorem tC_row6 (W : Valuation τ sig (Elt F)) : after tC W (main_v186 : DevRef τ sig) = rowOf (W (main_v171 : DevRef τ sig)) := by seg_results; rfl
theorem tC_keep (W : Valuation τ sig (Elt F)) : after tC W (main_v179 : DevRef τ sig) = W (main_v179 : DevRef τ sig) := by seg_results
theorem tD_stack (W : Valuation τ sig (Elt F)) : after tD W (main_v187 : DevRef τ sig)
    = concatenate S7x4096 0 [⟨S1x4096, W (main_v180 : DevRef τ sig)⟩, ⟨S1x4096, W (main_v181 : DevRef τ sig)⟩, ⟨S1x4096, W (main_v182 : DevRef τ sig)⟩, ⟨S1x4096, W (main_v183 : DevRef τ sig)⟩, ⟨S1x4096, W (main_v184 : DevRef τ sig)⟩, ⟨S1x4096, W (main_v185 : DevRef τ sig)⟩, ⟨S1x4096, W (main_v186 : DevRef τ sig)⟩] concatenates_S1x4096_S1x4096_S1x4096_S1x4096_S1x4096_S1x4096_S1x4096_S7x4096_d0 := by
  simp only [after_cons, after_nil]; rw [nary_result]; rfl
theorem tD_keep (W : Valuation τ sig (Elt F)) : after tD W (main_v179 : DevRef τ sig) = W (main_v179 : DevRef τ sig) := by seg_results
theorem tE_ma (W : Valuation τ sig (Elt F)) : after tE W (main_v202 : DevRef τ sig) = tailMaOf (W (main_v179 : DevRef τ sig)) (W (main_v187 : DevRef τ sig)) := by seg_results; rfl
theorem tE_mi (W : Valuation τ sig (Elt F)) : after tE W (main_v203 : DevRef τ sig) = tailMiOf (W (main_v179 : DevRef τ sig)) (W (main_v187 : DevRef τ sig)) := by seg_results; rfl

theorem tail_ma (W : Valuation τ sig (Elt F)) :
    after segTail W (main_v202 : DevRef τ sig)
      = tailMa (W (main_v39 : DevRef τ sig)) (W (main_v60 : DevRef τ sig)) (W (main_v81 : DevRef τ sig)) (W (main_v102 : DevRef τ sig)) (W (main_v123 : DevRef τ sig)) (W (main_v144 : DevRef τ sig)) (W (main_v165 : DevRef τ sig))
          (W (main_v45 : DevRef τ sig)) (W (main_v66 : DevRef τ sig)) (W (main_v87 : DevRef τ sig)) (W (main_v108 : DevRef τ sig)) (W (main_v129 : DevRef τ sig)) (W (main_v150 : DevRef τ sig)) (W (main_v171 : DevRef τ sig)) := by
  rw [segTail_split, Cert.LibAfter.after_append, Cert.LibAfter.after_append, Cert.LibAfter.after_append, Cert.LibAfter.after_append,
    tE_ma, tD_keep, tC_keep, tB_stack, tA_row0, tA_row1, tA_row2, tA_row3,
    tA_row4, tA_row5, tA_row6, tD_stack, tC_row0, tC_row1, tC_row2, tC_row3,
    tC_row4, tC_row5, tC_row6, tB_keep0, tB_keep1, tB_keep2, tB_keep3, tB_keep4,
    tB_keep5, tB_keep6, tA_keep0, tA_keep1, tA_keep2, tA_keep3, tA_keep4, tA_keep5,
    tA_keep6]
  rfl

theorem tail_mi (W : Valuation τ sig (Elt F)) :
    after segTail W (main_v203 : DevRef τ sig)
      = tailMi (W (main_v39 : DevRef τ sig)) (W (main_v60 : DevRef τ sig)) (W (main_v81 : DevRef τ sig)) (W (main_v102 : DevRef τ sig)) (W (main_v123 : DevRef τ sig)) (W (main_v144 : DevRef τ sig)) (W (main_v165 : DevRef τ sig))
          (W (main_v45 : DevRef τ sig)) (W (main_v66 : DevRef τ sig)) (W (main_v87 : DevRef τ sig)) (W (main_v108 : DevRef τ sig)) (W (main_v129 : DevRef τ sig)) (W (main_v150 : DevRef τ sig)) (W (main_v171 : DevRef τ sig)) := by
  rw [segTail_split, Cert.LibAfter.after_append, Cert.LibAfter.after_append, Cert.LibAfter.after_append, Cert.LibAfter.after_append,
    tE_mi, tD_keep, tC_keep, tB_stack, tA_row0, tA_row1, tA_row2, tA_row3,
    tA_row4, tA_row5, tA_row6, tD_stack, tC_row0, tC_row1, tC_row2, tC_row3,
    tC_row4, tC_row5, tC_row6, tB_keep0, tB_keep1, tB_keep2, tB_keep3, tB_keep4,
    tB_keep5, tB_keep6, tA_keep0, tA_keep1, tA_keep2, tA_keep3, tA_keep4, tA_keep5,
    tA_keep6]
  rfl

end Tail

/-! ## The segments joined -/

/-- What the groups' segments read of the pose segment: the pose, its minimum, its spread, and the seven index tables. -/
structure Base (W : Valuation τ sig (Elt F)) (p : FVec F S4096x128x17 .f32) (t d : FVec F S4096 .f32) : Prop where
  h21 : W (main_v21 : DevRef τ sig) = p
  h23 : W (main_v23 : DevRef τ sig) = t
  h24 : W (main_v24 : DevRef τ sig) = d
  c0 : W (main_c_0 : DevRef τ sig) = tbl0
  c1 : W (main_c_1 : DevRef τ sig) = tbl1
  c2 : W (main_c_2 : DevRef τ sig) = tbl2
  c3 : W (main_c_3 : DevRef τ sig) = tbl3
  c4 : W (main_c_4 : DevRef τ sig) = tbl4
  c5 : W (main_c_5 : DevRef τ sig) = tbl5
  c6 : W (main_c_6 : DevRef τ sig) = tbl6

/-- After the pose segment they are the staged functions of the input. -/
theorem base_pose (V : Valuation τ sig (Elt F)) :
    Base (after segPose V) (poseOf (V (main_arg0 : DevRef τ sig))) (topOf (poseOf (V (main_arg0 : DevRef τ sig))))
      (denomOf (poseOf (V (main_arg0 : DevRef τ sig)))) :=
  ⟨pose_v21 V, pose_v23 V, pose_v24 V, pose_c0 V, pose_c1 V, pose_c2 V, pose_c3 V, pose_c4 V, pose_c5 V, pose_c6 V⟩

/-- Group 0's segment writes none of them. -/
theorem Base.part0 {W : Valuation τ sig (Elt F)} {p : FVec F S4096x128x17 .f32} {t d : FVec F S4096 .f32}
    (h : Base W p t d) : Base (after segPart0 W) p t d :=
  ⟨(segPart0_keep (r := main_v21) W (by decide)).trans h.h21, (segPart0_keep (r := main_v23) W (by decide)).trans h.h23,
    (segPart0_keep (r := main_v24) W (by decide)).trans h.h24, (segPart0_keep (r := main_c_0) W (by decide)).trans h.c0,
    (segPart0_keep (r := main_c_1) W (by decide)).trans h.c1, (segPart0_keep (r := main_c_2) W (by decide)).trans h.c2,
    (segPart0_keep (r := main_c_3) W (by decide)).trans h.c3, (segPart0_keep (r := main_c_4) W (by decide)).trans h.c4,
    (segPart0_keep (r := main_c_5) W (by decide)).trans h.c5, (segPart0_keep (r := main_c_6) W (by decide)).trans h.c6⟩
/-- Group 0's two bounds, from them. -/
theorem Base.ma0 {W : Valuation τ sig (Elt F)} {p : FVec F S4096x128x17 .f32} {t d : FVec F S4096 .f32}
    (h : Base W p t d) : after segPart0 W (main_v39 : DevRef τ sig) = maOf_0 p t d := by
  rw [part0_ma, h.c0, h.h21, h.h23, h.h24]; rfl
theorem Base.mi0 {W : Valuation τ sig (Elt F)} {p : FVec F S4096x128x17 .f32} {t d : FVec F S4096 .f32}
    (h : Base W p t d) : after segPart0 W (main_v45 : DevRef τ sig) = miOf_0 p t d := by
  rw [part0_mi, h.c0, h.h21, h.h23, h.h24]; rfl

/-- Group 1's segment writes none of them. -/
theorem Base.part1 {W : Valuation τ sig (Elt F)} {p : FVec F S4096x128x17 .f32} {t d : FVec F S4096 .f32}
    (h : Base W p t d) : Base (after segPart1 W) p t d :=
  ⟨(segPart1_keep (r := main_v21) W (by decide)).trans h.h21, (segPart1_keep (r := main_v23) W (by decide)).trans h.h23,
    (segPart1_keep (r := main_v24) W (by decide)).trans h.h24, (segPart1_keep (r := main_c_0) W (by decide)).trans h.c0,
    (segPart1_keep (r := main_c_1) W (by decide)).trans h.c1, (segPart1_keep (r := main_c_2) W (by decide)).trans h.c2,
    (segPart1_keep (r := main_c_3) W (by decide)).trans h.c3, (segPart1_keep (r := main_c_4) W (by decide)).trans h.c4,
    (segPart1_keep (r := main_c_5) W (by decide)).trans h.c5, (segPart1_keep (r := main_c_6) W (by decide)).trans h.c6⟩
/-- Group 1's two bounds, from them. -/
theorem Base.ma1 {W : Valuation τ sig (Elt F)} {p : FVec F S4096x128x17 .f32} {t d : FVec F S4096 .f32}
    (h : Base W p t d) : after segPart1 W (main_v60 : DevRef τ sig) = maOf_1 p t d := by
  rw [part1_ma, h.c1, h.h21, h.h23, h.h24]; rfl
theorem Base.mi1 {W : Valuation τ sig (Elt F)} {p : FVec F S4096x128x17 .f32} {t d : FVec F S4096 .f32}
    (h : Base W p t d) : after segPart1 W (main_v66 : DevRef τ sig) = miOf_1 p t d := by
  rw [part1_mi, h.c1, h.h21, h.h23, h.h24]; rfl

/-- Group 2's segment writes none of them. -/
theorem Base.part2 {W : Valuation τ sig (Elt F)} {p : FVec F S4096x128x17 .f32} {t d : FVec F S4096 .f32}
    (h : Base W p t d) : Base (after segPart2 W) p t d :=
  ⟨(segPart2_keep (r := main_v21) W (by decide)).trans h.h21, (segPart2_keep (r := main_v23) W (by decide)).trans h.h23,
    (segPart2_keep (r := main_v24) W (by decide)).trans h.h24, (segPart2_keep (r := main_c_0) W (by decide)).trans h.c0,
    (segPart2_keep (r := main_c_1) W (by decide)).trans h.c1, (segPart2_keep (r := main_c_2) W (by decide)).trans h.c2,
    (segPart2_keep (r := main_c_3) W (by decide)).trans h.c3, (segPart2_keep (r := main_c_4) W (by decide)).trans h.c4,
    (segPart2_keep (r := main_c_5) W (by decide)).trans h.c5, (segPart2_keep (r := main_c_6) W (by decide)).trans h.c6⟩
/-- Group 2's two bounds, from them. -/
theorem Base.ma2 {W : Valuation τ sig (Elt F)} {p : FVec F S4096x128x17 .f32} {t d : FVec F S4096 .f32}
    (h : Base W p t d) : after segPart2 W (main_v81 : DevRef τ sig) = maOf_2 p t d := by
  rw [part2_ma, h.c2, h.h21, h.h23, h.h24]; rfl
theorem Base.mi2 {W : Valuation τ sig (Elt F)} {p : FVec F S4096x128x17 .f32} {t d : FVec F S4096 .f32}
    (h : Base W p t d) : after segPart2 W (main_v87 : DevRef τ sig) = miOf_2 p t d := by
  rw [part2_mi, h.c2, h.h21, h.h23, h.h24]; rfl

/-- Group 3's segment writes none of them. -/
theorem Base.part3 {W : Valuation τ sig (Elt F)} {p : FVec F S4096x128x17 .f32} {t d : FVec F S4096 .f32}
    (h : Base W p t d) : Base (after segPart3 W) p t d :=
  ⟨(segPart3_keep (r := main_v21) W (by decide)).trans h.h21, (segPart3_keep (r := main_v23) W (by decide)).trans h.h23,
    (segPart3_keep (r := main_v24) W (by decide)).trans h.h24, (segPart3_keep (r := main_c_0) W (by decide)).trans h.c0,
    (segPart3_keep (r := main_c_1) W (by decide)).trans h.c1, (segPart3_keep (r := main_c_2) W (by decide)).trans h.c2,
    (segPart3_keep (r := main_c_3) W (by decide)).trans h.c3, (segPart3_keep (r := main_c_4) W (by decide)).trans h.c4,
    (segPart3_keep (r := main_c_5) W (by decide)).trans h.c5, (segPart3_keep (r := main_c_6) W (by decide)).trans h.c6⟩
/-- Group 3's two bounds, from them. -/
theorem Base.ma3 {W : Valuation τ sig (Elt F)} {p : FVec F S4096x128x17 .f32} {t d : FVec F S4096 .f32}
    (h : Base W p t d) : after segPart3 W (main_v102 : DevRef τ sig) = maOf_3 p t d := by
  rw [part3_ma, h.c3, h.h21, h.h23, h.h24]; rfl
theorem Base.mi3 {W : Valuation τ sig (Elt F)} {p : FVec F S4096x128x17 .f32} {t d : FVec F S4096 .f32}
    (h : Base W p t d) : after segPart3 W (main_v108 : DevRef τ sig) = miOf_3 p t d := by
  rw [part3_mi, h.c3, h.h21, h.h23, h.h24]; rfl

/-- Group 4's segment writes none of them. -/
theorem Base.part4 {W : Valuation τ sig (Elt F)} {p : FVec F S4096x128x17 .f32} {t d : FVec F S4096 .f32}
    (h : Base W p t d) : Base (after segPart4 W) p t d :=
  ⟨(segPart4_keep (r := main_v21) W (by decide)).trans h.h21, (segPart4_keep (r := main_v23) W (by decide)).trans h.h23,
    (segPart4_keep (r := main_v24) W (by decide)).trans h.h24, (segPart4_keep (r := main_c_0) W (by decide)).trans h.c0,
    (segPart4_keep (r := main_c_1) W (by decide)).trans h.c1, (segPart4_keep (r := main_c_2) W (by decide)).trans h.c2,
    (segPart4_keep (r := main_c_3) W (by decide)).trans h.c3, (segPart4_keep (r := main_c_4) W (by decide)).trans h.c4,
    (segPart4_keep (r := main_c_5) W (by decide)).trans h.c5, (segPart4_keep (r := main_c_6) W (by decide)).trans h.c6⟩
/-- Group 4's two bounds, from them. -/
theorem Base.ma4 {W : Valuation τ sig (Elt F)} {p : FVec F S4096x128x17 .f32} {t d : FVec F S4096 .f32}
    (h : Base W p t d) : after segPart4 W (main_v123 : DevRef τ sig) = maOf_4 p t d := by
  rw [part4_ma, h.c4, h.h21, h.h23, h.h24]; rfl
theorem Base.mi4 {W : Valuation τ sig (Elt F)} {p : FVec F S4096x128x17 .f32} {t d : FVec F S4096 .f32}
    (h : Base W p t d) : after segPart4 W (main_v129 : DevRef τ sig) = miOf_4 p t d := by
  rw [part4_mi, h.c4, h.h21, h.h23, h.h24]; rfl

/-- Group 5's segment writes none of them. -/
theorem Base.part5 {W : Valuation τ sig (Elt F)} {p : FVec F S4096x128x17 .f32} {t d : FVec F S4096 .f32}
    (h : Base W p t d) : Base (after segPart5 W) p t d :=
  ⟨(segPart5_keep (r := main_v21) W (by decide)).trans h.h21, (segPart5_keep (r := main_v23) W (by decide)).trans h.h23,
    (segPart5_keep (r := main_v24) W (by decide)).trans h.h24, (segPart5_keep (r := main_c_0) W (by decide)).trans h.c0,
    (segPart5_keep (r := main_c_1) W (by decide)).trans h.c1, (segPart5_keep (r := main_c_2) W (by decide)).trans h.c2,
    (segPart5_keep (r := main_c_3) W (by decide)).trans h.c3, (segPart5_keep (r := main_c_4) W (by decide)).trans h.c4,
    (segPart5_keep (r := main_c_5) W (by decide)).trans h.c5, (segPart5_keep (r := main_c_6) W (by decide)).trans h.c6⟩
/-- Group 5's two bounds, from them. -/
theorem Base.ma5 {W : Valuation τ sig (Elt F)} {p : FVec F S4096x128x17 .f32} {t d : FVec F S4096 .f32}
    (h : Base W p t d) : after segPart5 W (main_v144 : DevRef τ sig) = maOf_5 p t d := by
  rw [part5_ma, h.c5, h.h21, h.h23, h.h24]; rfl
theorem Base.mi5 {W : Valuation τ sig (Elt F)} {p : FVec F S4096x128x17 .f32} {t d : FVec F S4096 .f32}
    (h : Base W p t d) : after segPart5 W (main_v150 : DevRef τ sig) = miOf_5 p t d := by
  rw [part5_mi, h.c5, h.h21, h.h23, h.h24]; rfl

/-- Group 6's segment writes none of them. -/
theorem Base.part6 {W : Valuation τ sig (Elt F)} {p : FVec F S4096x128x17 .f32} {t d : FVec F S4096 .f32}
    (h : Base W p t d) : Base (after segPart6 W) p t d :=
  ⟨(segPart6_keep (r := main_v21) W (by decide)).trans h.h21, (segPart6_keep (r := main_v23) W (by decide)).trans h.h23,
    (segPart6_keep (r := main_v24) W (by decide)).trans h.h24, (segPart6_keep (r := main_c_0) W (by decide)).trans h.c0,
    (segPart6_keep (r := main_c_1) W (by decide)).trans h.c1, (segPart6_keep (r := main_c_2) W (by decide)).trans h.c2,
    (segPart6_keep (r := main_c_3) W (by decide)).trans h.c3, (segPart6_keep (r := main_c_4) W (by decide)).trans h.c4,
    (segPart6_keep (r := main_c_5) W (by decide)).trans h.c5, (segPart6_keep (r := main_c_6) W (by decide)).trans h.c6⟩
/-- Group 6's two bounds, from them. -/
theorem Base.ma6 {W : Valuation τ sig (Elt F)} {p : FVec F S4096x128x17 .f32} {t d : FVec F S4096 .f32}
    (h : Base W p t d) : after segPart6 W (main_v165 : DevRef τ sig) = maOf_6 p t d := by
  rw [part6_ma, h.c6, h.h21, h.h23, h.h24]; rfl
theorem Base.mi6 {W : Valuation τ sig (Elt F)} {p : FVec F S4096x128x17 .f32} {t d : FVec F S4096 .f32}
    (h : Base W p t d) : after segPart6 W (main_v171 : DevRef τ sig) = miOf_6 p t d := by
  rw [part6_mi, h.c6, h.h21, h.h23, h.h24]; rfl

/-- The line run segment by segment. -/
theorem after_ops (V : Valuation τ sig (Elt F)) :
    after ops V = after segTail (after segPart6 (after segPart5 (after segPart4 (after segPart3 (after segPart2 (after segPart1 (after segPart0 (after segPose V)))))))) := by
  simp only [ops, Cert.LibAfter.after_append]

/-- The first result after the whole line, as the staged functions of the input. -/
theorem out_ma (V : Valuation τ sig (Elt F)) :
    after ops V (main_v202 : DevRef τ sig)
      = tailMa (maOf_0 (poseOf (V (main_arg0 : DevRef τ sig))) (topOf (poseOf (V (main_arg0 : DevRef τ sig)))) (denomOf (poseOf (V (main_arg0 : DevRef τ sig)))))
          (maOf_1 (poseOf (V (main_arg0 : DevRef τ sig))) (topOf (poseOf (V (main_arg0 : DevRef τ sig)))) (denomOf (poseOf (V (main_arg0 : DevRef τ sig)))))
          (maOf_2 (poseOf (V (main_arg0 : DevRef τ sig))) (topOf (poseOf (V (main_arg0 : DevRef τ sig)))) (denomOf (poseOf (V (main_arg0 : DevRef τ sig)))))
          (maOf_3 (poseOf (V (main_arg0 : DevRef τ sig))) (topOf (poseOf (V (main_arg0 : DevRef τ sig)))) (denomOf (poseOf (V (main_arg0 : DevRef τ sig)))))
          (maOf_4 (poseOf (V (main_arg0 : DevRef τ sig))) (topOf (poseOf (V (main_arg0 : DevRef τ sig)))) (denomOf (poseOf (V (main_arg0 : DevRef τ sig)))))
          (maOf_5 (poseOf (V (main_arg0 : DevRef τ sig))) (topOf (poseOf (V (main_arg0 : DevRef τ sig)))) (denomOf (poseOf (V (main_arg0 : DevRef τ sig)))))
          (maOf_6 (poseOf (V (main_arg0 : DevRef τ sig))) (topOf (poseOf (V (main_arg0 : DevRef τ sig)))) (denomOf (poseOf (V (main_arg0 : DevRef τ sig)))))
          (miOf_0 (poseOf (V (main_arg0 : DevRef τ sig))) (topOf (poseOf (V (main_arg0 : DevRef τ sig)))) (denomOf (poseOf (V (main_arg0 : DevRef τ sig)))))
          (miOf_1 (poseOf (V (main_arg0 : DevRef τ sig))) (topOf (poseOf (V (main_arg0 : DevRef τ sig)))) (denomOf (poseOf (V (main_arg0 : DevRef τ sig)))))
          (miOf_2 (poseOf (V (main_arg0 : DevRef τ sig))) (topOf (poseOf (V (main_arg0 : DevRef τ sig)))) (denomOf (poseOf (V (main_arg0 : DevRef τ sig)))))
          (miOf_3 (poseOf (V (main_arg0 : DevRef τ sig))) (topOf (poseOf (V (main_arg0 : DevRef τ sig)))) (denomOf (poseOf (V (main_arg0 : DevRef τ sig)))))
          (miOf_4 (poseOf (V (main_arg0 : DevRef τ sig))) (topOf (poseOf (V (main_arg0 : DevRef τ sig)))) (denomOf (poseOf (V (main_arg0 : DevRef τ sig)))))
          (miOf_5 (poseOf (V (main_arg0 : DevRef τ sig))) (topOf (poseOf (V (main_arg0 : DevRef τ sig)))) (denomOf (poseOf (V (main_arg0 : DevRef τ sig)))))
          (miOf_6 (poseOf (V (main_arg0 : DevRef τ sig))) (topOf (poseOf (V (main_arg0 : DevRef τ sig)))) (denomOf (poseOf (V (main_arg0 : DevRef τ sig))))) := by
  have h0 := base_pose V
  have h1 := h0.part0
  have h2 := h1.part1
  have h3 := h2.part2
  have h4 := h3.part3
  have h5 := h4.part4
  have h6 := h5.part5
  rw [after_ops, tail_ma,
    ((segPart6_keep (r := main_v39) _ (by decide)).trans ((segPart5_keep (r := main_v39) _ (by decide)).trans ((segPart4_keep (r := main_v39) _ (by decide)).trans ((segPart3_keep (r := main_v39) _ (by decide)).trans ((segPart2_keep (r := main_v39) _ (by decide)).trans ((segPart1_keep (r := main_v39) _ (by decide)).trans (h0.ma0))))))),
    ((segPart6_keep (r := main_v60) _ (by decide)).trans ((segPart5_keep (r := main_v60) _ (by decide)).trans ((segPart4_keep (r := main_v60) _ (by decide)).trans ((segPart3_keep (r := main_v60) _ (by decide)).trans ((segPart2_keep (r := main_v60) _ (by decide)).trans (h1.ma1)))))),
    ((segPart6_keep (r := main_v81) _ (by decide)).trans ((segPart5_keep (r := main_v81) _ (by decide)).trans ((segPart4_keep (r := main_v81) _ (by decide)).trans ((segPart3_keep (r := main_v81) _ (by decide)).trans (h2.ma2))))),
    ((segPart6_keep (r := main_v102) _ (by decide)).trans ((segPart5_keep (r := main_v102) _ (by decide)).trans ((segPart4_keep (r := main_v102) _ (by decide)).trans (h3.ma3)))),
    ((segPart6_keep (r := main_v123) _ (by decide)).trans ((segPart5_keep (r := main_v123) _ (by decide)).trans (h4.ma4))),
    ((segPart6_keep (r := main_v144) _ (by decide)).trans (h5.ma5)),
    (h6.ma6),
    ((segPart6_keep (r := main_v45) _ (by decide)).trans ((segPart5_keep (r := main_v45) _ (by decide)).trans ((segPart4_keep (r := main_v45) _ (by decide)).trans ((segPart3_keep (r := main_v45) _ (by decide)).trans ((segPart2_keep (r := main_v45) _ (by decide)).trans ((segPart1_keep (r := main_v45) _ (by decide)).trans (h0.mi0))))))),
    ((segPart6_keep (r := main_v66) _ (by decide)).trans ((segPart5_keep (r := main_v66) _ (by decide)).trans ((segPart4_keep (r := main_v66) _ (by decide)).trans ((segPart3_keep (r := main_v66) _ (by decide)).trans ((segPart2_keep (r := main_v66) _ (by decide)).trans (h1.mi1)))))),
    ((segPart6_keep (r := main_v87) _ (by decide)).trans ((segPart5_keep (r := main_v87) _ (by decide)).trans ((segPart4_keep (r := main_v87) _ (by decide)).trans ((segPart3_keep (r := main_v87) _ (by decide)).trans (h2.mi2))))),
    ((segPart6_keep (r := main_v108) _ (by decide)).trans ((segPart5_keep (r := main_v108) _ (by decide)).trans ((segPart4_keep (r := main_v108) _ (by decide)).trans (h3.mi3)))),
    ((segPart6_keep (r := main_v129) _ (by decide)).trans ((segPart5_keep (r := main_v129) _ (by decide)).trans (h4.mi4))),
    ((segPart6_keep (r := main_v150) _ (by decide)).trans (h5.mi5)),
    (h6.mi6)]

/-- The second result after the whole line, as the staged functions of the input. -/
theorem out_mi (V : Valuation τ sig (Elt F)) :
    after ops V (main_v203 : DevRef τ sig)
      = tailMi (maOf_0 (poseOf (V (main_arg0 : DevRef τ sig))) (topOf (poseOf (V (main_arg0 : DevRef τ sig)))) (denomOf (poseOf (V (main_arg0 : DevRef τ sig)))))
          (maOf_1 (poseOf (V (main_arg0 : DevRef τ sig))) (topOf (poseOf (V (main_arg0 : DevRef τ sig)))) (denomOf (poseOf (V (main_arg0 : DevRef τ sig)))))
          (maOf_2 (poseOf (V (main_arg0 : DevRef τ sig))) (topOf (poseOf (V (main_arg0 : DevRef τ sig)))) (denomOf (poseOf (V (main_arg0 : DevRef τ sig)))))
          (maOf_3 (poseOf (V (main_arg0 : DevRef τ sig))) (topOf (poseOf (V (main_arg0 : DevRef τ sig)))) (denomOf (poseOf (V (main_arg0 : DevRef τ sig)))))
          (maOf_4 (poseOf (V (main_arg0 : DevRef τ sig))) (topOf (poseOf (V (main_arg0 : DevRef τ sig)))) (denomOf (poseOf (V (main_arg0 : DevRef τ sig)))))
          (maOf_5 (poseOf (V (main_arg0 : DevRef τ sig))) (topOf (poseOf (V (main_arg0 : DevRef τ sig)))) (denomOf (poseOf (V (main_arg0 : DevRef τ sig)))))
          (maOf_6 (poseOf (V (main_arg0 : DevRef τ sig))) (topOf (poseOf (V (main_arg0 : DevRef τ sig)))) (denomOf (poseOf (V (main_arg0 : DevRef τ sig)))))
          (miOf_0 (poseOf (V (main_arg0 : DevRef τ sig))) (topOf (poseOf (V (main_arg0 : DevRef τ sig)))) (denomOf (poseOf (V (main_arg0 : DevRef τ sig)))))
          (miOf_1 (poseOf (V (main_arg0 : DevRef τ sig))) (topOf (poseOf (V (main_arg0 : DevRef τ sig)))) (denomOf (poseOf (V (main_arg0 : DevRef τ sig)))))
          (miOf_2 (poseOf (V (main_arg0 : DevRef τ sig))) (topOf (poseOf (V (main_arg0 : DevRef τ sig)))) (denomOf (poseOf (V (main_arg0 : DevRef τ sig)))))
          (miOf_3 (poseOf (V (main_arg0 : DevRef τ sig))) (topOf (poseOf (V (main_arg0 : DevRef τ sig)))) (denomOf (poseOf (V (main_arg0 : DevRef τ sig)))))
          (miOf_4 (poseOf (V (main_arg0 : DevRef τ sig))) (topOf (poseOf (V (main_arg0 : DevRef τ sig)))) (denomOf (poseOf (V (main_arg0 : DevRef τ sig)))))
          (miOf_5 (poseOf (V (main_arg0 : DevRef τ sig))) (topOf (poseOf (V (main_arg0 : DevRef τ sig)))) (denomOf (poseOf (V (main_arg0 : DevRef τ sig)))))
          (miOf_6 (poseOf (V (main_arg0 : DevRef τ sig))) (topOf (poseOf (V (main_arg0 : DevRef τ sig)))) (denomOf (poseOf (V (main_arg0 : DevRef τ sig))))) := by
  have h0 := base_pose V
  have h1 := h0.part0
  have h2 := h1.part1
  have h3 := h2.part2
  have h4 := h3.part3
  have h5 := h4.part4
  have h6 := h5.part5
  rw [after_ops, tail_mi,
    ((segPart6_keep (r := main_v39) _ (by decide)).trans ((segPart5_keep (r := main_v39) _ (by decide)).trans ((segPart4_keep (r := main_v39) _ (by decide)).trans ((segPart3_keep (r := main_v39) _ (by decide)).trans ((segPart2_keep (r := main_v39) _ (by decide)).trans ((segPart1_keep (r := main_v39) _ (by decide)).trans (h0.ma0))))))),
    ((segPart6_keep (r := main_v60) _ (by decide)).trans ((segPart5_keep (r := main_v60) _ (by decide)).trans ((segPart4_keep (r := main_v60) _ (by decide)).trans ((segPart3_keep (r := main_v60) _ (by decide)).trans ((segPart2_keep (r := main_v60) _ (by decide)).trans (h1.ma1)))))),
    ((segPart6_keep (r := main_v81) _ (by decide)).trans ((segPart5_keep (r := main_v81) _ (by decide)).trans ((segPart4_keep (r := main_v81) _ (by decide)).trans ((segPart3_keep (r := main_v81) _ (by decide)).trans (h2.ma2))))),
    ((segPart6_keep (r := main_v102) _ (by decide)).trans ((segPart5_keep (r := main_v102) _ (by decide)).trans ((segPart4_keep (r := main_v102) _ (by decide)).trans (h3.ma3)))),
    ((segPart6_keep (r := main_v123) _ (by decide)).trans ((segPart5_keep (r := main_v123) _ (by decide)).trans (h4.ma4))),
    ((segPart6_keep (r := main_v144) _ (by decide)).trans (h5.ma5)),
    (h6.ma6),
    ((segPart6_keep (r := main_v45) _ (by decide)).trans ((segPart5_keep (r := main_v45) _ (by decide)).trans ((segPart4_keep (r := main_v45) _ (by decide)).trans ((segPart3_keep (r := main_v45) _ (by decide)).trans ((segPart2_keep (r := main_v45) _ (by decide)).trans ((segPart1_keep (r := main_v45) _ (by decide)).trans (h0.mi0))))))),
    ((segPart6_keep (r := main_v66) _ (by decide)).trans ((segPart5_keep (r := main_v66) _ (by decide)).trans ((segPart4_keep (r := main_v66) _ (by decide)).trans ((segPart3_keep (r := main_v66) _ (by decide)).trans ((segPart2_keep (r := main_v66) _ (by decide)).trans (h1.mi1)))))),
    ((segPart6_keep (r := main_v87) _ (by decide)).trans ((segPart5_keep (r := main_v87) _ (by decide)).trans ((segPart4_keep (r := main_v87) _ (by decide)).trans ((segPart3_keep (r := main_v87) _ (by decide)).trans (h2.mi2))))),
    ((segPart6_keep (r := main_v108) _ (by decide)).trans ((segPart5_keep (r := main_v108) _ (by decide)).trans ((segPart4_keep (r := main_v108) _ (by decide)).trans (h3.mi3)))),
    ((segPart6_keep (r := main_v129) _ (by decide)).trans ((segPart5_keep (r := main_v129) _ (by decide)).trans (h4.mi4))),
    ((segPart6_keep (r := main_v150) _ (by decide)).trans (h5.mi5)),
    (h6.mi6)]

/-- No operation of the line writes the input. -/
theorem arg_kept (V : Valuation τ sig (Elt F)) :
    after ops V (main_arg0 : DevRef τ sig) = V (main_arg0 : DevRef τ sig) := by
  rw [after_ops, segTail_keep (r := main_arg0) _ (by decide), segPart6_keep (r := main_arg0) _ (by decide),
    segPart5_keep (r := main_arg0) _ (by decide),
    segPart4_keep (r := main_arg0) _ (by decide),
    segPart3_keep (r := main_arg0) _ (by decide),
    segPart2_keep (r := main_arg0) _ (by decide),
    segPart1_keep (r := main_arg0) _ (by decide),
    segPart0_keep (r := main_arg0) _ (by decide),
    segPose_keep (r := main_arg0) _ (by decide)]

end Cert.ReferenceIdeal.RefRun

end
-- ==== Proof.RefGather.lean ====
/-
  The reference's column selections read at an index: the columns of an array at one of the program's constant index
  tables are the contiguous keypoints of a part (the table [5, 6] that of the shoulders).
-/
import proofs.«130793_j65274912965111_1_alg».proof.Proof.RefStages
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx

theorem cols2_tblScale (p : FVec Ideal S4096x128x17 .f32) (n : Fin 4096) (s : Fin 128) (j : Fin 2) :
    cols2 p tblScale (ix3 n s j) = p (ix3 n s ⟨5 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols5_tbl0 (p : FVec Ideal S4096x128x17 .f32) (n : Fin 4096) (s : Fin 128) (j : Fin 5) :
    cols5 p tbl0 (ix3 n s j) = p (ix3 n s ⟨0 + j.val, by have := j.isLt; omega⟩) := by
  unfold cols5 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols2_tbl1 (p : FVec Ideal S4096x128x17 .f32) (n : Fin 4096) (s : Fin 128) (j : Fin 2) :
    cols2 p tbl1 (ix3 n s j) = p (ix3 n s ⟨5 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols2_tbl2 (p : FVec Ideal S4096x128x17 .f32) (n : Fin 4096) (s : Fin 128) (j : Fin 2) :
    cols2 p tbl2 (ix3 n s j) = p (ix3 n s ⟨7 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols2_tbl3 (p : FVec Ideal S4096x128x17 .f32) (n : Fin 4096) (s : Fin 128) (j : Fin 2) :
    cols2 p tbl3 (ix3 n s j) = p (ix3 n s ⟨9 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols2_tbl4 (p : FVec Ideal S4096x128x17 .f32) (n : Fin 4096) (s : Fin 128) (j : Fin 2) :
    cols2 p tbl4 (ix3 n s j) = p (ix3 n s ⟨11 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols2_tbl5 (p : FVec Ideal S4096x128x17 .f32) (n : Fin 4096) (s : Fin 128) (j : Fin 2) :
    cols2 p tbl5 (ix3 n s j) = p (ix3 n s ⟨13 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

theorem cols2_tbl6 (p : FVec Ideal S4096x128x17 .f32) (n : Fin 4096) (s : Fin 128) (j : Fin 2) :
    cols2 p tbl6 (ix3 n s j) = p (ix3 n s ⟨15 + j.val, by have := j.isLt; omega⟩) := by
  unfold cols2 Host.gather
  refine congrArg p ?_
  funext a; refine Fin.ext ?_
  match a with
  | ⟨0, _⟩ => show 0 + 0 + n.val = n.val; omega
  | ⟨1, _⟩ => show 0 + 0 + s.val = s.val; omega
  | ⟨2, _⟩ => fin_cases j <;> rfl

end Cert.ReferenceIdeal.RefValue

end
-- ==== Proof.RLayout.lean ====
/-
  The host program's layout operations read at an index: a frame-wise scalar repeated over the keypoints, an array
  [N, S] seen as [N, S, 1], a vector as the one row of a table, a column repeated along the rows of a table, a vector as
  a column, the middle channel of the argument, and seven rows stacked.
-/
import Idealize.ShloMosaic.PureOps.Ideal
import Idealize.ShloMosaic.Lib.ValueIdx
import Idealize.ShloMosaic.Lib.Pipeline.Value

noncomputable section

namespace Cert.Pose.HostLayout

open Idealize.ShloMosaic Idealize.ShloMosaic.ValueIdx

variable {α : Type} {N S V C K : Nat}

/-- A frame-wise scalar [N, S, 1] repeated over the keypoints. -/
theorem bcastKp (x : (⟨3, ![N, S, 1]⟩ : Shape).Idx → α)
    (h : (⟨3, ![N, S, 1]⟩ : Shape).BroadcastsInDim ⟨3, ![N, S, V]⟩ ![0, 1, 2]) (n : Fin N) (s : Fin S) (v : Fin V)
    (hN : N ≠ 1) (hS : S ≠ 1) :
    broadcastInDim ⟨3, ![N, S, V]⟩ ![0, 1, 2] h x (ix3 n s v) = x (ix3 n s 0) :=
  broadcastInDim_apply _ h x _ _ (fun a => by
    match a with
    | ⟨0, _⟩ => show n.val = if N = 1 then 0 else n.val; rw [if_neg hN]
    | ⟨1, _⟩ => show s.val = if S = 1 then 0 else s.val; rw [if_neg hS]
    | ⟨2, _⟩ => rfl)

/-- An array [N, S] seen as [N, S, 1]. -/
theorem bcastUnit (x : (⟨2, ![N, S]⟩ : Shape).Idx → α)
    (h : (⟨2, ![N, S]⟩ : Shape).BroadcastsInDim ⟨3, ![N, S, 1]⟩ ![0, 1]) (n : Fin N) (s : Fin S) (hN : N ≠ 1) (hS : S ≠ 1) :
    broadcastInDim ⟨3, ![N, S, 1]⟩ ![0, 1] h x (ix3 n s 0) = x (ix2 n s) :=
  broadcastInDim_apply _ h x _ _ (fun a => by
    match a with
    | ⟨0, _⟩ => show n.val = if N = 1 then 0 else n.val; rw [if_neg hN]
    | ⟨1, _⟩ => show s.val = if S = 1 then 0 else s.val; rw [if_neg hS])

/-- A vector [C] as the one row of a table [1, C]. -/
theorem bcastRow (x : (⟨1, ![C]⟩ : Shape).Idx → α)
    (h : (⟨1, ![C]⟩ : Shape).BroadcastsInDim ⟨2, ![1, C]⟩ ![1]) (n : Fin C) (hC : C ≠ 1) :
    broadcastInDim ⟨2, ![1, C]⟩ ![1] h x (ix2 0 n) = x (ix1 n) :=
  broadcastInDim_apply _ h x _ _ (fun a => by
    match a with
    | ⟨0, _⟩ => show n.val = if C = 1 then 0 else n.val; rw [if_neg hC])

/-- A column [K, 1] repeated along the rows of a table [K, C]. -/
theorem bcastCol (x : (⟨2, ![K, 1]⟩ : Shape).Idx → α)
    (h : (⟨2, ![K, 1]⟩ : Shape).BroadcastsInDim ⟨2, ![K, C]⟩ ![0, 1]) (k : Fin K) (n : Fin C) (hK : K ≠ 1) :
    broadcastInDim ⟨2, ![K, C]⟩ ![0, 1] h x (ix2 k n) = x (ix2 k 0) :=
  broadcastInDim_apply _ h x _ _ (fun a => by
    match a with
    | ⟨0, _⟩ => show k.val = if K = 1 then 0 else k.val; rw [if_neg hK]
    | ⟨1, _⟩ => rfl)

/-- A vector [K] as a column [K, 1]. -/
theorem bcastVec (x : (⟨1, ![K]⟩ : Shape).Idx → α)
    (h : (⟨1, ![K]⟩ : Shape).BroadcastsInDim ⟨2, ![K, 1]⟩ ![0]) (k : Fin K) (hK : K ≠ 1) :
    broadcastInDim ⟨2, ![K, 1]⟩ ![0] h x (ix2 k 0) = x (ix1 k) :=
  broadcastInDim_apply _ h x _ _ (fun a => by
    match a with
    | ⟨0, _⟩ => show k.val = if K = 1 then 0 else k.val; rw [if_neg hK])

/-- Channel 1 of an array [N, 3, S, V], as [N, S, V]. -/
theorem midChannel (x : (⟨4, ![N, 3, S, V]⟩ : Shape).Idx → α)
    (hs : (⟨4, ![N, 3, S, V]⟩ : Shape).Slices ![0, 1, 0, 0] ⟨4, ![N, 1, S, V]⟩)
    (hc : (⟨4, ![N, 1, S, V]⟩ : Shape).ShapeCasts ⟨3, ![N, S, V]⟩) (n : Fin N) (s : Fin S) (v : Fin V) :
    shapeCast ⟨3, ![N, S, V]⟩ (extractStridedSlice ⟨4, ![N, 1, S, V]⟩ ![0, 1, 0, 0] x hs) hc (ix3 n s v) = x (ix4 n 1 s v) :=
  (shapeCast_apply _ hc _ (ix4 n 0 s v) (by
    rw [Shape.rowMajor_val_four, Shape.rowMajor_val_three]
    show ((n.val * 1 + 0) * S + s.val) * V + v.val = (n.val * S + s.val) * V + v.val
    rw [Nat.mul_one, Nat.add_zero])).trans
  (extractStridedSlice_apply _ x hs _ _ (fun a => by
    match a with
    | ⟨0, _⟩ => show n.val = 0 + n.val; omega
    | ⟨1, _⟩ => rfl
    | ⟨2, _⟩ => show s.val = 0 + s.val; omega
    | ⟨3, _⟩ => show v.val = 0 + v.val; omega))

/-- Seven rows as a list of pieces. -/
abbrev rows7 (p0 p1 p2 p3 p4 p5 p6 : (⟨2, ![1, C]⟩ : Shape).Idx → α) : List ((s : Shape) × (s.Idx → α)) :=
  [⟨⟨2, ![1, C]⟩, p0⟩, ⟨⟨2, ![1, C]⟩, p1⟩, ⟨⟨2, ![1, C]⟩, p2⟩, ⟨⟨2, ![1, C]⟩, p3⟩, ⟨⟨2, ![1, C]⟩, p4⟩, ⟨⟨2, ![1, C]⟩, p5⟩, ⟨⟨2, ![1, C]⟩, p6⟩]

/-- Seven rows stacked, read at (k, n): row k at (0, n). -/
theorem cat7rows (p0 p1 p2 p3 p4 p5 p6 : (⟨2, ![1, C]⟩ : Shape).Idx → α)
    (h : Shape.Concatenates ((rows7 p0 p1 p2 p3 p4 p5 p6).map (·.1)) ⟨2, ![7, C]⟩ 0)
    (k : Fin 7) (n : Fin C) :
    concatenate ⟨2, ![7, C]⟩ 0 (rows7 p0 p1 p2 p3 p4 p5 p6) h (ix2 k n) = (![p0, p1, p2, p3, p4, p5, p6] k) (ix2 0 n) := by
  have key : ∀ (m : Nat) (hm : m < 7) (q : (⟨2, ![1, C]⟩ : Shape).Idx → α),
      (rows7 p0 p1 p2 p3 p4 p5 p6)[m]'(by simpa using hm) = ⟨⟨2, ![1, C]⟩, q⟩ →
      concatenate ⟨2, ![7, C]⟩ 0 (rows7 p0 p1 p2 p3 p4 p5 p6) h (ix2 ⟨m, hm⟩ n) = q (ix2 0 n) := by
    intro m hm q hq
    refine concatenate_apply_piece 0 (rows7 p0 p1 p2 p3 p4 p5 p6) h _ m (by simpa using hm) _ q hq rfl m ?_ (ix2 0 n) (fun b hb => ?_) ?_
    · interval_cases m <;> rfl
    · match b with
      | ⟨0, _⟩ => exact absurd rfl hb
      | ⟨1, _⟩ => rfl
    · show m + 0 = m; rfl
  fin_cases k
  · exact key 0 (by decide) p0 rfl
  · exact key 1 (by decide) p1 rfl
  · exact key 2 (by decide) p2 rfl
  · exact key 3 (by decide) p3 rfl
  · exact key 4 (by decide) p4 rfl
  · exact key 5 (by decide) p5 rfl
  · exact key 6 (by decide) p6 rfl

end Cert.Pose.HostLayout

end
-- ==== Proof.RefValue.lean ====
/-
  The reference's stages read at an index, for sample n of the argument: its pose array at (n, s, v) is the pose of the
  sample; its minimum and spread over the two trailing axes are the sample's top and bottom − top; each part's two
  integer bounds are the sample's; and the two closing tables at (k, n) hold the corrected pair of part k.
-/
import proofs.«130793_j65274912965111_1_alg».proof.Proof.RefGather
import proofs.«130793_j65274912965111_1_alg».proof.Proof.Spec
import proofs.«130793_j65274912965111_1_alg».proof.Proof.LibMinMax
import proofs.«130793_j65274912965111_1_alg».proof.Proof.KLayout
import proofs.«130793_j65274912965111_1_alg».proof.Proof.RLayout
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx
open Cert.Pose Cert.Pose.MinMax Cert.Pose.Layout Cert.Pose.HostLayout

/-- The last axis of [4096, 128, 2] and of [4096, 128, 17] reduces away. -/
theorem red2 : Shape.Reduces S4096x128x2 [2] S4096x128 := by decide
theorem red17 : Shape.Reduces S4096x128x17 [2] S4096x128 := by decide

/-! ## The pose -/

section Pose
variable (n : Fin 4096)

theorem midOf_apply (x : (⟨S4096x3x128x17, .f32⟩ : BufTy).Contents (Elt Ideal)) (s : Fin 128) (v : Fin 17) :
    midOf x (ix3 n s v) = x (ix4 n 1 s v) :=
  midChannel x _ _ n s v

theorem relOf_apply (a : FVec Ideal S4096x128x17 .f32) (f : Sample) (ha : ∀ s v, a (ix3 n s v) = f s v) (s : Fin 128) (v : Fin 17) :
    relOf a (ix3 n s v) = f s v - f s 0 := by
  unfold relOf
  rw [subf_apply, ha, bcastKp _ _ n s v (by decide) (by decide), sliceKp _ 0 _ n s 0 (by decide), ha]
  rfl

theorem halfOf_apply (r : FVec Ideal S4096x128x17 .f32) (f : Sample) (hr : ∀ s v, r (ix3 n s v) = f s v) (s : Fin 128) :
    halfOf r tblScale (ix3 n s 0) = Ideal.div (f s 5 + f s 6) two := by
  unfold halfOf
  rw [hostDivf_apply, bcastUnit _ _ n s (by decide) (by decide)]
  refine congrArg₂ Ideal.div ?_ rfl
  refine (hostSum_last2 _ _ _ red2 n s).trans ?_
  rw [cols2_tblScale, cols2_tblScale, hr, hr]
  show Ideal.ofBits .f32 0x00000000#32 + (f s 5 + f s 6) = _
  rw [Ideal.ofBits_zero_f32, zero_add]

theorem unitOf_apply (r : FVec Ideal S4096x128x17 .f32) (f : Sample) (hr : ∀ s v, r (ix3 n s v) = f s v) (s : Fin 128) (v : Fin 17) :
    unitOf r tblScale (ix3 n s v) = Ideal.div (f s v) (Ideal.div (f s 5 + f s 6) two) := by
  unfold unitOf
  rw [hostDivf_apply, hr, bcastKp _ _ n s v (by decide) (by decide), halfOf_apply n r f hr]

theorem shiftOf_apply (u : FVec Ideal S4096x128x17 .f32) (g : Sample) (hu : ∀ s v, u (ix3 n s v) = g s v) (s : Fin 128) (v : Fin 17) :
    shiftOf u (ix3 n s v) = g s v - ⨅ v' : Fin 17, g s v' := by
  unfold shiftOf
  rw [subf_apply, hu, bcastKp _ _ n s v (by decide) (by decide), bcastUnit _ _ n s (by decide) (by decide)]
  exact congrArg (g s v - ·) ((hostMin_last u _ _ red17 _ posInf n s).trans (iInf_congr fun v' => hu s v'))

/-- THE POSE ARRAY at (n, s, v). -/
theorem poseOf_apply (x : (⟨S4096x3x128x17, .f32⟩ : BufTy).Contents (Elt Ideal)) (s : Fin 128) (v : Fin 17) :
    poseOf x (ix3 n s v) = pose (sampleOf x n) s v := by
  unfold poseOf poseAt
  rw [shiftOf_apply n _ (aligned (sampleOf x n)) (fun s v => ?_)]
  · rfl
  · rw [unitOf_apply n _ (cen (sampleOf x n)) (fun s v => ?_)]
    · rfl
    · rw [relOf_apply n _ (sampleOf x n) (fun s v => midOf_apply n x s v)]
      rfl

end Pose

/-! ## Top, spread and the parts' bounds -/

/-- The scaled, rounded and converted vectors, entry by entry. -/
theorem upOf_apply (h t d : FVec Ideal S4096 .f32) (i : S4096.Idx) :
    upOf h t d i = Ideal.fptosi 32 (Ideal.liftRound Int.ceil (scaled (h i) (t i) (d i))) := rfl
theorem downOf_apply (h t d : FVec Ideal S4096 .f32) (i : S4096.Idx) :
    downOf h t d i = Ideal.fptosi 32 (Ideal.liftRound Int.floor (scaled (h i) (t i) (d i))) := rfl

/-- The reductions over the two trailing axes, at sample n. -/
theorem hi5_apply (c : FVec Ideal S4096x128x5 .f32) (n : Fin 4096) : hi5 c (ix1 n) = ⨆ s : Fin 128, ⨆ j : Fin 5, c (ix3 n s j) := by
  unfold hi5; exact hostMax_tail2 _ _ _ _ negInf n
theorem lo5_apply (c : FVec Ideal S4096x128x5 .f32) (n : Fin 4096) : lo5 c (ix1 n) = ⨅ s : Fin 128, ⨅ j : Fin 5, c (ix3 n s j) := by
  unfold lo5; exact hostMin_tail2 _ _ _ _ posInf n
theorem hi2_apply (c : FVec Ideal S4096x128x2 .f32) (n : Fin 4096) : hi2 c (ix1 n) = ⨆ s : Fin 128, ⨆ j : Fin 2, c (ix3 n s j) := by
  unfold hi2; exact hostMax_tail2 _ _ _ _ negInf n
theorem lo2_apply (c : FVec Ideal S4096x128x2 .f32) (n : Fin 4096) : lo2 c (ix1 n) = ⨅ s : Fin 128, ⨅ j : Fin 2, c (ix3 n s j) := by
  unfold lo2; exact hostMin_tail2 _ _ _ _ posInf n
theorem topOf_raw (p : FVec Ideal S4096x128x17 .f32) (n : Fin 4096) : topOf p (ix1 n) = ⨅ s : Fin 128, ⨅ v : Fin 17, p (ix3 n s v) := by
  unfold topOf; exact hostMin_tail2 _ _ _ _ posInf n
theorem bottomOf_raw (p : FVec Ideal S4096x128x17 .f32) (n : Fin 4096) : bottomOf p (ix1 n) = ⨆ s : Fin 128, ⨆ v : Fin 17, p (ix3 n s v) := by
  unfold bottomOf; exact hostMax_tail2 _ _ _ _ negInf n

section Parts
variable (n : Fin 4096) (p : FVec Ideal S4096x128x17 .f32) (f : Sample) (hp : ∀ s v, p (ix3 n s v) = f s v)
include hp

theorem topOf_apply : topOf p (ix1 n) = top f :=
  (topOf_raw p n).trans (iInf_congr fun s => iInf_congr fun v => hp s v)

theorem bottomOf_apply : bottomOf p (ix1 n) = bottom f :=
  (bottomOf_raw p n).trans (iSup_congr fun s => iSup_congr fun v => hp s v)

theorem denomOf_apply : denomOf p (ix1 n) = bottom f - top f := by
  unfold denomOf
  rw [subf_apply, bottomOf_apply n p f hp, topOf_apply n p f hp]

variable (tp dn : FVec Ideal S4096 .f32) (ht : tp (ix1 n) = top f) (hd : dn (ix1 n) = bottom f - top f)
include ht hd

theorem ma_0 : maOf_0 p tp dn (ix1 n) = maRaw f 0 := by
  unfold maOf_0 maAt5
  rw [upOf_apply, hi5_apply, ht, hd]
  refine congrArg (fun a => Ideal.fptosi 32 (Ideal.liftRound Int.ceil (scaled a (top f) (bottom f - top f)))) ?_
  exact iSup_congr fun s => iSup_congr fun j => (cols5_tbl0 p n s j).trans (hp s _)

theorem mi_0 : miOf_0 p tp dn (ix1 n) = miRaw f 0 := by
  unfold miOf_0 miAt5
  rw [downOf_apply, lo5_apply, ht, hd]
  refine congrArg (fun a => Ideal.fptosi 32 (Ideal.liftRound Int.floor (scaled a (top f) (bottom f - top f)))) ?_
  exact iInf_congr fun s => iInf_congr fun j => (cols5_tbl0 p n s j).trans (hp s _)

theorem ma_1 : maOf_1 p tp dn (ix1 n) = maRaw f 1 := by
  unfold maOf_1 maAt2
  rw [upOf_apply, hi2_apply, ht, hd]
  refine congrArg (fun a => Ideal.fptosi 32 (Ideal.liftRound Int.ceil (scaled a (top f) (bottom f - top f)))) ?_
  exact iSup_congr fun s => iSup_congr fun j => (cols2_tbl1 p n s j).trans (hp s _)

theorem mi_1 : miOf_1 p tp dn (ix1 n) = miRaw f 1 := by
  unfold miOf_1 miAt2
  rw [downOf_apply, lo2_apply, ht, hd]
  refine congrArg (fun a => Ideal.fptosi 32 (Ideal.liftRound Int.floor (scaled a (top f) (bottom f - top f)))) ?_
  exact iInf_congr fun s => iInf_congr fun j => (cols2_tbl1 p n s j).trans (hp s _)

theorem ma_2 : maOf_2 p tp dn (ix1 n) = maRaw f 2 := by
  unfold maOf_2 maAt2
  rw [upOf_apply, hi2_apply, ht, hd]
  refine congrArg (fun a => Ideal.fptosi 32 (Ideal.liftRound Int.ceil (scaled a (top f) (bottom f - top f)))) ?_
  exact iSup_congr fun s => iSup_congr fun j => (cols2_tbl2 p n s j).trans (hp s _)

theorem mi_2 : miOf_2 p tp dn (ix1 n) = miRaw f 2 := by
  unfold miOf_2 miAt2
  rw [downOf_apply, lo2_apply, ht, hd]
  refine congrArg (fun a => Ideal.fptosi 32 (Ideal.liftRound Int.floor (scaled a (top f) (bottom f - top f)))) ?_
  exact iInf_congr fun s => iInf_congr fun j => (cols2_tbl2 p n s j).trans (hp s _)

theorem ma_3 : maOf_3 p tp dn (ix1 n) = maRaw f 3 := by
  unfold maOf_3 maAt2
  rw [upOf_apply, hi2_apply, ht, hd]
  refine congrArg (fun a => Ideal.fptosi 32 (Ideal.liftRound Int.ceil (scaled a (top f) (bottom f - top f)))) ?_
  exact iSup_congr fun s => iSup_congr fun j => (cols2_tbl3 p n s j).trans (hp s _)

theorem mi_3 : miOf_3 p tp dn (ix1 n) = miRaw f 3 := by
  unfold miOf_3 miAt2
  rw [downOf_apply, lo2_apply, ht, hd]
  refine congrArg (fun a => Ideal.fptosi 32 (Ideal.liftRound Int.floor (scaled a (top f) (bottom f - top f)))) ?_
  exact iInf_congr fun s => iInf_congr fun j => (cols2_tbl3 p n s j).trans (hp s _)

theorem ma_4 : maOf_4 p tp dn (ix1 n) = maRaw f 4 := by
  unfold maOf_4 maAt2
  rw [upOf_apply, hi2_apply, ht, hd]
  refine congrArg (fun a => Ideal.fptosi 32 (Ideal.liftRound Int.ceil (scaled a (top f) (bottom f - top f)))) ?_
  exact iSup_congr fun s => iSup_congr fun j => (cols2_tbl4 p n s j).trans (hp s _)

theorem mi_4 : miOf_4 p tp dn (ix1 n) = miRaw f 4 := by
  unfold miOf_4 miAt2
  rw [downOf_apply, lo2_apply, ht, hd]
  refine congrArg (fun a => Ideal.fptosi 32 (Ideal.liftRound Int.floor (scaled a (top f) (bottom f - top f)))) ?_
  exact iInf_congr fun s => iInf_congr fun j => (cols2_tbl4 p n s j).trans (hp s _)

theorem ma_5 : maOf_5 p tp dn (ix1 n) = maRaw f 5 := by
  unfold maOf_5 maAt2
  rw [upOf_apply, hi2_apply, ht, hd]
  refine congrArg (fun a => Ideal.fptosi 32 (Ideal.liftRound Int.ceil (scaled a (top f) (bottom f - top f)))) ?_
  exact iSup_congr fun s => iSup_congr fun j => (cols2_tbl5 p n s j).trans (hp s _)

theorem mi_5 : miOf_5 p tp dn (ix1 n) = miRaw f 5 := by
  unfold miOf_5 miAt2
  rw [downOf_apply, lo2_apply, ht, hd]
  refine congrArg (fun a => Ideal.fptosi 32 (Ideal.liftRound Int.floor (scaled a (top f) (bottom f - top f)))) ?_
  exact iInf_congr fun s => iInf_congr fun j => (cols2_tbl5 p n s j).trans (hp s _)

theorem ma_6 : maOf_6 p tp dn (ix1 n) = maRaw f 6 := by
  unfold maOf_6 maAt2
  rw [upOf_apply, hi2_apply, ht, hd]
  refine congrArg (fun a => Ideal.fptosi 32 (Ideal.liftRound Int.ceil (scaled a (top f) (bottom f - top f)))) ?_
  exact iSup_congr fun s => iSup_congr fun j => (cols2_tbl6 p n s j).trans (hp s _)

theorem mi_6 : miOf_6 p tp dn (ix1 n) = miRaw f 6 := by
  unfold miOf_6 miAt2
  rw [downOf_apply, lo2_apply, ht, hd]
  refine congrArg (fun a => Ideal.fptosi 32 (Ideal.liftRound Int.floor (scaled a (top f) (bottom f - top f)))) ?_
  exact iInf_congr fun s => iInf_congr fun j => (cols2_tbl6 p n s j).trans (hp s _)

end Parts

end Cert.ReferenceIdeal.RefValue

end
-- ==== Proof.RefTail.lean ====
/-
  The reference's two closing tables read at (k, n): row k of the stacked bounds is part k's vector, the column of
  fixed words at row k is the fixed pair of part k, and the two selections are the two corrections; so the tables hold
  the specification's corrected pair of part k of sample n.
-/
import proofs.«130793_j65274912965111_1_alg».proof.Proof.RefValue

noncomputable section

namespace Cert.ReferenceIdeal.RefValue

open Cert.ReferenceIdeal Cert.ReferenceIdeal.Gen Cert.ReferenceIdeal.RefRun Idealize.ShloMosaic Idealize.ShloMosaic.ValueIdx
open Cert.Pose Cert.Pose.MinMax Cert.Pose.Layout Cert.Pose.HostLayout

theorem rowNo_apply (k : Fin 7) : rowNo (ix2 k 0) = BitVec.ofNat 32 k.val := by
  unfold rowNo
  rw [bcastVec _ _ k (by decide)]
  rfl

theorem hiCol_apply (k : Fin 7) : hiCol (ix2 k 0) = hiW (BitVec.ofNat 32 k.val) := by
  show IntOp.muli (IntOp.addi (rowNo (ix2 k 0)) 1#32) 9#32 = _
  rw [rowNo_apply]; rfl

theorem loCol_apply (k : Fin 7) : loCol (ix2 k 0) = loW (BitVec.ofNat 32 k.val) := by
  show IntOp.muli (rowNo (ix2 k 0)) 9#32 = _
  rw [rowNo_apply]; rfl

theorem whereOf_apply (c : IVec S7x4096 1) (col : IVec S7x1 32) (t : IVec S7x4096 32) (k : Fin 7) (n : Fin 4096) :
    whereOf c col t (ix2 k n) = Scalar.select (c (ix2 k n)) (col (ix2 k 0)) (t (ix2 k n)) := by
  show Scalar.select (c (ix2 k n)) (broadcastInDim S7x4096 ![0, 1] _ col (ix2 k n)) (t (ix2 k n)) = _
  rw [bcastCol _ _ k n (by decide)]

section
variable (A B : IVec S7x4096 32) (k : Fin 7) (n : Fin 4096)

theorem hiTab_apply : hiTab A B (ix2 k n)
    = Scalar.select (IntOp.cmpi .sle (A (ix2 k n)) (B (ix2 k n))) (hiW (BitVec.ofNat 32 k.val)) (A (ix2 k n)) := by
  unfold hiTab; rw [whereOf_apply, hiCol_apply]; rfl

theorem loTab_apply : loTab A B (ix2 k n)
    = Scalar.select (IntOp.cmpi .sle (A (ix2 k n)) (B (ix2 k n))) (loW (BitVec.ofNat 32 k.val)) (B (ix2 k n)) := by
  unfold loTab; rw [whereOf_apply, loCol_apply]; rfl

theorem tailMaOf_apply : tailMaOf A B (ix2 k n) = fixMa (BitVec.ofNat 32 k.val) (A (ix2 k n)) (B (ix2 k n)) := by
  unfold tailMaOf; rw [whereOf_apply, hiCol_apply]
  show Scalar.select (IntOp.cmpi .sgt (IntOp.subi (hiTab A B (ix2 k n)) (loTab A B (ix2 k n))) 30#32) _ (hiTab A B (ix2 k n)) = _
  rw [hiTab_apply, loTab_apply]; rfl

theorem tailMiOf_apply : tailMiOf A B (ix2 k n) = fixMi (BitVec.ofNat 32 k.val) (A (ix2 k n)) (B (ix2 k n)) := by
  unfold tailMiOf; rw [whereOf_apply, loCol_apply]
  show Scalar.select (IntOp.cmpi .sgt (IntOp.subi (hiTab A B (ix2 k n)) (loTab A B (ix2 k n))) 30#32) _ (loTab A B (ix2 k n)) = _
  rw [hiTab_apply, loTab_apply]; rfl

end

theorem stackOf_apply (a0 a1 a2 a3 a4 a5 a6 : IVec S4096 32) (k : Fin 7) (n : Fin 4096) :
    stackOf a0 a1 a2 a3 a4 a5 a6 (ix2 k n) = (![a0, a1, a2, a3, a4, a5, a6] k) (ix1 n) := by
  unfold stackOf
  refine (cat7rows _ _ _ _ _ _ _ _ k n).trans ?_
  fin_cases k <;> exact bcastRow _ bcast_S4096_S1x4096_1 n (by decide)

/-- THE FIRST RESULT of the reference at (k, n). -/
theorem refMa_apply (x : (⟨S4096x3x128x17, .f32⟩ : BufTy).Contents (Elt Ideal)) (k : Fin 7) (n : Fin 4096) :
    tailMa (maOf_0 (poseOf x) (topOf (poseOf x)) (denomOf (poseOf x))) (maOf_1 (poseOf x) (topOf (poseOf x)) (denomOf (poseOf x)))
      (maOf_2 (poseOf x) (topOf (poseOf x)) (denomOf (poseOf x))) (maOf_3 (poseOf x) (topOf (poseOf x)) (denomOf (poseOf x)))
      (maOf_4 (poseOf x) (topOf (poseOf x)) (denomOf (poseOf x))) (maOf_5 (poseOf x) (topOf (poseOf x)) (denomOf (poseOf x)))
      (maOf_6 (poseOf x) (topOf (poseOf x)) (denomOf (poseOf x)))
      (miOf_0 (poseOf x) (topOf (poseOf x)) (denomOf (poseOf x))) (miOf_1 (poseOf x) (topOf (poseOf x)) (denomOf (poseOf x)))
      (miOf_2 (poseOf x) (topOf (poseOf x)) (denomOf (poseOf x))) (miOf_3 (poseOf x) (topOf (poseOf x)) (denomOf (poseOf x)))
      (miOf_4 (poseOf x) (topOf (poseOf x)) (denomOf (poseOf x))) (miOf_5 (poseOf x) (topOf (poseOf x)) (denomOf (poseOf x)))
      (miOf_6 (poseOf x) (topOf (poseOf x)) (denomOf (poseOf x))) (ix2 k n)
    = outMa (sampleOf x n) k := by
  unfold tailMa
  rw [tailMaOf_apply, stackOf_apply, stackOf_apply]
  fin_cases k
  · show fixMa _ (maOf_0 (poseOf x) (topOf (poseOf x)) (denomOf (poseOf x)) (ix1 n)) (miOf_0 (poseOf x) (topOf (poseOf x)) (denomOf (poseOf x)) (ix1 n)) = _
    rw [ma_0 n _ _ (poseOf_apply n x) _ _ (topOf_apply n _ _ (poseOf_apply n x)) (denomOf_apply n _ _ (poseOf_apply n x)),
      mi_0 n _ _ (poseOf_apply n x) _ _ (topOf_apply n _ _ (poseOf_apply n x)) (denomOf_apply n _ _ (poseOf_apply n x))]
    rfl
  · show fixMa _ (maOf_1 (poseOf x) (topOf (poseOf x)) (denomOf (poseOf x)) (ix1 n)) (miOf_1 (poseOf x) (topOf (poseOf x)) (denomOf (poseOf x)) (ix1 n)) = _
    rw [ma_1 n _ _ (poseOf_apply n x) _ _ (topOf_apply n _ _ (poseOf_apply n x)) (denomOf_apply n _ _ (poseOf_apply n x)),
      mi_1 n _ _ (poseOf_apply n x) _ _ (topOf_apply n _ _ (poseOf_apply n x)) (denomOf_apply n _ _ (poseOf_apply n x))]
    rfl
  · show fixMa _ (maOf_2 (poseOf x) (topOf (poseOf x)) (denomOf (poseOf x)) (ix1 n)) (miOf_2 (poseOf x) (topOf (poseOf x)) (denomOf (poseOf x)) (ix1 n)) = _
    rw [ma_2 n _ _ (poseOf_apply n x) _ _ (topOf_apply n _ _ (poseOf_apply n x)) (denomOf_apply n _ _ (poseOf_apply n x)),
      mi_2 n _ _ (poseOf_apply n x) _ _ (topOf_apply n _ _ (poseOf_apply n x)) (denomOf_apply n _ _ (poseOf_apply n x))]
    rfl
  · show fixMa _ (maOf_3 (poseOf x) (topOf (poseOf x)) (denomOf (poseOf x)) (ix1 n)) (miOf_3 (poseOf x) (topOf (poseOf x)) (denomOf (poseOf x)) (ix1 n)) = _
    rw [ma_3 n _ _ (poseOf_apply n x) _ _ (topOf_apply n _ _ (poseOf_apply n x)) (denomOf_apply n _ _ (poseOf_apply n x)),
      mi_3 n _ _ (poseOf_apply n x) _ _ (topOf_apply n _ _ (poseOf_apply n x)) (denomOf_apply n _ _ (poseOf_apply n x))]
    rfl
  · show fixMa _ (maOf_4 (poseOf x) (topOf (poseOf x)) (denomOf (poseOf x)) (ix1 n)) (miOf_4 (poseOf x) (topOf (poseOf x)) (denomOf (poseOf x)) (ix1 n)) = _
    rw [ma_4 n _ _ (poseOf_apply n x) _ _ (topOf_apply n _ _ (poseOf_apply n x)) (denomOf_apply n _ _ (poseOf_apply n x)),
      mi_4 n _ _ (poseOf_apply n x) _ _ (topOf_apply n _ _ (poseOf_apply n x)) (denomOf_apply n _ _ (poseOf_apply n x))]
    rfl
  · show fixMa _ (maOf_5 (poseOf x) (topOf (poseOf x)) (denomOf (poseOf x)) (ix1 n)) (miOf_5 (poseOf x) (topOf (poseOf x)) (denomOf (poseOf x)) (ix1 n)) = _
    rw [ma_5 n _ _ (poseOf_apply n x) _ _ (topOf_apply n _ _ (poseOf_apply n x)) (denomOf_apply n _ _ (poseOf_apply n x)),
      mi_5 n _ _ (poseOf_apply n x) _ _ (topOf_apply n _ _ (poseOf_apply n x)) (denomOf_apply n _ _ (poseOf_apply n x))]
    rfl
  · show fixMa _ (maOf_6 (poseOf x) (topOf (poseOf x)) (denomOf (poseOf x)) (ix1 n)) (miOf_6 (poseOf x) (topOf (poseOf x)) (denomOf (poseOf x)) (ix1 n)) = _
    rw [ma_6 n _ _ (poseOf_apply n x) _ _ (topOf_apply n _ _ (poseOf_apply n x)) (denomOf_apply n _ _ (poseOf_apply n x)),
      mi_6 n _ _ (poseOf_apply n x) _ _ (topOf_apply n _ _ (poseOf_apply n x)) (denomOf_apply n _ _ (poseOf_apply n x))]
    rfl

/-- THE SECOND RESULT of the reference at (k, n). -/
theorem refMi_apply (x : (⟨S4096x3x128x17, .f32⟩ : BufTy).Contents (Elt Ideal)) (k : Fin 7) (n : Fin 4096) :
    tailMi (maOf_0 (poseOf x) (topOf (poseOf x)) (denomOf (poseOf x))) (maOf_1 (poseOf x) (topOf (poseOf x)) (denomOf (poseOf x)))
      (maOf_2 (poseOf x) (topOf (poseOf x)) (denomOf (poseOf x))) (maOf_3 (poseOf x) (topOf (poseOf x)) (denomOf (poseOf x)))
      (maOf_4 (poseOf x) (topOf (poseOf x)) (denomOf (poseOf x))) (maOf_5 (poseOf x) (topOf (poseOf x)) (denomOf (poseOf x)))
      (maOf_6 (poseOf x) (topOf (poseOf x)) (denomOf (poseOf x)))
      (miOf_0 (poseOf x) (topOf (poseOf x)) (denomOf (poseOf x))) (miOf_1 (poseOf x) (topOf (poseOf x)) (denomOf (poseOf x)))
      (miOf_2 (poseOf x) (topOf (poseOf x)) (denomOf (poseOf x))) (miOf_3 (poseOf x) (topOf (poseOf x)) (denomOf (poseOf x)))
      (miOf_4 (poseOf x) (topOf (poseOf x)) (denomOf (poseOf x))) (miOf_5 (poseOf x) (topOf (poseOf x)) (denomOf (poseOf x)))
      (miOf_6 (poseOf x) (topOf (poseOf x)) (denomOf (poseOf x))) (ix2 k n)
    = outMi (sampleOf x n) k := by
  unfold tailMi
  rw [tailMiOf_apply, stackOf_apply, stackOf_apply]
  fin_cases k
  · show fixMi _ (maOf_0 (poseOf x) (topOf (poseOf x)) (denomOf (poseOf x)) (ix1 n)) (miOf_0 (poseOf x) (topOf (poseOf x)) (denomOf (poseOf x)) (ix1 n)) = _
    rw [ma_0 n _ _ (poseOf_apply n x) _ _ (topOf_apply n _ _ (poseOf_apply n x)) (denomOf_apply n _ _ (poseOf_apply n x)),
      mi_0 n _ _ (poseOf_apply n x) _ _ (topOf_apply n _ _ (poseOf_apply n x)) (denomOf_apply n _ _ (poseOf_apply n x))]
    rfl
  · show fixMi _ (maOf_1 (poseOf x) (topOf (poseOf x)) (denomOf (poseOf x)) (ix1 n)) (miOf_1 (poseOf x) (topOf (poseOf x)) (denomOf (poseOf x)) (ix1 n)) = _
    rw [ma_1 n _ _ (poseOf_apply n x) _ _ (topOf_apply n _ _ (poseOf_apply n x)) (denomOf_apply n _ _ (poseOf_apply n x)),
      mi_1 n _ _ (poseOf_apply n x) _ _ (topOf_apply n _ _ (poseOf_apply n x)) (denomOf_apply n _ _ (poseOf_apply n x))]
    rfl
  · show fixMi _ (maOf_2 (poseOf x) (topOf (poseOf x)) (denomOf (poseOf x)) (ix1 n)) (miOf_2 (poseOf x) (topOf (poseOf x)) (denomOf (poseOf x)) (ix1 n)) = _
    rw [ma_2 n _ _ (poseOf_apply n x) _ _ (topOf_apply n _ _ (poseOf_apply n x)) (denomOf_apply n _ _ (poseOf_apply n x)),
      mi_2 n _ _ (poseOf_apply n x) _ _ (topOf_apply n _ _ (poseOf_apply n x)) (denomOf_apply n _ _ (poseOf_apply n x))]
    rfl
  · show fixMi _ (maOf_3 (poseOf x) (topOf (poseOf x)) (denomOf (poseOf x)) (ix1 n)) (miOf_3 (poseOf x) (topOf (poseOf x)) (denomOf (poseOf x)) (ix1 n)) = _
    rw [ma_3 n _ _ (poseOf_apply n x) _ _ (topOf_apply n _ _ (poseOf_apply n x)) (denomOf_apply n _ _ (poseOf_apply n x)),
      mi_3 n _ _ (poseOf_apply n x) _ _ (topOf_apply n _ _ (poseOf_apply n x)) (denomOf_apply n _ _ (poseOf_apply n x))]
    rfl
  · show fixMi _ (maOf_4 (poseOf x) (topOf (poseOf x)) (denomOf (poseOf x)) (ix1 n)) (miOf_4 (poseOf x) (topOf (poseOf x)) (denomOf (poseOf x)) (ix1 n)) = _
    rw [ma_4 n _ _ (poseOf_apply n x) _ _ (topOf_apply n _ _ (poseOf_apply n x)) (denomOf_apply n _ _ (poseOf_apply n x)),
      mi_4 n _ _ (poseOf_apply n x) _ _ (topOf_apply n _ _ (poseOf_apply n x)) (denomOf_apply n _ _ (poseOf_apply n x))]
    rfl
  · show fixMi _ (maOf_5 (poseOf x) (topOf (poseOf x)) (denomOf (poseOf x)) (ix1 n)) (miOf_5 (poseOf x) (topOf (poseOf x)) (denomOf (poseOf x)) (ix1 n)) = _
    rw [ma_5 n _ _ (poseOf_apply n x) _ _ (topOf_apply n _ _ (poseOf_apply n x)) (denomOf_apply n _ _ (poseOf_apply n x)),
      mi_5 n _ _ (poseOf_apply n x) _ _ (topOf_apply n _ _ (poseOf_apply n x)) (denomOf_apply n _ _ (poseOf_apply n x))]
    rfl
  · show fixMi _ (maOf_6 (poseOf x) (topOf (poseOf x)) (denomOf (poseOf x)) (ix1 n)) (miOf_6 (poseOf x) (topOf (poseOf x)) (denomOf (poseOf x)) (ix1 n)) = _
    rw [ma_6 n _ _ (poseOf_apply n x) _ _ (topOf_apply n _ _ (poseOf_apply n x)) (denomOf_apply n _ _ (poseOf_apply n x)),
      mi_6 n _ _ (poseOf_apply n x) _ _ (topOf_apply n _ _ (poseOf_apply n x)) (denomOf_apply n _ _ (poseOf_apply n x))]
    rfl

end Cert.ReferenceIdeal.RefValue

end
-- ==== Proof.lean ====
/-
  The two programs compute, for every sample n of the argument (its y-channel: 128 frames × 17 keypoints) and every
  one of seven contiguous groups of keypoints, a pair of integers: the sample's pose is each frame centred on keypoint 0,
  divided by the mean of the two shoulder keypoints and shifted by the frame's minimum; a group's largest and smallest
  pose value are placed between the sample's overall minimum and maximum on the scale 0 … 64, rounded up and down, and
  corrected twice against a fixed pair. The kernel takes 64 samples per grid point, reduces each group first along the
  keypoints, then along the frames, obtains the overall minimum and maximum from the groups' (which partition the
  keypoints), and its results are transposed afterwards; the reference selects each group's columns by an index table,
  reduces over frames and keypoints at once, and stacks the seven rows. On the extended reals a maximum (minimum) taken
  in stages or at once is the same supremum (infimum), and every other operation is the same on both sides, so both
  programs end with the specification's value at every (group, sample) — with no appeal to finiteness of the input.
  The three frames: the kernel's two are its frame runs, the reference's is its run with the results dropped; the
  idealization rewrote nothing, so there is nothing to preserve.
-/
import proofs.«130793_j65274912965111_1_alg».proof.Defs
import proofs.«130793_j65274912965111_1_alg».proof.Proof.Gen.Kernel
import proofs.«130793_j65274912965111_1_alg».proof.Proof.Gen.Kernel.Frame
import proofs.«130793_j65274912965111_1_alg».proof.Proof.Gen.KernelIdeal
import proofs.«130793_j65274912965111_1_alg».proof.Proof.Gen.KernelIdeal.Frame
import proofs.«130793_j65274912965111_1_alg».proof.Proof.Gen.ReferenceIdeal
import proofs.«130793_j65274912965111_1_alg».proof.Proof.Gen.Pre_finite_inputs
import proofs.«130793_j65274912965111_1_alg».proof.Proof.KOut
import proofs.«130793_j65274912965111_1_alg».proof.Proof.KRun
import proofs.«130793_j65274912965111_1_alg».proof.Proof.RefRun
import proofs.«130793_j65274912965111_1_alg».proof.Proof.RefOut
import proofs.«130793_j65274912965111_1_alg».proof.Proof.RefTail
import Idealize.ShloMosaic.Adequacy
import Idealize.ShloMosaic.Init

noncomputable section

namespace Cert.Proof

open Idealize.ShloMosaic Idealize.SL.Sem Idealize.ShloMosaic.TcCoe Idealize.ShloMosaic.ValueIdx Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's run leaves its argument as it was. -/
theorem frame_ri : Cert.frame_ReferenceIdeal := fun m ρ _ =>
  (θ_run Cert.ReferenceIdeal.defs _ _).mono
    (fun _ h c => (h c Cert.ReferenceIdeal.main_arg0).trans (Cert.ReferenceIdeal.RefRun.arg_kept _))
    (Cert.ReferenceIdeal.RefRun.run_main (F := Ideal) m ρ)

theorem preserves : Cert.preserves_Kernel_KernelIdeal := trivial

/-- Both runs end with the specification's pair of group k of sample n at (k, n) of their two results. -/
theorem algebraic : Cert.algebraic_KernelIdeal_ReferenceIdeal := by
  intro m ρ m' ρ' _ hagree
  refine ⟨_, _, Cert.KernelIdeal.KRun.run Cert.KernelIdeal.KOut.out1_apply Cert.KernelIdeal.KOut.out2_apply m ρ, ?_⟩
  refine (θ_run Cert.ReferenceIdeal.defs _ _).mono (fun r h c => ⟨?_, ?_, ?_⟩)
    (Cert.ReferenceIdeal.RefRun.run_main (F := Ideal) m' ρ')
  · refine (h c Cert.ReferenceIdeal.main_v202).trans ((Cert.ReferenceIdeal.RefRun.out_ma _).trans ?_)
    funext i
    obtain ⟨k, n, rfl⟩ : ∃ (k : Fin 7) (n : Fin 4096), i = ix2 k n := ⟨i 0, i 1, eq_ix2 i⟩
    refine (Cert.ReferenceIdeal.RefValue.refMa_apply _ k n).trans ?_
    exact congrArg (fun y => Cert.Pose.outMa (Cert.Pose.sampleOf y n) k) (hagree c)
  · refine (h c Cert.ReferenceIdeal.main_v203).trans ((Cert.ReferenceIdeal.RefRun.out_mi _).trans ?_)
    funext i
    obtain ⟨k, n, rfl⟩ : ∃ (k : Fin 7) (n : Fin 4096), i = ix2 k n := ⟨i 0, i 1, eq_ix2 i⟩
    refine (Cert.ReferenceIdeal.RefValue.refMi_apply _ k n).trans ?_
    exact congrArg (fun y => Cert.Pose.outMi (Cert.Pose.sampleOf y n) k) (hagree c)
  · exact (h c Cert.ReferenceIdeal.main_arg0).trans (Cert.ReferenceIdeal.RefRun.arg_kept _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
